-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S30000x256 : Shape := ⟨2, ![30000, 256]⟩
abbrev S1000000 : Shape := ⟨1, ![1000000]⟩
abbrev S200000 : Shape := ⟨1, ![200000]⟩
abbrev S256x256 : Shape := ⟨2, ![256, 256]⟩
abbrev S256 : Shape := ⟨1, ![256]⟩
abbrev S512x256 : Shape := ⟨2, ![512, 256]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S30000x256 : S_.BroadcastsInDim S30000x256 (![] : Fin 0 → Fin S30000x256.rank)
  reducesTo_S30000x256_S_d0_1 : S30000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg18 : FVec F S512x256 .f32) (main_arg19 : FVec F S256 .f32) (main_arg20 : FVec F S256x1 .f32) (main_arg21 : FVec F S1 .f32) (main_v63 : IVec S_ 1) (main_v67 : IVec S_ 1) : IVec S_ 1 :=
  let main_v68 : IVec S_ 1 := andi main_v63 main_v67
  let main_v69 : FVec F S512x256 .f32 := Host.absf main_arg18
  let main_cst_26 : FVec F S_ .f32 := constant S_ .f32 0x7F800000#32
  let main_v70 : FVec F S512x256 .f32 := broadcastInDim S512x256 ![] bcast_S_S512x256 main_cst_26
  let main_v71 : IVec S512x256 1 := cmpf .olt main_v69 main_v70
  let main_c_27 : IVec S_ 1 := constantI S_ 1 1#1
  let main_v72 : IVec S_ 1 := (fun x v => Host.reduce IntOp.andi x v reducesTo_S512x256_S_d0_1 h_S_) main_v71 main_c_27
  let main_v73 : IVec S_ 1 := andi main_v68 main_v72
  let main_v74 : FVec F S256 .f32 := Host.absf main_arg19
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x1 .f32 := Host.absf main_arg20
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg21
  let main_cst_32 : FVec F S_ .f32 := constant S_ .f32 0x7F800000#32
  fn_part5 (F := F) main_v83 main_v84 main_cst_32

def fn_part3 {F : FTy → Type} [FloatOps F] (main_arg15 : FVec F S256x256 .f32) (main_arg16 : FVec F S256 .f32) (main_arg17 : FVec F S256x256 .f32) (main_arg18 : FVec F S512x256 .f32) (main_arg19 : FVec F S256 .f32) (main_arg20 : FVec F S256x1 .f32) (main_arg21 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg17
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg18 main_arg19 main_arg20 main_arg21 main_v63 main_v67

def fn_part2 {F : FTy → Type} [FloatOps F] (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S512x256 .f32) (main_arg19 : FVec F S256 .f32) (main_arg20 : FVec F S256x1 .f32) (main_arg21 : FVec F S1 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg14
  let main_cst_18 : FVec F S_ .f32 := constant S_ .f32 0x7F800000#32
  let main_v50 : FVec F S256x256 .f32 := broadcastInDim S256x256 ![] bcast_S_S256x256 main_cst_18
  fn_part3 (F := F) main_arg15 main_arg16 main_arg17 main_arg18 main_arg19 main_arg20 main_arg21 main_v48 main_v49 main_v50

def fn_part1 {F : FTy → Type} [FloatOps F] (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S512x256 .f32) (main_arg19 : FVec F S256 .f32) (main_arg20 : FVec F S256x1 .f32) (main_arg21 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_v33

def fn {F : FTy → Type} [FloatOps F] (main_arg0 : FVec F S50000x256 .f32) (main_arg1 : FVec F S30000x256 .f32) (main_arg2 : IVec S1000000 32) (main_arg3 : IVec S1000000 32) (main_arg4 : IVec S200000 32) (main_arg5 : IVec S200000 32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S512x256 .f32) (main_arg19 : FVec F S256 .f32) (main_arg20 : FVec F S256x1 .f32) (main_arg21 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S30000x256 .f32 := Host.absf main_arg1
  let main_cst_0 : FVec F S_ .f32 := constant S_ .f32 0x7F800000#32
  let main_v5 : FVec F S30000x256 .f32 := broadcastInDim S30000x256 ![] bcast_S_S30000x256 main_cst_0
  let main_v6 : IVec S30000x256 1 := cmpf .olt main_v4 main_v5
  let main_c_1 : IVec S_ 1 := constantI S_ 1 1#1
  let main_v7 : IVec S_ 1 := (fun x v => Host.reduce IntOp.andi x v reducesTo_S30000x256_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_arg15 main_arg16 main_arg17 main_arg18 main_arg19 main_arg20 main_arg21 main_v13 main_v16
-- ==== Kernel.lean ====
abbrev S50000x256 : Shape := ⟨2, ![50000, 256]⟩
abbrev S30000x256 : Shape := ⟨2, ![30000, 256]⟩
abbrev S1000000 : Shape := ⟨1, ![1000000]⟩
abbrev S200000 : Shape := ⟨1, ![200000]⟩
abbrev S256x256 : Shape := ⟨2, ![256, 256]⟩
abbrev S256 : Shape := ⟨1, ![256]⟩
abbrev S512x256 : Shape := ⟨2, ![512, 256]⟩
abbrev S256x1 : Shape := ⟨2, ![256, 1]⟩
abbrev S1 : Shape := ⟨1, ![1]⟩
abbrev S_ : Shape := ⟨0, ![]⟩
abbrev S30000 : Shape := ⟨1, ![30000]⟩
abbrev S1000000x1 : Shape := ⟨2, ![1000000, 1]⟩
abbrev S50000 : Shape := ⟨1, ![50000]⟩
abbrev S30000x1 : Shape := ⟨2, ![30000, 1]⟩
abbrev S50000x1 : Shape := ⟨2, ![50000, 1]⟩
abbrev S1000000x256 : Shape := ⟨2, ![1000000, 256]⟩
abbrev S1x256 : Shape := ⟨2, ![1, 256]⟩
abbrev S2000x256 : Shape := ⟨2, ![2000, 256]⟩
abbrev S2000x1 : Shape := ⟨2, ![2000, 1]⟩
abbrev S200000x1 : Shape := ⟨2, ![200000, 1]⟩
abbrev S200000x256 : Shape := ⟨2, ![200000, 256]⟩
abbrev S1x1 : Shape := ⟨2, ![1, 1]⟩

abbrev nBuf : Space → Nat
  | .hbm => 136
  | .vmem => 55
  | .smem => 0
  | _ => 0

abbrev hbmTy0_0 (i : Nat) : BufTy := match i % 128 with
  | 0 => ⟨S50000x256, .f32⟩
  | 1 => ⟨S30000x256, .f32⟩
  | 2 => ⟨S1000000, .i32⟩
  | 3 => ⟨S1000000, .i32⟩
  | 4 => ⟨S200000, .i32⟩
  | 5 => ⟨S200000, .i32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S512x256, .f32⟩
  | 19 => ⟨S256, .f32⟩
  | 20 => ⟨S256x1, .f32⟩
  | 21 => ⟨S1, .f32⟩
  | 22 => ⟨S_, .f32⟩
  | 23 => ⟨S1000000, .f32⟩
  | 24 => ⟨S_, .f32⟩
  | 25 => ⟨S30000, .f32⟩
  | 26 => ⟨S1000000x1, .i32⟩
  | 27 => ⟨S30000, .f32⟩
  | 28 => ⟨S_, .f32⟩
  | 29 => ⟨S50000, .f32⟩
  | 30 => ⟨S1000000x1, .i32⟩
  | 31 => ⟨S50000, .f32⟩
  | 32 => ⟨S_, .f32⟩
  | 33 => ⟨S30000, .f32⟩
  | 34 => ⟨S30000, .f32⟩
  | 35 => ⟨S_, .f32⟩
  | 36 => ⟨S30000, .f32⟩
  | 37 => ⟨S30000, .f32⟩
  | 38 => ⟨S30000x1, .f32⟩
  | 39 => ⟨S_, .f32⟩
  | 40 => ⟨S50000, .f32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x256, .bf16⟩
  | 47 => ⟨S30000x256, .bf16⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x256, .bf16⟩
  | 57 => ⟨S1000000x256, .f32⟩
  | 58 => ⟨S_, .f32⟩
  | 59 => ⟨S30000x256, .f32⟩
  | 60 => ⟨S1000000x1, .i32⟩
  | 61 => ⟨S30000x256, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x256, .bf16⟩
  | 71 => ⟨S1000000x256, .f32⟩
  | 72 => ⟨S_, .f32⟩
  | 73 => ⟨S50000x256, .f32⟩
  | 74 => ⟨S1000000x1, .i32⟩
  | 75 => ⟨S50000x256, .f32⟩
  | 76 => ⟨S1x256, .f32⟩
  | 77 => ⟨S50000x256, .bf16⟩
  | 78 => ⟨S1x256, .f32⟩
  | 79 => ⟨S30000x256, .bf16⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000x256, .bf16⟩
  | 89 => ⟨S1000000x256, .f32⟩
  | 90 => ⟨S_, .f32⟩
  | 91 => ⟨S30000x256, .f32⟩
  | 92 => ⟨S1000000x1, .i32⟩
  | 93 => ⟨S30000x256, .f32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S1000000x1, .i32⟩
  | 102 => ⟨S1000000x256, .bf16⟩
  | 103 => ⟨S1000000x256, .f32⟩
  | 104 => ⟨S_, .f32⟩
  | 105 => ⟨S50000x256, .f32⟩
  | 106 => ⟨S1000000x1, .i32⟩
  | 107 => ⟨S50000x256, .f32⟩
  | 108 => ⟨S1x256, .f32⟩
  | 109 => ⟨S50000x256, .bf16⟩
  | 110 => ⟨S1x256, .f32⟩
  | 111 => ⟨S30000x256, .bf16⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000x256, .bf16⟩
  | 121 => ⟨S_, .i32⟩
  | 122 => ⟨S200000, .i32⟩
  | 123 => ⟨S200000, .i1⟩
  | 124 => ⟨S_, .i32⟩
  | 125 => ⟨S200000, .i32⟩
  | 126 => ⟨S200000, .i32⟩
  | 127 => ⟨S200000, .i32⟩
  | _ => ⟨S50000x256, .f32⟩

abbrev hbmTy0_1 (i : Nat) : BufTy := match i % 128 with
  | 0 => ⟨S200000x1, .i32⟩
  | 1 => ⟨S200000x256, .bf16⟩
  | 2 => ⟨S256x256, .f32⟩
  | 3 => ⟨S256x256, .f32⟩
  | 4 => ⟨S1x256, .f32⟩
  | 5 => ⟨S1x1, .f32⟩
  | 6 => ⟨S200000x1, .f32⟩
  | 7 => ⟨S200000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x256, .f32⟩
  | .local _ .vmem, ⟨5, _⟩ => ⟨S1x256, .f32⟩
  | .local _ .vmem, ⟨6, _⟩ => ⟨S2000x256, .bf16⟩
  | .local _ .vmem, ⟨7, _⟩ => ⟨S2000x256, .bf16⟩
  | .local _ .vmem, ⟨8, _⟩ => ⟨S256x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S256x256, .f32⟩
  | .local _ .vmem, ⟨16, _⟩ => ⟨S1x256, .f32⟩
  | .local _ .vmem, ⟨17, _⟩ => ⟨S2000x256, .bf16⟩
  | .local _ .vmem, ⟨18, _⟩ => ⟨S2000x256, .bf16⟩
  | .local _ .vmem, ⟨19, _⟩ => ⟨S256x256, .f32⟩
  | .local _ .vmem, ⟨20, _⟩ => ⟨S2000x256, .bf16⟩
  | .local _ .vmem, ⟨21, _⟩ => ⟨S2000x256, .bf16⟩
  | .local _ .vmem, ⟨22, _⟩ => ⟨S2000x256, .f32⟩
  | .local _ .vmem, ⟨23, _⟩ => ⟨S2000x256, .f32⟩
  | .local _ .vmem, ⟨24, _⟩ => ⟨S2000x1, .f32⟩
  | .local _ .vmem, ⟨25, _⟩ => ⟨S2000x1, .f32⟩
  | .local _ .vmem, ⟨26, _⟩ => ⟨S256x256, .f32⟩
  | .local _ .vmem, ⟨27, _⟩ => ⟨S1x256, .f32⟩
  | .local _ .vmem, ⟨28, _⟩ => ⟨S2000x256, .bf16⟩
  | .local _ .vmem, ⟨29, _⟩ => ⟨S2000x256, .bf16⟩
  | .local _ .vmem, ⟨30, _⟩ => ⟨S256x256, .f32⟩
  | .local _ .vmem, ⟨31, _⟩ => ⟨S2000x256, .bf16⟩
  | .local _ .vmem, ⟨32, _⟩ => ⟨S2000x256, .bf16⟩
  | .local _ .vmem, ⟨33, _⟩ => ⟨S2000x256, .f32⟩
  | .local _ .vmem, ⟨34, _⟩ => ⟨S2000x256, .f32⟩
  | .local _ .vmem, ⟨35, _⟩ => ⟨S2000x1, .f32⟩
  | .local _ .vmem, ⟨36, _⟩ => ⟨S2000x1, .f32⟩
  | .local _ .vmem, ⟨37, _⟩ => ⟨S256x256, .f32⟩
  | .local _ .vmem, ⟨38, _⟩ => ⟨S1x256, .f32⟩
  | .local _ .vmem, ⟨39, _⟩ => ⟨S2000x256, .bf16⟩
  | .local _ .vmem, ⟨40, _⟩ => ⟨S2000x256, .bf16⟩
  | .local _ .vmem, ⟨41, _⟩ => ⟨S256x256, .f32⟩
  | .local _ .vmem, ⟨42, _⟩ => ⟨S2000x256, .bf16⟩
  | .local _ .vmem, ⟨43, _⟩ => ⟨S2000x256, .bf16⟩
  | .local _ .vmem, ⟨44, _⟩ => ⟨S2000x256, .bf16⟩
  | .local _ .vmem, ⟨45, _⟩ => ⟨S2000x256, .bf16⟩
  | .local _ .vmem, ⟨46, _⟩ => ⟨S2000x256, .bf16⟩
  | .local _ .vmem, ⟨47, _⟩ => ⟨S2000x256, .bf16⟩
  | .local _ .vmem, ⟨48, _⟩ => ⟨S256x256, .f32⟩
  | .local _ .vmem, ⟨49, _⟩ => ⟨S256x256, .f32⟩
  | .local _ .vmem, ⟨50, _⟩ => ⟨S1x256, .f32⟩
  | .local _ .vmem, ⟨51, _⟩ => ⟨S256x1, .f32⟩
  | .local _ .vmem, ⟨52, _⟩ => ⟨S1x1, .f32⟩
  | .local _ .vmem, ⟨53, _⟩ => ⟨S2000x1, .f32⟩
  | .local _ .vmem, ⟨54, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_2 : Ref sig .tc := ⟨.hbm, 32, rfl⟩
abbrev main_v7 : Ref sig .tc := ⟨.hbm, 33, rfl⟩
abbrev main_v8 : Ref sig .tc := ⟨.hbm, 34, rfl⟩
abbrev main_cst_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_4 : Ref sig .tc := ⟨.hbm, 39, rfl⟩
abbrev main_v12 : Ref sig .tc := ⟨.hbm, 40, rfl⟩
abbrev main_v13 : Ref sig .tc := ⟨.hbm, 41, rfl⟩
abbrev main_cst_5 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c : Ref sig .tc := ⟨.hbm, 48, rfl⟩
abbrev main_v19 : Ref sig .tc := ⟨.hbm, 49, rfl⟩
abbrev main_v20 : Ref sig .tc := ⟨.hbm, 50, rfl⟩
abbrev main_c_6 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_7 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_8 : Ref sig .tc := ⟨.hbm, 62, rfl⟩
abbrev main_v30 : Ref sig .tc := ⟨.hbm, 63, rfl⟩
abbrev main_v31 : Ref sig .tc := ⟨.hbm, 64, rfl⟩
abbrev main_c_9 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_10 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_11 : Ref sig .tc := ⟨.hbm, 80, rfl⟩
abbrev main_v45 : Ref sig .tc := ⟨.hbm, 81, rfl⟩
abbrev main_v46 : Ref sig .tc := ⟨.hbm, 82, rfl⟩
abbrev main_c_12 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_13 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_14 : Ref sig .tc := ⟨.hbm, 94, rfl⟩
abbrev main_v56 : Ref sig .tc := ⟨.hbm, 95, rfl⟩
abbrev main_v57 : Ref sig .tc := ⟨.hbm, 96, rfl⟩
abbrev main_c_15 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_16 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_17 : Ref sig .tc := ⟨.hbm, 112, rfl⟩
abbrev main_v71 : Ref sig .tc := ⟨.hbm, 113, rfl⟩
abbrev main_v72 : Ref sig .tc := ⟨.hbm, 114, rfl⟩
abbrev main_c_18 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_19 : Ref sig .tc := ⟨.hbm, 121, rfl⟩
abbrev main_v78 : Ref sig .tc := ⟨.hbm, 122, rfl⟩
abbrev main_v79 : Ref sig .tc := ⟨.hbm, 123, rfl⟩
abbrev main_c_20 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg4_1 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg7_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem4_1 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bcast_S_S1000000 : S_.BroadcastsInDim S1000000 (![] : Fin 0 → Fin S1000000.rank)
  bcast_S_S30000 : S_.BroadcastsInDim S30000 (![] : Fin 0 → Fin S30000.rank)
  bcast_S1000000_S1000000x1_0 : S1000000.BroadcastsInDim S1000000x1 (![0] : Fin 1 → Fin S1000000x1.rank)
  bcast_S_S50000 : S_.BroadcastsInDim S50000 (![] : Fin 0 → Fin S50000.rank)
  shapeCasts_S30000_S30000x1 : S30000.ShapeCasts S30000x1
  shapeCasts_S50000_S50000x1 : S50000.ShapeCasts S50000x1
  bitsLt_bf16_f32 : FTy.bits .bf16 < FTy.bits .f32
  bcast_S_S30000x256 : S_.BroadcastsInDim S30000x256 (![] : Fin 0 → Fin S30000x256.rank)
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  bcast_S_S200000 : S_.BroadcastsInDim S200000 (![] : Fin 0 → Fin S200000.rank)
  bcast_S200000_S200000x1_0 : S200000.BroadcastsInDim S200000x1 (![0] : Fin 1 → Fin S200000x1.rank)
  slices_S512x256_S256x256_0_0 : S512x256.Slices ![0, 0] S256x256
  slices_S512x256_S256x256_256_0 : S512x256.Slices ![256, 0] S256x256
  shapeCasts_S1_S1x1 : S1.ShapeCasts S1x1
  shapeCasts_S256x256_S256x256 : S256x256.ShapeCasts S256x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S200000x1_S200000 : S200000x1.ShapeCasts S200000
  scatter_S30000_S1000000x1_S1000000_n_0_0_1_wf : ScatterDims.WF S30000 S1000000x1 S1000000 [] [0] [0] 1
  scatter_S50000_S1000000x1_S1000000_n_0_0_1_wf : ScatterDims.WF S50000 S1000000x1 S1000000 [] [0] [0] 1
  gather_S50000x256_S1000000x1_S1000000x256_1_0_n_n_0_1_1256_wf : GatherDims.WF S50000x256 S1000000x1 S1000000x256 [1] [0] [] [0] [] 1 ![1, 256]
  scatter_S30000x256_S1000000x1_S1000000x256_1_0_0_1_wf : ScatterDims.WF S30000x256 S1000000x1 S1000000x256 [1] [0] [0] 1
  gather_S30000x256_S1000000x1_S1000000x256_1_0_n_n_0_1_1256_wf : GatherDims.WF S30000x256 S1000000x1 S1000000x256 [1] [0] [] [0] [] 1 ![1, 256]
  scatter_S50000x256_S1000000x1_S1000000x256_1_0_0_1_wf : ScatterDims.WF S50000x256 S1000000x1 S1000000x256 [1] [0] [0] 1
  dot_S2000x256_S256x256_S2000x256_1_0_0_1_n_n_wf : DotDims.WF S2000x256 S256x256 S2000x256 [1] [0] [0] [1] [] []
  gather_S50000x256_S200000x1_S200000x256_1_0_n_n_0_1_1256_wf : GatherDims.WF S50000x256 S200000x1 S200000x256 [1] [0] [] [0] [] 1 ![1, 256]
  gather_S30000x256_S200000x1_S200000x256_1_0_n_n_0_1_1256_wf : GatherDims.WF S30000x256 S200000x1 S200000x256 [1] [0] [] [0] [] 1 ![1, 256]
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .bf16 = 32 ∨ (Rect.block (s := S50000x256) S2000x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .bf16 = 32 ∨ (Rect.block (s := S50000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S30000x256.size a
  hwx1_0 : ∀ i : grid1.Coords, EltTy.bits .f32 = 32 ∨ (Rect.block (s := S30000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S30000x1.size a
  hwx1_1 : ∀ i : grid1.Coords, EltTy.bits .f32 = 32 ∨ (Rect.block (s := S30000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S30000x256.size a
  hwx1_4 : ∀ i : grid1.Coords, EltTy.bits .bf16 = 32 ∨ (Rect.block (s := S30000x256) S2000x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S30000x256.size a
  hwx1_6 : ∀ i : grid1.Coords, EltTy.bits .bf16 = 32 ∨ (Rect.block (s := S30000x256) S2000x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .bf16 = 32 ∨ (Rect.block (s := S50000x256) S2000x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .bf16 = 32 ∨ (Rect.block (s := S50000x256) S2000x256.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S30000x256.size a
  hwx3_0 : ∀ i : grid3.Coords, EltTy.bits .f32 = 32 ∨ (Rect.block (s := S30000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S30000x1.size a
  hwx3_1 : ∀ i : grid3.Coords, EltTy.bits .f32 = 32 ∨ (Rect.block (s := S30000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S30000x256.size a
  hwx3_4 : ∀ i : grid3.Coords, EltTy.bits .bf16 = 32 ∨ (Rect.block (s := S30000x256) S2000x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S30000x256.size a
  hwx3_6 : ∀ i : grid3.Coords, EltTy.bits .bf16 = 32 ∨ (Rect.block (s := S30000x256) S2000x256.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S200000x256.size a
  hwx4_0 : ∀ i : grid4.Coords, EltTy.bits .bf16 = 32 ∨ (Rect.block (s := S200000x256) S2000x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S200000x256.size a
  hwx4_1 : ∀ i : grid4.Coords, EltTy.bits .bf16 = 32 ∨ (Rect.block (s := S200000x256) S2000x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x1.size a ≤ S256x1.size a
  hwx4_5 : ∀ i : grid4.Coords, EltTy.bits .f32 = 32 ∨ (Rect.block (s := S256x1) S256x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x1.size a ≤ S200000x1.size a
  hwx4_7 : ∀ i : grid4.Coords, EltTy.bits .f32 = 32 ∨ (Rect.block (s := S200000x1) S2000x1.size (cc4_transform_7 i) (hinb4_7 i)).WholeWords (EltTy.packing .f32)

variable [Facts₀]

def scatter_S30000_S1000000x1_S1000000_n_0_0_1 : ScatterDims S30000 S1000000x1 S1000000 where
  updateWindowDims := []
  insertedWindowDims := [0]
  scatterDimsToOperandDims := [0]
  indexVectorDim := 1
  wf := scatter_S30000_S1000000x1_S1000000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x256_S1000000x1_S1000000x256_1_0_n_n_0_1_1256 : GatherDims S50000x256 S1000000x1 S1000000x256 where
  offsetDims := [1]
  collapsedSliceDims := [0]
  operandBatchingDims := []
  startIndicesBatchingDims := []
  startIndexMap := [0]
  indexVectorDim := 1
  sliceSizes := ![1, 256]
  wf := gather_S50000x256_S1000000x1_S1000000x256_1_0_n_n_0_1_1256_wf
def scatter_S30000x256_S1000000x1_S1000000x256_1_0_0_1 : ScatterDims S30000x256 S1000000x1 S1000000x256 where
  updateWindowDims := [1]
  insertedWindowDims := [0]
  scatterDimsToOperandDims := [0]
  indexVectorDim := 1
  wf := scatter_S30000x256_S1000000x1_S1000000x256_1_0_0_1_wf
def gather_S30000x256_S1000000x1_S1000000x256_1_0_n_n_0_1_1256 : GatherDims S30000x256 S1000000x1 S1000000x256 where
  offsetDims := [1]
  collapsedSliceDims := [0]
  operandBatchingDims := []
  startIndicesBatchingDims := []
  startIndexMap := [0]
  indexVectorDim := 1
  sliceSizes := ![1, 256]
  wf := gather_S30000x256_S1000000x1_S1000000x256_1_0_n_n_0_1_1256_wf
def scatter_S50000x256_S1000000x1_S1000000x256_1_0_0_1 : ScatterDims S50000x256 S1000000x1 S1000000x256 where
  updateWindowDims := [1]
  insertedWindowDims := [0]
  scatterDimsToOperandDims := [0]
  indexVectorDim := 1
  wf := scatter_S50000x256_S1000000x1_S1000000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def gather_S30000x256_S200000x1_S200000x256_1_0_n_n_0_1_1256 : GatherDims S30000x256 S200000x1 S200000x256 where
  offsetDims := [1]
  collapsedSliceDims := [0]
  operandBatchingDims := []
  startIndicesBatchingDims := []
  startIndexMap := [0]
  indexVectorDim := 1
  sliceSizes := ![1, 256]
  wf := gather_S30000x256_S200000x1_S200000x256_1_0_n_n_0_1_1256_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_v40) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S2000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v66) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg15) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S2000x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v55) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S2000x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v70) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v77) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v85) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg20) S256x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v88) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v89) S2000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x256 : Shape := ⟨2, ![50000, 256]⟩
abbrev S30000x256 : Shape := ⟨2, ![30000, 256]⟩
abbrev S1000000 : Shape := ⟨1, ![1000000]⟩
abbrev S200000 : Shape := ⟨1, ![200000]⟩
abbrev S256x256 : Shape := ⟨2, ![256, 256]⟩
abbrev S256 : Shape := ⟨1, ![256]⟩
abbrev S512x256 : Shape := ⟨2, ![512, 256]⟩
abbrev S256x1 : Shape := ⟨2, ![256, 1]⟩
abbrev S1 : Shape := ⟨1, ![1]⟩
abbrev S_ : Shape := ⟨0, ![]⟩
abbrev S1000000x1 : Shape := ⟨2, ![1000000, 1]⟩
abbrev S1000000x256 : Shape := ⟨2, ![1000000, 256]⟩
abbrev S30000 : Shape := ⟨1, ![30000]⟩
abbrev S30000x1 : Shape := ⟨2, ![30000, 1]⟩
abbrev S1x256 : Shape := ⟨2, ![1, 256]⟩
abbrev S50000 : Shape := ⟨1, ![50000]⟩
abbrev S50000x1 : Shape := ⟨2, ![50000, 1]⟩
abbrev S200000x1 : Shape := ⟨2, ![200000, 1]⟩
abbrev S200000x256 : Shape := ⟨2, ![200000, 256]⟩
abbrev S200000x512 : Shape := ⟨2, ![200000, 512]⟩
abbrev S1x1 : Shape := ⟨2, ![1, 1]⟩

abbrev nBuf : Space → Nat
  | .hbm => 183
  | .vmem => 0
  | .smem => 0
  | _ => 0

abbrev hbmTy0_0 (i : Nat) : BufTy := match i % 128 with
  | 0 => ⟨S50000x256, .f32⟩
  | 1 => ⟨S30000x256, .f32⟩
  | 2 => ⟨S1000000, .i32⟩
  | 3 => ⟨S1000000, .i32⟩
  | 4 => ⟨S200000, .i32⟩
  | 5 => ⟨S200000, .i32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S512x256, .f32⟩
  | 19 => ⟨S256, .f32⟩
  | 20 => ⟨S256x1, .f32⟩
  | 21 => ⟨S1, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x256, .f32⟩
  | 31 => ⟨S_, .f32⟩
  | 32 => ⟨S30000x256, .f32⟩
  | 33 => ⟨S1000000x1, .i32⟩
  | 34 => ⟨S30000x256, .f32⟩
  | 35 => ⟨S_, .f32⟩
  | 36 => ⟨S1000000, .f32⟩
  | 37 => ⟨S_, .f32⟩
  | 38 => ⟨S30000, .f32⟩
  | 39 => ⟨S1000000x1, .i32⟩
  | 40 => ⟨S30000, .f32⟩
  | 41 => ⟨S_, .f32⟩
  | 42 => ⟨S30000, .f32⟩
  | 43 => ⟨S30000, .f32⟩
  | 44 => ⟨S30000x1, .f32⟩
  | 45 => ⟨S30000x256, .f32⟩
  | 46 => ⟨S30000x256, .f32⟩
  | 47 => ⟨S30000x256, .f32⟩
  | 48 => ⟨S1x256, .f32⟩
  | 49 => ⟨S30000x256, .f32⟩
  | 50 => ⟨S30000x256, .f32⟩
  | 51 => ⟨S30000x256, .f32⟩
  | 52 => ⟨S30000x256, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x256, .f32⟩
  | 62 => ⟨S_, .f32⟩
  | 63 => ⟨S50000x256, .f32⟩
  | 64 => ⟨S1000000x1, .i32⟩
  | 65 => ⟨S50000x256, .f32⟩
  | 66 => ⟨S_, .f32⟩
  | 67 => ⟨S1000000, .f32⟩
  | 68 => ⟨S_, .f32⟩
  | 69 => ⟨S50000, .f32⟩
  | 70 => ⟨S1000000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x256, .f32⟩
  | 77 => ⟨S50000x256, .f32⟩
  | 78 => ⟨S50000x256, .f32⟩
  | 79 => ⟨S1x256, .f32⟩
  | 80 => ⟨S50000x256, .f32⟩
  | 81 => ⟨S50000x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S_, .f32⟩
  | 88 => ⟨S30000x256, .f32⟩
  | 89 => ⟨S30000x256, .f32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x256, .f32⟩
  | 99 => ⟨S_, .f32⟩
  | 100 => ⟨S30000x256, .f32⟩
  | 101 => ⟨S1000000x1, .i32⟩
  | 102 => ⟨S30000x256, .f32⟩
  | 103 => ⟨S_, .f32⟩
  | 104 => ⟨S1000000, .f32⟩
  | 105 => ⟨S_, .f32⟩
  | 106 => ⟨S30000, .f32⟩
  | 107 => ⟨S1000000x1, .i32⟩
  | 108 => ⟨S30000, .f32⟩
  | 109 => ⟨S_, .f32⟩
  | 110 => ⟨S30000, .f32⟩
  | 111 => ⟨S30000, .f32⟩
  | 112 => ⟨S30000x1, .f32⟩
  | 113 => ⟨S30000x256, .f32⟩
  | 114 => ⟨S30000x256, .f32⟩
  | 115 => ⟨S30000x256, .f32⟩
  | 116 => ⟨S1x256, .f32⟩
  | 117 => ⟨S30000x256, .f32⟩
  | 118 => ⟨S30000x256, .f32⟩
  | 119 => ⟨S30000x256, .f32⟩
  | 120 => ⟨S30000x256, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S50000x256, .f32⟩

abbrev hbmTy0_1 (i : Nat) : BufTy := match i % 128 with
  | 0 => ⟨S1000000x1, .i32⟩
  | 1 => ⟨S1000000x256, .f32⟩
  | 2 => ⟨S_, .f32⟩
  | 3 => ⟨S50000x256, .f32⟩
  | 4 => ⟨S1000000x1, .i32⟩
  | 5 => ⟨S50000x256, .f32⟩
  | 6 => ⟨S_, .f32⟩
  | 7 => ⟨S1000000, .f32⟩
  | 8 => ⟨S_, .f32⟩
  | 9 => ⟨S50000, .f32⟩
  | 10 => ⟨S1000000x1, .i32⟩
  | 11 => ⟨S50000, .f32⟩
  | 12 => ⟨S_, .f32⟩
  | 13 => ⟨S50000, .f32⟩
  | 14 => ⟨S50000, .f32⟩
  | 15 => ⟨S50000x1, .f32⟩
  | 16 => ⟨S50000x256, .f32⟩
  | 17 => ⟨S50000x256, .f32⟩
  | 18 => ⟨S50000x256, .f32⟩
  | 19 => ⟨S1x256, .f32⟩
  | 20 => ⟨S50000x256, .f32⟩
  | 21 => ⟨S50000x256, .f32⟩
  | 22 => ⟨S50000x256, .f32⟩
  | 23 => ⟨S50000x256, .f32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x256, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x256, .f32⟩
  | 42 => ⟨S200000x512, .f32⟩
  | 43 => ⟨S200000x256, .f32⟩
  | 44 => ⟨S1x256, .f32⟩
  | 45 => ⟨S200000x256, .f32⟩
  | 46 => ⟨S200000x256, .f32⟩
  | 47 => ⟨S_, .f32⟩
  | 48 => ⟨S200000x256, .f32⟩
  | 49 => ⟨S200000x256, .f32⟩
  | 50 => ⟨S200000x1, .f32⟩
  | 51 => ⟨S1x1, .f32⟩
  | 52 => ⟨S200000x1, .f32⟩
  | 53 => ⟨S200000x1, .f32⟩
  | 54 => ⟨S200000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_7 : Ref sig .tc := ⟨.hbm, 66, rfl⟩
abbrev main_v35 : Ref sig .tc := ⟨.hbm, 67, rfl⟩
abbrev main_cst_8 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_9 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_call0_cst : Ref sig .tc := ⟨.hbm, 84, rfl⟩
abbrev main_call0_v0 : Ref sig .tc := ⟨.hbm, 85, rfl⟩
abbrev main_v50 : Ref sig .tc := ⟨.hbm, 86, rfl⟩
abbrev main_call1_cst : Ref sig .tc := ⟨.hbm, 87, rfl⟩
abbrev main_call1_v0 : Ref sig .tc := ⟨.hbm, 88, rfl⟩
abbrev main_v51 : Ref sig .tc := ⟨.hbm, 89, rfl⟩
abbrev main_c_10 : Ref sig .tc := ⟨.hbm, 90, rfl⟩
abbrev main_v52 : Ref sig .tc := ⟨.hbm, 91, rfl⟩
abbrev main_v53 : Ref sig .tc := ⟨.hbm, 92, rfl⟩
abbrev main_c_11 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_12 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_13 : Ref sig .tc := ⟨.hbm, 103, rfl⟩
abbrev main_v62 : Ref sig .tc := ⟨.hbm, 104, rfl⟩
abbrev main_cst_14 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_15 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_16 : Ref sig .tc := ⟨.hbm, 121, rfl⟩
abbrev main_v77 : Ref sig .tc := ⟨.hbm, 122, rfl⟩
abbrev main_v78 : Ref sig .tc := ⟨.hbm, 123, rfl⟩
abbrev main_c_17 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_18 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_19 : Ref sig .tc := ⟨.hbm, 134, rfl⟩
abbrev main_v87 : Ref sig .tc := ⟨.hbm, 135, rfl⟩
abbrev main_cst_20 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_21 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_c_22 : Ref sig .tc := ⟨.hbm, 152, rfl⟩
abbrev main_v102 : Ref sig .tc := ⟨.hbm, 153, rfl⟩
abbrev main_v103 : Ref sig .tc := ⟨.hbm, 154, rfl⟩
abbrev main_c_23 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_c_24 : Ref sig .tc := ⟨.hbm, 161, rfl⟩
abbrev main_v109 : Ref sig .tc := ⟨.hbm, 162, rfl⟩
abbrev main_v110 : Ref sig .tc := ⟨.hbm, 163, rfl⟩
abbrev main_c_25 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_call2_cst : Ref sig .tc := ⟨.hbm, 175, rfl⟩
abbrev main_call2_v0 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S30000x256 : S_.BroadcastsInDim S30000x256 (![] : Fin 0 → Fin S30000x256.rank)
  bcast_S_S30000 : S_.BroadcastsInDim S30000 (![] : Fin 0 → Fin S30000.rank)
  bcast_S30000_S30000x1_0 : S30000.BroadcastsInDim S30000x1 (![0] : Fin 1 → Fin S30000x1.rank)
  bcast_S30000x1_S30000x256_0_1 : S30000x1.BroadcastsInDim S30000x256 (![0, 1] : Fin 2 → Fin S30000x256.rank)
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x256_S200000x256_S200000x512_d1 : Shape.Concatenates [S200000x256, S200000x256] S200000x512 1
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S50000x256_S1000000x1_S1000000x256_1_0_n_n_0_1_1256_wf : GatherDims.WF S50000x256 S1000000x1 S1000000x256 [1] [0] [] [0] [] 1 ![1, 256]
  scatter_S30000x256_S1000000x1_S1000000x256_1_0_0_1_wf : ScatterDims.WF S30000x256 S1000000x1 S1000000x256 [1] [0] [0] 1
  scatter_S30000_S1000000x1_S1000000_n_0_0_1_wf : ScatterDims.WF S30000 S1000000x1 S1000000 [] [0] [0] 1
  dot_S30000x256_S256x256_S30000x256_1_0_0_1_n_n_wf : DotDims.WF S30000x256 S256x256 S30000x256 [1] [0] [0] [1] [] []
  gather_S30000x256_S1000000x1_S1000000x256_1_0_n_n_0_1_1256_wf : GatherDims.WF S30000x256 S1000000x1 S1000000x256 [1] [0] [] [0] [] 1 ![1, 256]
  scatter_S50000x256_S1000000x1_S1000000x256_1_0_0_1_wf : ScatterDims.WF S50000x256 S1000000x1 S1000000x256 [1] [0] [0] 1
  scatter_S50000_S1000000x1_S1000000_n_0_0_1_wf : ScatterDims.WF S50000 S1000000x1 S1000000 [] [0] [0] 1
  dot_S50000x256_S256x256_S50000x256_1_0_0_1_n_n_wf : DotDims.WF S50000x256 S256x256 S50000x256 [1] [0] [0] [1] [] []
  gather_S50000x256_S200000x1_S200000x256_1_0_n_n_0_1_1256_wf : GatherDims.WF S50000x256 S200000x1 S200000x256 [1] [0] [] [0] [] 1 ![1, 256]
  gather_S30000x256_S200000x1_S200000x256_1_0_n_n_0_1_1256_wf : GatherDims.WF S30000x256 S200000x1 S200000x256 [1] [0] [] [0] [] 1 ![1, 256]
  dot_S200000x512_S512x256_S200000x256_1_0_0_1_n_n_wf : DotDims.WF S200000x512 S512x256 S200000x256 [1] [0] [0] [1] [] []
  dot_S200000x256_S256x1_S200000x1_1_0_0_1_n_n_wf : DotDims.WF S200000x256 S256x1 S200000x1 [1] [0] [0] [1] [] []

variable [Facts₀]

def gather_S50000x256_S1000000x1_S1000000x256_1_0_n_n_0_1_1256 : GatherDims S50000x256 S1000000x1 S1000000x256 where
  offsetDims := [1]
  collapsedSliceDims := [0]
  operandBatchingDims := []
  startIndicesBatchingDims := []
  startIndexMap := [0]
  indexVectorDim := 1
  sliceSizes := ![1, 256]
  wf := gather_S50000x256_S1000000x1_S1000000x256_1_0_n_n_0_1_1256_wf
def scatter_S30000x256_S1000000x1_S1000000x256_1_0_0_1 : ScatterDims S30000x256 S1000000x1 S1000000x256 where
  updateWindowDims := [1]
  insertedWindowDims := [0]
  scatterDimsToOperandDims := [0]
  indexVectorDim := 1
  wf := scatter_S30000x256_S1000000x1_S1000000x256_1_0_0_1_wf
def scatter_S30000_S1000000x1_S1000000_n_0_0_1 : ScatterDims S30000 S1000000x1 S1000000 where
  updateWindowDims := []
  insertedWindowDims := [0]
  scatterDimsToOperandDims := [0]
  indexVectorDim := 1
  wf := scatter_S30000_S1000000x1_S1000000_n_0_0_1_wf
def dot_S30000x256_S256x256_S30000x256_1_0_0_1_n_n : DotDims S30000x256 S256x256 S30000x256 where
  lhsContracting := [1]
  rhsContracting := [0]
  lhsNonContracting := [0]
  rhsNonContracting := [1]
  lhsBatch := []
  rhsBatch := []
  wf := dot_S30000x256_S256x256_S30000x256_1_0_0_1_n_n_wf
def gather_S30000x256_S1000000x1_S1000000x256_1_0_n_n_0_1_1256 : GatherDims S30000x256 S1000000x1 S1000000x256 where
  offsetDims := [1]
  collapsedSliceDims := [0]
  operandBatchingDims := []
  startIndicesBatchingDims := []
  startIndexMap := [0]
  indexVectorDim := 1
  sliceSizes := ![1, 256]
  wf := gather_S30000x256_S1000000x1_S1000000x256_1_0_n_n_0_1_1256_wf
def scatter_S50000x256_S1000000x1_S1000000x256_1_0_0_1 : ScatterDims S50000x256 S1000000x1 S1000000x256 where
  updateWindowDims := [1]
  insertedWindowDims := [0]
  scatterDimsToOperandDims := [0]
  indexVectorDim := 1
  wf := scatter_S50000x256_S1000000x1_S1000000x256_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def gather_S30000x256_S200000x1_S200000x256_1_0_n_n_0_1_1256 : GatherDims S30000x256 S200000x1 S200000x256 where
  offsetDims := [1]
  collapsedSliceDims := [0]
  operandBatchingDims := []
  startIndicesBatchingDims := []
  startIndexMap := [0]
  indexVectorDim := 1
  sliceSizes := ![1, 256]
  wf := gather_S30000x256_S200000x1_S200000x256_1_0_n_n_0_1_1256_wf
def dot_S200000x512_S512x256_S200000x256_1_0_0_1_n_n : DotDims S200000x512 S512x256 S200000x256 where
  lhsContracting := [1]
  rhsContracting := [0]
  lhsNonContracting := [0]
  rhsNonContracting := [1]
  lhsBatch := []
  rhsBatch := []
  wf := dot_S200000x512_S512x256_S200000x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.KRun.lean ====
/-
  The idealized kernel program's run with its result named.

  The program is five kernel launches among six stretches of host operations. Its buffers' contents at the
  eleven boundaries between these segments form a chain: the launch memory, then after each stretch the host
  operations' results folded in, and after each launch the launched kernel's output array replaced by what its
  grid points wrote back, everything else as it was. Every weakly fair execution terminates without a fault
  with every unscoped buffer at the last link of this chain. Read at the result buffer this names the
  program's result; read at an argument it gives back the launch contents, because no segment writes one.
-/
import proofs.«119415_j90744069030634_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and every argument as launched. -/
theorem run : θ_run defs (onTc (τ := τ) (main (F := F))) ⟨m, fun _ => 0, ρ⟩ (fun r => ∀ c : Dev nD,
      r.2.mem ((c.tc : Thread nD τ).loc main_v90) = W11 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v90 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c),
       (h c _ (mem_uc main_arg21 (by decide))).trans (W11_main_arg21 m ρ c)⟩)

end Cert.KernelIdeal.Run

end
-- ==== Proof.KKeep.lean ====
/-
  What a stretch of host operations leaves alone.

  The program assigns every buffer once, in program order: the buffers a stretch of host operations writes are
  its own results, and those are numbered after every buffer that exists before the stretch. So a buffer whose
  number lies below the stretch's first result is written by none of its operations and holds after the stretch
  what it held before it: the arguments (numbers 0 to 21) cross every stretch, and a result computed earlier is
  still there when a later segment reads it.
-/
import proofs.«119415_j90744069030634_2_alg».proof.Proof.Gen.KernelIdeal.Launch
import Idealize.ShloMosaic.Lib.StableHlo.Run

noncomputable section

namespace Cert.KernelIdeal.Chain

open Idealize.ShloMosaic Idealize.ShloMosaic.TcCoe Idealize.SL.Sem Idealize.ShloMosaic.StableHlo
open Cert.KernelIdeal Cert.KernelIdeal.Gen

variable {F : FTy → Type} [FloatOps F]

/-- The first stretch's results are numbered from 22: an argument crosses it. -/
theorem host0_keep (W : Valuation τ sig (Elt F)) (b : Ref sig .tc) (hb : b.idx.val < 22) :
    after hostOps0 W (Proc.devRef .tc b) = W (Proc.devRef .tc b) := by
  refine after_of_forall_not_mem _ _ (List.forall_iff_forall_mem.mp ?_)
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (fun e => by subst e; exact absurd hb (by decide))

/-- The second stretch writes buffer 78 only. -/
theorem host1_keep (W : Valuation τ sig (Elt F)) (b : Ref sig .tc) (hb : b.idx.val < 78) :
    after hostOps1 W (Proc.devRef .tc b) = W (Proc.devRef .tc b) := by
  refine after_of_forall_not_mem _ _ (List.forall_iff_forall_mem.mp ?_)
  simp only [hostOps1, List.Forall, StableHlo.reshape_writes, Finset.mem_singleton]
  exact StableHlo.devRef_ne_of_ne (fun e => by subst e; exact absurd hb (by decide))

/-- The third stretch's results are numbered from 80. -/
theorem host2_keep (W : Valuation τ sig (Elt F)) (b : Ref sig .tc) (hb : b.idx.val < 80) :
    after hostOps2 W (Proc.devRef .tc b) = W (Proc.devRef .tc b) := by
  refine after_of_forall_not_mem _ _ (List.forall_iff_forall_mem.mp ?_)
  simp only [hostOps2, List.Forall, StableHlo.nullary_writes, StableHlo.unary_writes, StableHlo.binary_writes,
    StableHlo.ternary_writes, StableHlo.reshape_writes, Finset.mem_singleton]
  repeat' apply And.intro
  all_goals exact StableHlo.devRef_ne_of_ne (fun e => by subst e; exact absurd hb (by decide))

/-- The fourth stretch writes buffer 110 only. -/
theorem host3_keep (W : Valuation τ sig (Elt F)) (b : Ref sig .tc) (hb : b.idx.val < 110) :
    after hostOps3 W (Proc.devRef .tc b) = W (Proc.devRef .tc b) := by
  refine after_of_forall_not_mem _ _ (List.forall_iff_forall_mem.mp ?_)
  simp only [hostOps3, List.Forall, StableHlo.reshape_writes, Finset.mem_singleton]
  exact StableHlo.devRef_ne_of_ne (fun e => by subst e; exact absurd hb (by decide))

/-- The fifth stretch's results are numbered from 112. -/
theorem host4_keep (W : Valuation τ sig (Elt F)) (b : Ref sig .tc) (hb : b.idx.val < 112) :
    after hostOps4 W (Proc.devRef .tc b) = W (Proc.devRef .tc b) := by
  refine after_of_forall_not_mem _ _ (List.forall_iff_forall_mem.mp ?_)
  simp only [hostOps4, List.Forall, StableHlo.nullary_writes, StableHlo.unary_writes, StableHlo.binary_writes,
    StableHlo.ternary_writes, StableHlo.reshape_writes, Finset.mem_singleton]
  repeat' apply And.intro
  all_goals exact StableHlo.devRef_ne_of_ne (fun e => by subst e; exact absurd hb (by decide))

end Cert.KernelIdeal.Chain

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.Spec.lean ====
/-
  One layer of the graph network on whole arrays, and the edge decoder.

  A layer combines, for every node r, the sum S r of its neighbours' feature rows, scaled by the reciprocal
  1 / max(count r, 1) of its neighbour count, with the node's own row:
      out (r, j) = act ( (Σ_k (S (r,k) · inv r) · Wl (k,j)) + bl j + Σ_k root (r,k) · Wr (k,j) ).
  Everything in it is local to the row r, so rows [r0, r0 + T) of the result are the same expression of rows
  [r0, r0 + T) of S, inv and root: a kernel that walks the rows tile by tile computes the tiles of this one
  function. The reference divides by the count instead of multiplying by its reciprocal; on the extended reals
  x / c = x · c⁻¹ and 1 / c = c⁻¹ for every c ≠ 0, the infinities included, so the two agree wherever the
  count's maximum with 1 is not zero, which is everywhere.

  The decoder scores an edge from the rows zr, zc of its two end points:
      h (e, j) = max ( (Σ_k zr (e,k) · Wa (k,j)) + (Σ_k zc (e,k) · Wb (k,j)) + b1 j , 0 ),   out e = Σ_j h (e,j) · W2 (j,0) + b2.
  With Wa, Wb the upper and lower halves of one 512-row matrix W, the two sums are the one sum over the 512
  entries of the concatenated row (zr | zc) against W: a finite sum splits at 256.
-/
import proofs.«119415_j90744069030634_2_alg».proof.Proof.LibTile

noncomputable section

namespace Cert.Spec

open Idealize.ShloMosaic Idealize.ShloMosaic.ValueIdx Cert.Tile

/-- The 2-dimensional shape a × b. -/
abbrev Sh (a b : Nat) : Shape := ⟨2, ![a, b]⟩

/-- Row 0 of a one-row array, column 0 of a one-column array. -/
abbrev z1 : Fin 1 := ⟨0, Nat.one_pos⟩

/-- One layer on M nodes, in the arrangement "scale the neighbour sum by the reciprocal count, then multiply". -/
def sage (M : Nat) (act : EReal → EReal) (S : (Sh M 256).Idx → EReal) (INV : (Sh M 1).Idx → EReal)
    (Wl : (Sh 256 256).Idx → EReal) (bl2 : (Sh 1 256).Idx → EReal) (ROOT : (Sh M 256).Idx → EReal)
    (Wr : (Sh 256 256).Idx → EReal) : (Sh M 256).Idx → EReal :=
  fun i => act ((Ideal.matmul (DotDims.plain M 256 256) (fun i' => S i' * INV (ix2 (i' 0) z1)) Wl (fun _ => 0) i
      + bl2 (ix2 z1 (i 1))) + Ideal.matmul (DotDims.plain M 256 256) ROOT Wr (fun _ => 0) i)

/-- The same expression over a tile of T rows, with the zero accumulators spelt as the zero float word (the way a
    kernel body spells them). -/
def sageTile (T : Nat) (act : EReal → EReal) (s : (Sh T 256).Idx → EReal) (inv : (Sh T 1).Idx → EReal)
    (Wl : (Sh 256 256).Idx → EReal) (bl2 : (Sh 1 256).Idx → EReal) (root : (Sh T 256).Idx → EReal)
    (Wr : (Sh 256 256).Idx → EReal) : (Sh T 256).Idx → EReal :=
  fun i => act ((Ideal.matmul (DotDims.plain T 256 256) (fun i' => s i' * inv (ix2 (i' 0) z1)) Wl
        (fun _ => Ideal.ofBits .f32 0x00000000#32) i
      + bl2 (ix2 z1 (i 1))) + Ideal.matmul (DotDims.plain T 256 256) root Wr (fun _ => Ideal.ofBits .f32 0x00000000#32) i)

variable {T M : Nat} {r0 : Nat} {hr : r0 + T ≤ M}

/-- A tile of the scaled neighbour sums is the scaled tile: entry (p, l) reads row r0 + p on both sides. -/
theorem scaled_tile {C : Nat} {s : (Sh T C).Idx → EReal} {S : (Sh M C).Idx → EReal}
    {inv : (Sh T 1).Idx → EReal} {INV : (Sh M 1).Idx → EReal}
    (hs : IsTile r0 hr s S) (hi : IsTile r0 hr inv INV) :
    IsTile r0 hr (fun i' => s i' * inv (ix2 (i' 0) z1)) (fun i' => S i' * INV (ix2 (i' 0) z1)) := by
  intro p l
  show s (ix2 p l) * inv (ix2 p z1) = S (ix2 ⟨r0 + p.val, by omega⟩ l) * INV (ix2 ⟨r0 + p.val, by omega⟩ z1)
  rw [hs p l, hi p z1]

/-- THE TILE OF A LAYER: on tiles of the neighbour sums, the reciprocal counts and the nodes' own rows, the tile
    expression is the tile of the layer on the whole arrays. -/
theorem sage_isTile (act : EReal → EReal) {s : (Sh T 256).Idx → EReal} {S : (Sh M 256).Idx → EReal}
    {inv : (Sh T 1).Idx → EReal} {INV : (Sh M 1).Idx → EReal}
    {root : (Sh T 256).Idx → EReal} {ROOT : (Sh M 256).Idx → EReal}
    (Wl : (Sh 256 256).Idx → EReal) (bl2 : (Sh 1 256).Idx → EReal) (Wr : (Sh 256 256).Idx → EReal)
    (hs : IsTile r0 hr s S) (hi : IsTile r0 hr inv INV) (hroot : IsTile r0 hr root ROOT) :
    IsTile r0 hr (sageTile T act s inv Wl bl2 root Wr) (sage M act S INV Wl bl2 ROOT Wr) := by
  intro p l
  have h1 := Cert.Tile.matmul (K := 256) (N := 256) Wl (scaled_tile hs hi) p l
  have h2 := Cert.Tile.matmul (K := 256) (N := 256) Wr hroot p l
  show act ((_ + bl2 (ix2 z1 l)) + _) = act ((_ + bl2 (ix2 z1 l)) + _)
  rw [h1, h2]

/-- The layer in the arrangement "divide the neighbour sum by the count, then multiply": what a reference computes,
    with the count already repeated along the rows (CB) and the bias along the columns (BL). -/
def sageDiv (M : Nat) (act : EReal → EReal) (S CB : (Sh M 256).Idx → EReal)
    (Wl : (Sh 256 256).Idx → EReal) (BL : (Sh M 256).Idx → EReal) (ROOT : (Sh M 256).Idx → EReal)
    (Wr : (Sh 256 256).Idx → EReal) : (Sh M 256).Idx → EReal :=
  fun i => act ((Ideal.matmul (DotDims.plain M 256 256) (fun i' => Ideal.div (S i') (CB i')) Wl (fun _ => 0) i + BL i)
      + Ideal.matmul (DotDims.plain M 256 256) ROOT Wr (fun _ => 0) i)

/-- On the extended reals, off zero, a quotient is the product with the reciprocal: both are x · c⁻¹. -/
theorem mul_recip {c : EReal} (hc : c ≠ 0) (x : EReal) : x * Ideal.div 1 c = Ideal.div x c := by
  unfold Ideal.div
  rw [if_neg hc, if_neg hc, one_mul]

/-- THE TWO ARRANGEMENTS AGREE when the reciprocal array holds 1 / c r, the repeated count holds c r in every
    column of row r, c r is never zero, and the repeated bias holds bl2's entry j in column j. -/
theorem sage_eq_sageDiv (M : Nat) (act : EReal → EReal) (S CB : (Sh M 256).Idx → EReal) (INV : (Sh M 1).Idx → EReal)
    (Wl : (Sh 256 256).Idx → EReal) (bl2 : (Sh 1 256).Idx → EReal) (BL : (Sh M 256).Idx → EReal)
    (ROOT : (Sh M 256).Idx → EReal) (Wr : (Sh 256 256).Idx → EReal) (c : Fin M → EReal)
    (hc : ∀ r, c r ≠ 0) (hINV : ∀ r : Fin M, INV (ix2 r z1) = Ideal.div 1 (c r))
    (hCB : ∀ i : (Sh M 256).Idx, CB i = c (i 0)) (hBL : ∀ i : (Sh M 256).Idx, BL i = bl2 (ix2 z1 (i 1))) :
    sage M act S INV Wl bl2 ROOT Wr = sageDiv M act S CB Wl BL ROOT Wr := by
  funext i
  unfold sage sageDiv
  have e : (fun i' : (Sh M 256).Idx => S i' * INV (ix2 (i' 0) z1)) = fun i' => Ideal.div (S i') (CB i') := by
    funext i'
    exact (congrArg (S i' * ·) (hINV (i' 0))).trans
      ((mul_recip (hc (i' 0)) (S i')).trans (congrArg (Ideal.div (S i')) (hCB i').symm))
  rw [e, hBL]

end Cert.Spec

end
-- ==== Proof.Decoder.lean ====
/-
  The edge decoder on whole arrays and on row tiles.

  An edge e is scored from the two 256-entry rows zr e, zc e of its end points:
      h (e, j) = max ( ((Σ_k zr (e,k) · Wa (k,j)) + (Σ_k zc (e,k) · Wb (k,j))) + b1 j , zero ),
      out e    = (Σ_j h (e,j) · W2 (j,0)) + b2.
  Every entry of row e of the result reads only row e of zr and zc, so rows [r0, r0 + T) of the result are the
  same expression of rows [r0, r0 + T) of zr and zc.

  A reference may instead place the two rows side by side, cat e = (zr e | zc e) of 512 entries, and multiply by
  one 512-row matrix W whose upper half is Wa and lower half is Wb. A finite sum over 512 = 256 + 256 indices is
  the sum over the first 256 plus the sum over the last 256, so
      Σ_{k<512} cat (e,k) · W (k,j) = (Σ_{k<256} zr (e,k) · Wa (k,j)) + (Σ_{k<256} zc (e,k) · Wb (k,j)).
  Addition on the extended reals is a commutative monoid, so this needs no finiteness.
-/
import proofs.«119415_j90744069030634_2_alg».proof.Proof.LibTile

noncomputable section

namespace Cert.Dec

open Idealize.ShloMosaic Idealize.ShloMosaic.ValueIdx Cert.Tile

/-- The 2-dimensional shape a × b. -/
abbrev Sh (a b : Nat) : Shape := ⟨2, ![a, b]⟩

/-- Row 0 of a one-row array, column 0 of a one-column array. -/
abbrev z1 : Fin 1 := ⟨0, Nat.one_pos⟩

/-- The decoder on M edges: two products summed, a bias row, the maximum with `zero`, a product with the one
    column W2, and the bias b2. -/
def dec (M : Nat) (zero : EReal) (ZR ZC : (Sh M 256).Idx → EReal) (Wa Wb : (Sh 256 256).Idx → EReal)
    (b1 : (Sh 1 256).Idx → EReal) (W2 : (Sh 256 1).Idx → EReal) (b2 : (Sh 1 1).Idx → EReal) :
    (Sh M 1).Idx → EReal :=
  fun i => Ideal.matmul (DotDims.plain M 256 1)
      (fun i' => max ((Ideal.matmul (DotDims.plain M 256 256) ZR Wa (fun _ => 0) i'
        + Ideal.matmul (DotDims.plain M 256 256) ZC Wb (fun _ => 0) i') + b1 (ix2 z1 (i' 1))) zero)
      W2 (fun _ => 0) i + b2 (ix2 z1 z1)

/-- The same expression over a tile of T rows, with the zero accumulators spelt as the zero float word. -/
def decTile (T : Nat) (zero : EReal) (zr zc : (Sh T 256).Idx → EReal) (Wa Wb : (Sh 256 256).Idx → EReal)
    (b1 : (Sh 1 256).Idx → EReal) (W2 : (Sh 256 1).Idx → EReal) (b2 : (Sh 1 1).Idx → EReal) :
    (Sh T 1).Idx → EReal :=
  fun i => Ideal.matmul (DotDims.plain T 256 1)
      (fun i' => max ((Ideal.matmul (DotDims.plain T 256 256) zr Wa (fun _ => Ideal.ofBits .f32 0x00000000#32) i'
        + Ideal.matmul (DotDims.plain T 256 256) zc Wb (fun _ => Ideal.ofBits .f32 0x00000000#32) i')
        + b1 (ix2 z1 (i' 1))) zero)
      W2 (fun _ => Ideal.ofBits .f32 0x00000000#32) i + b2 (ix2 z1 z1)

section Tiles
variable {T M : Nat} {r0 : Nat} {hr : r0 + T ≤ M}

/-- The hidden rows of a tile are the tile of the hidden rows: entry (p, l) is the same expression of row r0 + p
    of the two inputs on both sides. -/
theorem hidden_isTile (zero : EReal) {zr zc : (Sh T 256).Idx → EReal} {ZR ZC : (Sh M 256).Idx → EReal}
    (Wa Wb : (Sh 256 256).Idx → EReal) (b1 : (Sh 1 256).Idx → EReal)
    (hzr : IsTile r0 hr zr ZR) (hzc : IsTile r0 hr zc ZC) :
    IsTile r0 hr
      (fun i' => max ((Ideal.matmul (DotDims.plain T 256 256) zr Wa (fun _ => Ideal.ofBits .f32 0x00000000#32) i'
        + Ideal.matmul (DotDims.plain T 256 256) zc Wb (fun _ => Ideal.ofBits .f32 0x00000000#32) i')
        + b1 (ix2 z1 (i' 1))) zero)
      (fun i' => max ((Ideal.matmul (DotDims.plain M 256 256) ZR Wa (fun _ => 0) i'
        + Ideal.matmul (DotDims.plain M 256 256) ZC Wb (fun _ => 0) i') + b1 (ix2 z1 (i' 1))) zero) := by
  intro p l
  have h1 := Cert.Tile.matmul (K := 256) (N := 256) Wa hzr p l
  have h2 := Cert.Tile.matmul (K := 256) (N := 256) Wb hzc p l
  show max ((_ + _) + b1 (ix2 z1 l)) zero = max ((_ + _) + b1 (ix2 z1 l)) zero
  rw [h1, h2]

/-- THE TILE OF THE DECODER: on tiles of the two inputs, the tile expression is the tile of the decoder on the
    whole arrays. -/
theorem dec_isTile (zero : EReal) {zr zc : (Sh T 256).Idx → EReal} {ZR ZC : (Sh M 256).Idx → EReal}
    (Wa Wb : (Sh 256 256).Idx → EReal) (b1 : (Sh 1 256).Idx → EReal) (W2 : (Sh 256 1).Idx → EReal)
    (b2 : (Sh 1 1).Idx → EReal) (hzr : IsTile r0 hr zr ZR) (hzc : IsTile r0 hr zc ZC) :
    IsTile r0 hr (decTile T zero zr zc Wa Wb b1 W2 b2) (dec M zero ZR ZC Wa Wb b1 W2 b2) := by
  intro p l
  have h := Cert.Tile.matmul (K := 256) (N := 1) W2 (hidden_isTile zero Wa Wb b1 hzr hzc) p l
  show _ + b2 (ix2 z1 z1) = _ + b2 (ix2 z1 z1)
  rw [h]

end Tiles

/-- A plain M×K by K×N product's contraction, summed over k < K: entry (r, c) is Σ_k X (r,k) · W (k,c). -/
theorem plain_sum {M K N : Nat} (X : (Sh M K).Idx → EReal) (W : (Sh K N).Idx → EReal) (j : (Sh M N).Idx) :
    ∑ q : (DotDims.plain M K N).contr.Idx, X ((DotDims.plain M K N).lhsIdx j q) * W ((DotDims.plain M K N).rhsIdx j q)
      = ∑ k : Fin K, X (ix2 (j 0) k) * W (ix2 k (j 1)) := by
  rw [← Equiv.sum_comp (contrEquiv1 (DotDims.plain M K N) K rfl rfl)
    (fun k : Fin K => X (ix2 (j 0) k) * W (ix2 k (j 1)))]
  refine Finset.sum_congr rfl fun q _ => ?_
  rw [plain_lhs (K := K) j q, plain_rhs (K := K) j q]
  rfl

/-- A product with a zero accumulator is the bare sum over k < K. -/
theorem matmul_plain {M K N : Nat} (X : (Sh M K).Idx → EReal) (W : (Sh K N).Idx → EReal) (j : (Sh M N).Idx) :
    Ideal.matmul (DotDims.plain M K N) X W (fun _ => 0) j = ∑ k : Fin K, X (ix2 (j 0) k) * W (ix2 k (j 1)) := by
  unfold Ideal.matmul
  rw [zero_add, plain_sum]

/-- THE SPLIT AT 256: the product of the side-by-side rows with the stacked matrix is the sum of the two
    products. -/
theorem cat_split {M : Nat} (ZR ZC : (Sh M 256).Idx → EReal) (Wa Wb : (Sh 256 256).Idx → EReal)
    (CAT : (Sh M 512).Idx → EReal) (W : (Sh 512 256).Idx → EReal)
    (hL : ∀ (r : Fin M) (k : Fin 256), CAT (ix2 r ⟨k.val, by omega⟩) = ZR (ix2 r k))
    (hR : ∀ (r : Fin M) (k : Fin 256), CAT (ix2 r ⟨256 + k.val, by omega⟩) = ZC (ix2 r k))
    (hWa : ∀ (k j : Fin 256), Wa (ix2 k j) = W (ix2 ⟨k.val, by omega⟩ j))
    (hWb : ∀ (k j : Fin 256), Wb (ix2 k j) = W (ix2 ⟨256 + k.val, by omega⟩ j))
    (i : (Sh M 256).Idx) :
    Ideal.matmul (DotDims.plain M 256 256) ZR Wa (fun _ => 0) i + Ideal.matmul (DotDims.plain M 256 256) ZC Wb (fun _ => 0) i
      = Ideal.matmul (DotDims.plain M 512 256) CAT W (fun _ => 0) i := by
  rw [matmul_plain, matmul_plain, matmul_plain]
  have hs := Fin.sum_univ_add (a := 256) (b := 256) (fun k : Fin (256 + 256) => CAT (ix2 (i 0) k) * W (ix2 k (i 1)))
  refine Eq.trans ?_ hs.symm
  refine congrArg₂ (· + ·) (Finset.sum_congr rfl fun k _ => ?_) (Finset.sum_congr rfl fun k _ => ?_)
  · exact congrArg₂ (· * ·) (hL (i 0) k).symm (hWa k (i 1))
  · exact congrArg₂ (· * ·) (hR (i 0) k).symm (hWb k (i 1))

/-- The decoder in the arrangement "rows side by side, one 512-row matrix": what a reference computes, with the
    bias row already repeated down the rows (B1), the comparison value repeated over the array (ZERO) and the
    output bias repeated down the rows (B2). -/
def decCat (M : Nat) (zero : EReal) (CAT : (Sh M 512).Idx → EReal) (W : (Sh 512 256).Idx → EReal)
    (B1 : (Sh M 256).Idx → EReal) (ZERO : (Sh M 256).Idx → EReal) (W2 : (Sh 256 1).Idx → EReal)
    (B2 : (Sh M 1).Idx → EReal) : (Sh M 1).Idx → EReal :=
  fun i => Ideal.matmul (DotDims.plain M 256 1)
      (fun i' => max (Ideal.matmul (DotDims.plain M 512 256) CAT W (fun _ => 0) i' + B1 i') (ZERO i'))
      W2 (fun _ => 0) i + B2 i

/-- THE TWO ARRANGEMENTS AGREE when the side-by-side array holds zr in columns [0, 256) and zc in columns
    [256, 512), the stacked matrix holds Wa in rows [0, 256) and Wb in rows [256, 512), and the repeated arrays
    hold the values they repeat. -/
theorem dec_eq_decCat (M : Nat) (zero : EReal) (ZR ZC : (Sh M 256).Idx → EReal) (Wa Wb : (Sh 256 256).Idx → EReal)
    (b1 : (Sh 1 256).Idx → EReal) (W2 : (Sh 256 1).Idx → EReal) (b2 : (Sh 1 1).Idx → EReal)
    (CAT : (Sh M 512).Idx → EReal) (W : (Sh 512 256).Idx → EReal) (B1 : (Sh M 256).Idx → EReal)
    (ZERO : (Sh M 256).Idx → EReal) (B2 : (Sh M 1).Idx → EReal)
    (hL : ∀ (r : Fin M) (k : Fin 256), CAT (ix2 r ⟨k.val, by omega⟩) = ZR (ix2 r k))
    (hR : ∀ (r : Fin M) (k : Fin 256), CAT (ix2 r ⟨256 + k.val, by omega⟩) = ZC (ix2 r k))
    (hWa : ∀ (k j : Fin 256), Wa (ix2 k j) = W (ix2 ⟨k.val, by omega⟩ j))
    (hWb : ∀ (k j : Fin 256), Wb (ix2 k j) = W (ix2 ⟨256 + k.val, by omega⟩ j))
    (hB1 : ∀ i : (Sh M 256).Idx, B1 i = b1 (ix2 z1 (i 1)))
    (hZ : ∀ i, ZERO i = zero)
    (hB2 : ∀ i : (Sh M 1).Idx, B2 i = b2 (ix2 z1 z1)) :
    dec M zero ZR ZC Wa Wb b1 W2 b2 = decCat M zero CAT W B1 ZERO W2 B2 := by
  funext i
  unfold dec decCat
  have e : (fun i' : (Sh M 256).Idx => max ((Ideal.matmul (DotDims.plain M 256 256) ZR Wa (fun _ => 0) i'
        + Ideal.matmul (DotDims.plain M 256 256) ZC Wb (fun _ => 0) i') + b1 (ix2 z1 (i' 1))) zero)
      = fun i' => max (Ideal.matmul (DotDims.plain M 512 256) CAT W (fun _ => 0) i' + B1 i') (ZERO i') := by
    funext i'
    rw [cat_split ZR ZC Wa Wb CAT W hL hR hWa hWb i', hB1, hZ]
  rw [e, hB2]

end Cert.Dec

end
-- ==== Proof.KPay.lean ====
/-
  What each kernel body stores, as one expression of the blocks it loads.

  The four layer kernels load a block of neighbour sums (2000 × 256), the block's reciprocal counts (2000 × 1),
  the two weight matrices, the bias row (1 × 256) and the block of the nodes' own rows, and store
      act ( (Σ_k (s (p,k) · inv p) · Wl (k,l)) + bl l + Σ_k root (p,k) · Wr (k,l) ),
  act the maximum with zero in the first two launches and nothing in the last two. Changes of float format are
  the identity on the extended reals, a shape cast to the same shape is the identity, the reciprocal column
  repeated along the columns reads its row's entry and the bias row repeated down the rows its column's. The
  decoder kernel stores the decoder's expression of its two input blocks in the same way.
-/
import proofs.«119415_j90744069030634_2_alg».proof.Proof.Gen.KernelIdeal.Skeleton
import proofs.«119415_j90744069030634_2_alg».proof.Proof.Spec
import proofs.«119415_j90744069030634_2_alg».proof.Proof.Decoder
import Idealize.ShloMosaic.Lib.Pipeline.Value

noncomputable section

namespace Cert.KernelIdeal.Pay

open Idealize.ShloMosaic Idealize.ShloMosaic.ValueIdx
open Cert.KernelIdeal Cert.KernelIdeal.Gen Cert.Spec

/-- A one-column array repeated along the columns reads its own row's entry. -/
theorem colRep_apply {T C : Nat} (x : (Sh T 1).Idx → EReal) (h : (Sh T 1).Broadcasts (Sh T C)) (p : Fin T) (l : Fin C) :
    broadcastTo (Sh T C) x h (ix2 p l) = x (ix2 p z1) := by
  refine broadcastTo_apply _ h (ix2 p l) (ix2 p z1) fun a => ?_
  match a with
  | ⟨0, _⟩ =>
    show p.val = if T = 1 then 0 else p.val
    have := p.isLt
    split <;> omega
  | ⟨1, _⟩ => rfl

/-- A one-row array repeated down the rows reads its own column's entry. -/
theorem rowRep_apply {T C : Nat} (x : (Sh 1 C).Idx → EReal) (h : (Sh 1 C).Broadcasts (Sh T C)) (p : Fin T) (l : Fin C) :
    broadcastTo (Sh T C) x h (ix2 p l) = x (ix2 z1 l) := by
  refine broadcastTo_apply _ h (ix2 p l) (ix2 z1 l) fun a => ?_
  match a with
  | ⟨0, _⟩ => rfl
  | ⟨1, _⟩ =>
    show l.val = if C = 1 then 0 else l.val
    have := l.isLt
    split <;> omega

/-- The maximum with the zero float word, as a kernel body spells a rectifier. -/
abbrev relu : EReal → EReal := fun v => max v (Ideal.ofBits .f32 0x00000000#32)

/-- Launch 0's body stores the layer's tile expression of its loaded blocks. -/
theorem pay0_eq (x0 : Vec Ideal S2000x256 .f32) (x1 : Vec Ideal S2000x1 .f32) (x2 : Vec Ideal S256x256 .f32)
    (x4 : Vec Ideal S2000x256 .bf16) (x5 : Vec Ideal S256x256 .f32) (x3 : Vec Ideal S1x256 .f32) :
    k0_pay1 x0 x1 x2 x4 x5 x3 = sageTile 2000 relu x0 x1 x2 x3 x4 x5 := by
  funext i
  obtain ⟨p, l, rfl⟩ : ∃ (p : Fin 2000) (l : Fin 256), i = ix2 p l := ⟨i 0, i 1, eq_ix2 i⟩
  unfold k0_pay1 sageTile
  have eA : (truncf .bf16 (mulf (shapeCast S2000x256 x0 shapeCasts_S2000x256_S2000x256)
      (broadcastTo S2000x256 (shapeCast S2000x1 x1 shapeCasts_S2000x1_S2000x1) broadcasts_S2000x1_S2000x256)) bitsLt_bf16_f32
      : FVec Ideal S2000x256 .bf16) = fun i' => x0 i' * x1 (ix2 (i' 0) z1) := by
    funext i'
    obtain ⟨p', l', rfl⟩ : ∃ (p' : Fin 2000) (l' : Fin 256), i' = ix2 p' l' := ⟨i' 0, i' 1, eq_ix2 i'⟩
    rw [shapeCast_self, shapeCast_self]
    exact congrArg (x0 (ix2 p' l') * ·) (colRep_apply x1 _ p' l')
  rw [eA, shapeCast_self, shapeCast_self]
  exact congrArg (fun b => relu ((Ideal.matmul (DotDims.plain 2000 256 256) (fun i' => x0 i' * x1 (ix2 (i' 0) z1)) x2
      (fun _ => Ideal.ofBits .f32 0x00000000#32) (ix2 p l) + b)
    + Ideal.matmul (DotDims.plain 2000 256 256) x4 x5 (fun _ => Ideal.ofBits .f32 0x00000000#32) (ix2 p l)))
    (rowRep_apply x3 _ p l)

/-- Launch 1's body stores the layer's tile expression of its loaded blocks. -/
theorem pay1_eq (x0 : Vec Ideal S2000x256 .f32) (x1 : Vec Ideal S2000x1 .f32) (x2 : Vec Ideal S256x256 .f32)
    (x4 : Vec Ideal S2000x256 .bf16) (x5 : Vec Ideal S256x256 .f32) (x3 : Vec Ideal S1x256 .f32) :
    k1_pay1 x0 x1 x2 x4 x5 x3 = sageTile 2000 relu x0 x1 x2 x3 x4 x5 := by
  funext i
  obtain ⟨p, l, rfl⟩ : ∃ (p : Fin 2000) (l : Fin 256), i = ix2 p l := ⟨i 0, i 1, eq_ix2 i⟩
  unfold k1_pay1 sageTile
  have eA : (truncf .bf16 (mulf (shapeCast S2000x256 x0 shapeCasts_S2000x256_S2000x256)
      (broadcastTo S2000x256 (shapeCast S2000x1 x1 shapeCasts_S2000x1_S2000x1) broadcasts_S2000x1_S2000x256)) bitsLt_bf16_f32
      : FVec Ideal S2000x256 .bf16) = fun i' => x0 i' * x1 (ix2 (i' 0) z1) := by
    funext i'
    obtain ⟨p', l', rfl⟩ : ∃ (p' : Fin 2000) (l' : Fin 256), i' = ix2 p' l' := ⟨i' 0, i' 1, eq_ix2 i'⟩
    rw [shapeCast_self, shapeCast_self]
    exact congrArg (x0 (ix2 p' l') * ·) (colRep_apply x1 _ p' l')
  rw [eA, shapeCast_self, shapeCast_self]
  exact congrArg (fun b => relu ((Ideal.matmul (DotDims.plain 2000 256 256) (fun i' => x0 i' * x1 (ix2 (i' 0) z1)) x2
      (fun _ => Ideal.ofBits .f32 0x00000000#32) (ix2 p l) + b)
    + Ideal.matmul (DotDims.plain 2000 256 256) x4 x5 (fun _ => Ideal.ofBits .f32 0x00000000#32) (ix2 p l)))
    (rowRep_apply x3 _ p l)

/-- Launch 2's body stores the layer's tile expression of its loaded blocks (this layer takes no maximum). -/
theorem pay2_eq (x0 : Vec Ideal S2000x256 .f32) (x1 : Vec Ideal S2000x1 .f32) (x2 : Vec Ideal S256x256 .f32)
    (x4 : Vec Ideal S2000x256 .bf16) (x5 : Vec Ideal S256x256 .f32) (x3 : Vec Ideal S1x256 .f32) :
    k2_pay1 x0 x1 x2 x4 x5 x3 = sageTile 2000 (fun v => v) x0 x1 x2 x3 x4 x5 := by
  funext i
  obtain ⟨p, l, rfl⟩ : ∃ (p : Fin 2000) (l : Fin 256), i = ix2 p l := ⟨i 0, i 1, eq_ix2 i⟩
  unfold k2_pay1 sageTile
  have eA : (truncf .bf16 (mulf (shapeCast S2000x256 x0 shapeCasts_S2000x256_S2000x256)
      (broadcastTo S2000x256 (shapeCast S2000x1 x1 shapeCasts_S2000x1_S2000x1) broadcasts_S2000x1_S2000x256)) bitsLt_bf16_f32
      : FVec Ideal S2000x256 .bf16) = fun i' => x0 i' * x1 (ix2 (i' 0) z1) := by
    funext i'
    obtain ⟨p', l', rfl⟩ : ∃ (p' : Fin 2000) (l' : Fin 256), i' = ix2 p' l' := ⟨i' 0, i' 1, eq_ix2 i'⟩
    rw [shapeCast_self, shapeCast_self]
    exact congrArg (x0 (ix2 p' l') * ·) (colRep_apply x1 _ p' l')
  rw [eA, shapeCast_self, shapeCast_self]
  exact congrArg (fun b => (Ideal.matmul (DotDims.plain 2000 256 256) (fun i' => x0 i' * x1 (ix2 (i' 0) z1)) x2
      (fun _ => Ideal.ofBits .f32 0x00000000#32) (ix2 p l) + b)
    + Ideal.matmul (DotDims.plain 2000 256 256) x4 x5 (fun _ => Ideal.ofBits .f32 0x00000000#32) (ix2 p l))
    (rowRep_apply x3 _ p l)

/-- Launch 3's body stores the layer's tile expression of its loaded blocks (this layer takes no maximum). -/
theorem pay3_eq (x0 : Vec Ideal S2000x256 .f32) (x1 : Vec Ideal S2000x1 .f32) (x2 : Vec Ideal S256x256 .f32)
    (x4 : Vec Ideal S2000x256 .bf16) (x5 : Vec Ideal S256x256 .f32) (x3 : Vec Ideal S1x256 .f32) :
    k3_pay1 x0 x1 x2 x4 x5 x3 = sageTile 2000 (fun v => v) x0 x1 x2 x3 x4 x5 := by
  funext i
  obtain ⟨p, l, rfl⟩ : ∃ (p : Fin 2000) (l : Fin 256), i = ix2 p l := ⟨i 0, i 1, eq_ix2 i⟩
  unfold k3_pay1 sageTile
  have eA : (truncf .bf16 (mulf (shapeCast S2000x256 x0 shapeCasts_S2000x256_S2000x256)
      (broadcastTo S2000x256 (shapeCast S2000x1 x1 shapeCasts_S2000x1_S2000x1) broadcasts_S2000x1_S2000x256)) bitsLt_bf16_f32
      : FVec Ideal S2000x256 .bf16) = fun i' => x0 i' * x1 (ix2 (i' 0) z1) := by
    funext i'
    obtain ⟨p', l', rfl⟩ : ∃ (p' : Fin 2000) (l' : Fin 256), i' = ix2 p' l' := ⟨i' 0, i' 1, eq_ix2 i'⟩
    rw [shapeCast_self, shapeCast_self]
    exact congrArg (x0 (ix2 p' l') * ·) (colRep_apply x1 _ p' l')
  rw [eA, shapeCast_self, shapeCast_self]
  exact congrArg (fun b => (Ideal.matmul (DotDims.plain 2000 256 256) (fun i' => x0 i' * x1 (ix2 (i' 0) z1)) x2
      (fun _ => Ideal.ofBits .f32 0x00000000#32) (ix2 p l) + b)
    + Ideal.matmul (DotDims.plain 2000 256 256) x4 x5 (fun _ => Ideal.ofBits .f32 0x00000000#32) (ix2 p l))
    (rowRep_apply x3 _ p l)

/-- The decoder launch's body stores the decoder's tile expression of its loaded blocks. -/
theorem pay4_eq (x0 x1 : Vec Ideal S2000x256 .bf16) (x2 x3 : Vec Ideal S256x256 .f32) (x4 : Vec Ideal S1x256 .f32)
    (x5 : Vec Ideal S256x1 .f32) (x6 : Vec Ideal S1x1 .f32) :
    k4_pay1 x0 x1 x2 x3 x4 x5 x6 = Cert.Dec.decTile 2000 (Ideal.ofBits .f32 0x00000000#32) x0 x1 x2 x3 x4 x5 x6 := by
  funext i
  obtain ⟨p, l, rfl⟩ : ∃ (p : Fin 2000) (l : Fin 1), i = ix2 p l := ⟨i 0, i 1, eq_ix2 i⟩
  unfold k4_pay1 Cert.Dec.decTile
  simp only [shapeCast_self]
  have eH : (truncf .bf16 (maximumf (addf (addf
        (matmul (φ₁ := .bf16) dot_S2000x256_S256x256_S2000x256_1_0_0_1_n_n none x0 (truncf .bf16 x2 bitsLt_bf16_f32) (constant S2000x256 .f32 0x00000000#32))
        (matmul (φ₁ := .bf16) dot_S2000x256_S256x256_S2000x256_1_0_0_1_n_n none x1 (truncf .bf16 x3 bitsLt_bf16_f32) (constant S2000x256 .f32 0x00000000#32)))
        (broadcastTo S2000x256 x4 broadcasts_S1x256_S2000x256))
      (broadcast S2000x256 (FloatOps.ofBits .f32 0x00000000#32))) bitsLt_bf16_f32 : FVec Ideal S2000x256 .bf16)
      = fun i' => max ((Ideal.matmul (DotDims.plain 2000 256 256) x0 x2 (fun _ => Ideal.ofBits .f32 0x00000000#32) i'
          + Ideal.matmul (DotDims.plain 2000 256 256) x1 x3 (fun _ => Ideal.ofBits .f32 0x00000000#32) i')
          + x4 (ix2 Cert.Dec.z1 (i' 1))) (Ideal.ofBits .f32 0x00000000#32) := by
    funext i'
    obtain ⟨p', l', rfl⟩ : ∃ (p' : Fin 2000) (l' : Fin 256), i' = ix2 p' l' := ⟨i' 0, i' 1, eq_ix2 i'⟩
    exact congrArg (fun b => max ((Ideal.matmul (DotDims.plain 2000 256 256) x0 x2 (fun _ => Ideal.ofBits .f32 0x00000000#32) (ix2 p' l')
          + Ideal.matmul (DotDims.plain 2000 256 256) x1 x3 (fun _ => Ideal.ofBits .f32 0x00000000#32) (ix2 p' l')) + b)
        (Ideal.ofBits .f32 0x00000000#32)) (rowRep_apply x4 _ p' l')
  rw [eH]
  have eB : broadcastTo S2000x1 x6 broadcasts_S1x1_S2000x1 (ix2 p l) = x6 (ix2 Cert.Dec.z1 Cert.Dec.z1) :=
    (rowRep_apply x6 _ p l).trans (congrArg x6 (congrArg (ix2 Cert.Dec.z1) (Subsingleton.elim l Cert.Dec.z1)))
  exact congrArg (fun b => Ideal.matmul (DotDims.plain 2000 256 1)
      (fun i' => max ((Ideal.matmul (DotDims.plain 2000 256 256) x0 x2 (fun _ => Ideal.ofBits .f32 0x00000000#32) i'
          + Ideal.matmul (DotDims.plain 2000 256 256) x1 x3 (fun _ => Ideal.ofBits .f32 0x00000000#32) i')
          + x4 (ix2 Cert.Dec.z1 (i' 1))) (Ideal.ofBits .f32 0x00000000#32))
      x5 (fun _ => Ideal.ofBits .f32 0x00000000#32) (ix2 p l) + b) eB

end Cert.KernelIdeal.Pay

end
-- ==== Proof.KDefs.lean ====
/-
  The idealized kernel program's intermediate values, as functions of the argument arrays.

  Both edge directions are treated alike. The number of edges arriving at a node is the sum of a 1 per edge,
  scattered by the edge's end point; its maximum with 1, inverted, is the node's weight in the mean. The
  neighbour sum of a feature array is the rows gathered at the edges' start points (a negative index counting
  from the end) and scatter-added at their end points. A layer combines the weighted neighbour sum with the
  node's own row; two layers are stacked, the second fed by the first's outputs; the decoder scores each
  labelled pair from the second layer's rows of its two end points.
-/
import proofs.«119415_j90744069030634_2_alg».proof.Proof.Gen.KernelIdeal.Launch
import proofs.«119415_j90744069030634_2_alg».proof.Proof.Spec
import proofs.«119415_j90744069030634_2_alg».proof.Proof.Decoder
import proofs.«119415_j90744069030634_2_alg».proof.Proof.KPay
import Idealize.ShloMosaic.Lib.StableHlo.Run

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Pay

/-! ## The pieces, over arbitrary arrays -/

/-- 1.0 on every edge / every drug node / every disease node. -/
abbrev onesE : FVec Ideal S1000000 .f32 := broadcastInDim S1000000 ![] bcast_S_S1000000 (constant S_ .f32 0x3F800000#32)
abbrev onesD : FVec Ideal S50000 .f32 := broadcastInDim S50000 ![] bcast_S_S50000 (constant S_ .f32 0x3F800000#32)
abbrev onesS : FVec Ideal S30000 .f32 := broadcastInDim S30000 ![] bcast_S_S30000 (constant S_ .f32 0x3F800000#32)

/-- An index vector as a one-column index array. -/
abbrev colE (i : IVec S1000000 32) : IVec S1000000x1 32 := broadcastInDim S1000000x1 ![0] bcast_S1000000_S1000000x1_0 i
abbrev colL (i : IVec S200000 32) : IVec S200000x1 32 := broadcastInDim S200000x1 ![0] bcast_S200000_S200000x1_0 i

/-- An edge index with a negative value counted from the end of an axis of n entries. -/
abbrev normE (n : BitVec 32) (i : IVec S1000000 32) : IVec S1000000 32 :=
  select (cmpi .slt i (broadcastInDim S1000000 ![] bcast_S_S1000000 (constantI S_ 32 0#32)))
    (addi i (broadcastInDim S1000000 ![] bcast_S_S1000000 (constantI S_ 32 n))) i
abbrev normL (n : BitVec 32) (i : IVec S200000 32) : IVec S200000 32 :=
  select (cmpi .slt i (broadcastInDim S200000 ![] bcast_S_S200000 (constantI S_ 32 0#32)))
    (addi i (broadcastInDim S200000 ![] bcast_S_S200000 (constantI S_ 32 n))) i

/-- How many edges end at each drug node (edges listed by their drug end point src). -/
def cntD (src : IVec S1000000 32) : FVec Ideal S50000 .f32 :=
  Host.scatterAdd scatter_S50000_S1000000x1_S1000000_n_0_0_1
    (broadcastInDim S50000 ![] bcast_S_S50000 (constant S_ .f32 0x00000000#32)) (colE src) onesE
/-- How many edges end at each disease node. -/
def cntS (dst : IVec S1000000 32) : FVec Ideal S30000 .f32 :=
  Host.scatterAdd scatter_S30000_S1000000x1_S1000000_n_0_0_1
    (broadcastInDim S30000 ![] bcast_S_S30000 (constant S_ .f32 0x00000000#32)) (colE dst) onesE

/-- The drug nodes' weights 1 / max(count, 1), as a column. -/
def invD (src : IVec S1000000 32) : FVec Ideal S50000x1 .f32 :=
  shapeCast S50000x1 (Host.divf onesD (maximumf (cntD src) onesD)) shapeCasts_S50000_S50000x1
/-- The disease nodes' weights. -/
def invS (dst : IVec S1000000 32) : FVec Ideal S30000x1 .f32 :=
  shapeCast S30000x1 (Host.divf onesS (maximumf (cntS dst) onesS)) shapeCasts_S30000_S30000x1

/-- Neighbour sums at the drug nodes of a disease-node feature array. -/
def aggD (x : FVec Ideal S30000x256 .bf16) (src dst : IVec S1000000 32) : FVec Ideal S50000x256 .f32 :=
  Host.scatterAdd scatter_S50000x256_S1000000x1_S1000000x256_1_0_0_1
    (broadcastInDim S50000x256 ![] bcast_S_S50000x256 (constant S_ .f32 0x00000000#32)) (colE src)
    (extf .f32 (Host.gather gather_S30000x256_S1000000x1_S1000000x256_1_0_n_n_0_1_1256 x (colE (normE 30000#32 dst))) bitsLt_bf16_f32)
/-- Neighbour sums at the disease nodes of a drug-node feature array. -/
def aggS (x : FVec Ideal S50000x256 .bf16) (src dst : IVec S1000000 32) : FVec Ideal S30000x256 .f32 :=
  Host.scatterAdd scatter_S30000x256_S1000000x1_S1000000x256_1_0_0_1
    (broadcastInDim S30000x256 ![] bcast_S_S30000x256 (constant S_ .f32 0x00000000#32)) (colE dst)
    (extf .f32 (Host.gather gather_S50000x256_S1000000x1_S1000000x256_1_0_n_n_0_1_1256 x (colE (normE 50000#32 src))) bitsLt_bf16_f32)

/-- A bias of 256 entries as a one-row array. -/
abbrev rowB (b : FVec Ideal S256 .f32) : FVec Ideal S1x256 .f32 := shapeCast S1x256 b shapeCasts_S256_S1x256

/-! ## The layers and the scores, over arbitrary arrays -/

open Cert.Spec in
/-- First layer at the drug nodes: neighbour sums of the disease features, the drug nodes' own features. -/
def zd1Of (x0 : FVec Ideal S50000x256 .f32) (x1 : FVec Ideal S30000x256 .f32) (src dst : IVec S1000000 32)
    (Wl : FVec Ideal S256x256 .f32) (bl : FVec Ideal S256 .f32) (Wr : FVec Ideal S256x256 .f32) : (Sh 50000 256).Idx → EReal :=
  sage 50000 relu (aggD (truncf .bf16 x1 bitsLt_bf16_f32) src dst) (invD src) Wl (rowB bl) (truncf .bf16 x0 bitsLt_bf16_f32) Wr

open Cert.Spec in
/-- First layer at the disease nodes. -/
def zs1Of (x0 : FVec Ideal S50000x256 .f32) (x1 : FVec Ideal S30000x256 .f32) (src dst : IVec S1000000 32)
    (Wl : FVec Ideal S256x256 .f32) (bl : FVec Ideal S256 .f32) (Wr : FVec Ideal S256x256 .f32) : (Sh 30000 256).Idx → EReal :=
  sage 30000 relu (aggS (truncf .bf16 x0 bitsLt_bf16_f32) src dst) (invS dst) Wl (rowB bl) (truncf .bf16 x1 bitsLt_bf16_f32) Wr

open Cert.Spec in
/-- Second layer at the drug nodes, from the first layer's outputs; no rectifier. -/
def zd2Of (zd1 : (Sh 50000 256).Idx → EReal) (zs1 : (Sh 30000 256).Idx → EReal) (src dst : IVec S1000000 32)
    (Wl : FVec Ideal S256x256 .f32) (bl : FVec Ideal S256 .f32) (Wr : FVec Ideal S256x256 .f32) : (Sh 50000 256).Idx → EReal :=
  sage 50000 (fun v => v) (aggD zs1 src dst) (invD src) Wl (rowB bl) zd1 Wr

open Cert.Spec in
/-- Second layer at the disease nodes. -/
def zs2Of (zd1 : (Sh 50000 256).Idx → EReal) (zs1 : (Sh 30000 256).Idx → EReal) (src dst : IVec S1000000 32)
    (Wl : FVec Ideal S256x256 .f32) (bl : FVec Ideal S256 .f32) (Wr : FVec Ideal S256x256 .f32) : (Sh 30000 256).Idx → EReal :=
  sage 30000 (fun v => v) (aggS zd1 src dst) (invS dst) Wl (rowB bl) zs1 Wr

/-- The labelled pairs' scores, as a column: the decoder of the second layer's rows at the pairs' end points. -/
def scoresOf (zd2 : (Cert.Spec.Sh 50000 256).Idx → EReal) (zs2 : (Cert.Spec.Sh 30000 256).Idx → EReal) (row col : IVec S200000 32)
    (W1 : FVec Ideal S512x256 .f32) (b1 : FVec Ideal S256 .f32) (W2 : FVec Ideal S256x1 .f32) (b2 : FVec Ideal S1 .f32) :
    (Cert.Dec.Sh 200000 1).Idx → EReal :=
  Cert.Dec.dec 200000 (Ideal.ofBits .f32 0x00000000#32)
    (Host.gather gather_S50000x256_S200000x1_S200000x256_1_0_n_n_0_1_1256 (zd2 : FVec Ideal S50000x256 .bf16) (colL (normL 50000#32 row)))
    (Host.gather gather_S30000x256_S200000x1_S200000x256_1_0_n_n_0_1_1256 (zs2 : FVec Ideal S30000x256 .bf16) (colL (normL 30000#32 col)))
    (extractStridedSlice S256x256 ![0, 0] W1 slices_S512x256_S256x256_0_0)
    (extractStridedSlice S256x256 ![256, 0] W1 slices_S512x256_S256x256_256_0)
    (rowB b1) W2 (shapeCast S1x1 b2 shapeCasts_S1_S1x1)

/-- THE PROGRAM'S RESULT as one function of its 22 argument arrays: the scores as a vector. -/
def outOf (x0 : FVec Ideal S50000x256 .f32) (x1 : FVec Ideal S30000x256 .f32) (src dst : IVec S1000000 32) (row col : IVec S200000 32)
    (a6 : FVec Ideal S256x256 .f32) (a7 : FVec Ideal S256 .f32) (a8 a9 : FVec Ideal S256x256 .f32) (a10 : FVec Ideal S256 .f32)
    (a11 a12 : FVec Ideal S256x256 .f32) (a13 : FVec Ideal S256 .f32) (a14 a15 : FVec Ideal S256x256 .f32) (a16 : FVec Ideal S256 .f32)
    (a17 : FVec Ideal S256x256 .f32) (a18 : FVec Ideal S512x256 .f32) (a19 : FVec Ideal S256 .f32) (a20 : FVec Ideal S256x1 .f32)
    (a21 : FVec Ideal S1 .f32) : FVec Ideal S200000 .f32 :=
  shapeCast S200000
    (scoresOf
      (zd2Of (zd1Of x0 x1 src dst a9 a10 a11) (zs1Of x0 x1 src dst a6 a7 a8) src dst a15 a16 a17)
      (zs2Of (zd1Of x0 x1 src dst a9 a10 a11) (zs1Of x0 x1 src dst a6 a7 a8) src dst a12 a13 a14)
      row col a18 a19 a20 a21)
    shapeCasts_S200000x1_S200000

end Cert.KernelIdeal.Chain

end
-- ==== Proof.KHost.lean ====
/-
  What each stretch of host operations computes, read one result at a time.

  From any contents W of the buffers before the stretch, a result buffer holds after it the stretch's operations
  applied to W's contents of the buffers they read: the neighbour sums and node weights of the first stretch,
  the second layer's neighbour sums of the third, the gathered end-point rows and the halves of the decoder's
  first weight matrix of the fifth, and the bias rows and the final flattening of the others.
-/
import proofs.«119415_j90744069030634_2_alg».proof.Proof.KDefs

set_option maxHeartbeats 1600000

noncomputable section

namespace Cert.KernelIdeal.Chain

open Idealize.ShloMosaic Idealize.ShloMosaic.TcCoe Idealize.SL.Sem Idealize.ShloMosaic.StableHlo
open Cert.KernelIdeal Cert.KernelIdeal.Gen

variable (W : Valuation τ sig (Elt Ideal))

/-! ## The first stretch -/

theorem h0_v40 : after hostOps0 W (Proc.devRef .tc main_v40)
    = aggD (truncf .bf16 (W (Proc.devRef .tc main_arg1) : FVec Ideal S30000x256 .f32) bitsLt_bf16_f32) (W (Proc.devRef .tc main_arg2)) (W (Proc.devRef .tc main_arg3)) := by
  after_results_simp
  rfl

theorem h0_v29 : after hostOps0 W (Proc.devRef .tc main_v29)
    = aggS (truncf .bf16 (W (Proc.devRef .tc main_arg0) : FVec Ideal S50000x256 .f32) bitsLt_bf16_f32) (W (Proc.devRef .tc main_arg2)) (W (Proc.devRef .tc main_arg3)) := by
  after_results_simp
  rfl

theorem h0_v16 : after hostOps0 W (Proc.devRef .tc main_v16) = invD (W (Proc.devRef .tc main_arg2)) := by
  after_results_simp
  rfl

theorem h0_v11 : after hostOps0 W (Proc.devRef .tc main_v11) = invS (W (Proc.devRef .tc main_arg3)) := by
  after_results_simp
  rfl

theorem h0_v41 : after hostOps0 W (Proc.devRef .tc main_v41) = rowB (W (Proc.devRef .tc main_arg10)) := by
  after_results_simp
  rfl

theorem h0_v17 : after hostOps0 W (Proc.devRef .tc main_v17) = truncf (F := Ideal) (s := S50000x256) (φ := .f32) .bf16 (W (Proc.devRef .tc main_arg0)) bitsLt_bf16_f32 := by
  after_results_simp

theorem h0_v18 : after hostOps0 W (Proc.devRef .tc main_v18) = truncf (F := Ideal) (s := S30000x256) (φ := .f32) .bf16 (W (Proc.devRef .tc main_arg1)) bitsLt_bf16_f32 := by
  after_results_simp

/-! ## The bias rows of the second and fourth stretches -/

theorem h1_v43 : after hostOps1 W (Proc.devRef .tc main_v43) = rowB (W (Proc.devRef .tc main_arg7)) := by
  after_results
  rfl

theorem h3_v69 : after hostOps3 W (Proc.devRef .tc main_v69) = rowB (W (Proc.devRef .tc main_arg13)) := by
  after_results
  rfl

/-! ## The third stretch: the second layer's neighbour sums -/

theorem h2_v55 : after hostOps2 W (Proc.devRef .tc main_v55) = aggS (W (Proc.devRef .tc main_v42)) (W (Proc.devRef .tc main_arg2)) (W (Proc.devRef .tc main_arg3)) := by
  after_results_simp
  rfl

theorem h2_v66 : after hostOps2 W (Proc.devRef .tc main_v66) = aggD (W (Proc.devRef .tc main_v44)) (W (Proc.devRef .tc main_arg2)) (W (Proc.devRef .tc main_arg3)) := by
  after_results_simp
  rfl

theorem h2_v67 : after hostOps2 W (Proc.devRef .tc main_v67) = rowB (W (Proc.devRef .tc main_arg16)) := by
  after_results_simp
  rfl

/-! ## The fifth stretch: the decoder's operands -/

theorem h4_v77 : after hostOps4 W (Proc.devRef .tc main_v77)
    = Host.gather gather_S50000x256_S200000x1_S200000x256_1_0_n_n_0_1_1256 (W (Proc.devRef .tc main_v68)) (colL (normL 50000#32 (W (Proc.devRef .tc main_arg4)))) := by
  after_results_simp

theorem h4_v84 : after hostOps4 W (Proc.devRef .tc main_v84)
    = Host.gather gather_S30000x256_S200000x1_S200000x256_1_0_n_n_0_1_1256 (W (Proc.devRef .tc main_v70)) (colL (normL 30000#32 (W (Proc.devRef .tc main_arg5)))) := by
  after_results_simp

theorem h4_v85 : after hostOps4 W (Proc.devRef .tc main_v85) = extractStridedSlice S256x256 ![0, 0] (W (Proc.devRef .tc main_arg18)) slices_S512x256_S256x256_0_0 := by
  after_results_simp

theorem h4_v86 : after hostOps4 W (Proc.devRef .tc main_v86) = extractStridedSlice S256x256 ![256, 0] (W (Proc.devRef .tc main_arg18)) slices_S512x256_S256x256_256_0 := by
  after_results_simp

theorem h4_v87 : after hostOps4 W (Proc.devRef .tc main_v87) = rowB (W (Proc.devRef .tc main_arg19)) := by
  after_results_simp
  rfl

theorem h4_v88 : after hostOps4 W (Proc.devRef .tc main_v88) = shapeCast S1x1 (W (Proc.devRef .tc main_arg21)) shapeCasts_S1_S1x1 := by
  after_results_simp
  rfl

/-! ## The last stretch: the scores as a vector -/

theorem h5_v90 : after hostOps5 W (Proc.devRef .tc main_v90) = shapeCast S200000 (W (Proc.devRef .tc main_v89)) shapeCasts_S200000x1_S200000 := by
  after_results
  rfl

end Cert.KernelIdeal.Chain

end
-- ==== Proof.KReg0.lean ====
/-
  Launch 0: the output array after the launch, as one function of the arrays the launch finds.

  The launch walks 25 blocks of 2000 rows. At block t it loads rows [2000·t, 2000·t + 2000) of the neighbour
  sums, of the reciprocal counts and of the nodes' own rows, together with the whole weight matrices and bias
  row, and writes back the layer's expression of them as rows [2000·t, 2000·t + 2000) of the output. The layer
  is local to a row, so what block t writes back is block t of the layer applied to the whole arrays; the 25
  blocks tile the 50000 rows (row r lies in block r / 2000), so the output array ends as the layer of the whole
  arrays.
-/
import proofs.«119415_j90744069030634_2_alg».proof.Proof.Gen.KernelIdeal.Frame
import proofs.«119415_j90744069030634_2_alg».proof.Proof.KPay

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.Tile Cert.KernelIdeal.Pay

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The layer of the arrays as the launch finds them. -/
def G : (Sh 50000 256).Idx → EReal :=
  sage 50000 relu (V c main_v40) (V c main_v16) (V c main_arg9) (V c main_v41) (V c main_v17) (V c main_arg11)

/-- The printed index maps over the grid: the row-tiled windows sit at block (t, 0), the whole-array windows at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Block t of the neighbour sums is rows [2000·t, 2000·t + 2000) of the array. -/
theorem blk0 (t : Fin cfg0.N) (ht : 2000 * t.val + 2000 ≤ 50000) :
    IsTile (2000 * t.val) ht (iblk0 V c 0 t) (V c main_v40) := by
  intro p l
  obtain ⟨e0, e1, -⟩ := idx_facts t
  show V c main_v40 (((cfg0.win 0).blk t).view.emb (ix2 p l)) = V c main_v40 (ix2 ⟨2000 * t.val + p.val, by omega⟩ l)
  refine congrArg (V c main_v40) (funext fun a => Fin.ext ?_)
  match a with
  | ⟨0, _⟩ => show win0_0.index t (0 : Fin 2) * 2000 + 1 * p.val = 2000 * t.val + p.val; omega
  | ⟨1, _⟩ => show win0_0.index t (1 : Fin 2) * 256 + 1 * l.val = l.val; omega

/-- Block t of the reciprocal counts is rows [2000·t, 2000·t + 2000) of the column. -/
theorem blk1 (t : Fin cfg0.N) (ht : 2000 * t.val + 2000 ≤ 50000) :
    IsTile (2000 * t.val) ht (iblk0 V c 1 t) (V c main_v16) := by
  intro p l
  obtain ⟨-, -, e0, e1, -⟩ := idx_facts t
  show V c main_v16 (((cfg0.win 1).blk t).view.emb (ix2 p l)) = V c main_v16 (ix2 ⟨2000 * t.val + p.val, by omega⟩ l)
  refine congrArg (V c main_v16) (funext fun a => Fin.ext ?_)
  match a with
  | ⟨0, _⟩ => show win0_1.index t (0 : Fin 2) * 2000 + 1 * p.val = 2000 * t.val + p.val; omega
  | ⟨1, _⟩ => show win0_1.index t (1 : Fin 2) * 1 + 1 * l.val = l.val; omega

/-- Block t of the nodes' own rows. -/
theorem blk4 (t : Fin cfg0.N) (ht : 2000 * t.val + 2000 ≤ 50000) :
    IsTile (2000 * t.val) ht (iblk0 V c 4 t) (V c main_v17) := by
  intro p l
  obtain ⟨-, -, -, -, -, -, -, -, e0, e1, -⟩ := idx_facts t
  show V c main_v17 (((cfg0.win 4).blk t).view.emb (ix2 p l)) = V c main_v17 (ix2 ⟨2000 * t.val + p.val, by omega⟩ l)
  refine congrArg (V c main_v17) (funext fun a => Fin.ext ?_)
  match a with
  | ⟨0, _⟩ => show win0_4.index t (0 : Fin 2) * 2000 + 1 * p.val = 2000 * t.val + p.val; omega
  | ⟨1, _⟩ => show win0_4.index t (1 : Fin 2) * 256 + 1 * l.val = l.val; omega

/-- The weight and bias windows hold the whole array at every point. -/
theorem blk2 (t : Fin cfg0.N) : iblk0 V c 2 t = V c main_arg9 := by
  obtain ⟨-, -, -, -, e0, e1, -⟩ := idx_facts t
  funext y
  show V c main_arg9 (((cfg0.win 2).blk t).view.emb y) = V c main_arg9 y
  refine congrArg (V c main_arg9) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem blk3 (t : Fin cfg0.N) : iblk0 V c 3 t = V c main_v41 := by
  obtain ⟨-, -, -, -, -, -, e0, e1, -⟩ := idx_facts t
  funext y
  show V c main_v41 (((cfg0.win 3).blk t).view.emb y) = V c main_v41 y
  refine congrArg (V c main_v41) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem blk5 (t : Fin cfg0.N) : iblk0 V c 5 t = V c main_arg11 := by
  obtain ⟨-, -, -, -, -, -, -, -, -, -, e0, e1, -⟩ := idx_facts t
  funext y
  show V c main_arg11 (((cfg0.win 5).blk t).view.emb y) = V c main_arg11 y
  refine congrArg (V c main_arg11) (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

/-- WHAT POINT t WRITES BACK is block t of the layer of the arrays as the launch finds them. -/
theorem flushed_eq (t : Fin cfg0.N) :
    (dat0 V c).flushed 6 t = ((cfg0.win 6).blk t).view.read (Elt Ideal) (G V c) := by
  have ht : 2000 * t.val + 2000 ≤ 50000 := by have := t.isLt; have hN : cfg0.N = 25 := N_0; omega
  show (cfg0.win 6).cut (grid0.coords t) ((dat0 V c).after 6 t) = _
  rw [after0_6]
  unfold out0_6
  rw [View.canon_unit_zero hz]
  simp only [View.ld_unit_zero (S := S2000x256) hz, View.ld_unit_zero (S := S2000x1) hz,
    View.ld_unit_zero (S := S256x256) hz, View.ld_unit_zero (S := S1x256) hz]
  rw [pay0_eq, blk2 V c t, blk3 V c t, blk5 V c t]
  obtain ⟨-, -, -, -, -, -, -, -, -, -, -, -, e0, e1⟩ := idx_facts t
  funext j
  obtain ⟨p, l, rfl⟩ : ∃ (p : Fin 2000) (l : Fin 256), j = ix2 p l := ⟨j 0, j 1, eq_ix2 j⟩
  have hT := sage_isTile relu (V c main_arg9) (V c main_v41) (V c main_arg11) (blk0 V c t ht) (blk1 V c t ht) (blk4 V c t ht) p l
  refine hT.trans ?_
  show G V c (ix2 ⟨2000 * t.val + p.val, by omega⟩ l) = G V c (((cfg0.win 6).blk t).view.emb (ix2 p l))
  refine congrArg (G V c) (funext fun a => Fin.ext ?_)
  match a with
  | ⟨0, _⟩ => show 2000 * t.val + p.val = win0_6.index t (0 : Fin 2) * 2000 + 1 * p.val; omega
  | ⟨1, _⟩ => show l.val = win0_6.index t (1 : Fin 2) * 256 + 1 * l.val; omega

/-- An index of the output array is in point t's block iff each coordinate is in the block's range on its axis. -/
theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v42).slice (win0_6.rect t)).set ↔ _
  rw [View.set_slice_whole, Rect.mem_set_unit]
  exact Iff.rfl

/-- Every row lies in some point's block: row r in block r / 2000. -/
theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  refine ⟨⟨(i 0).val / 2000, by omega⟩, flush0_6 _, ?_⟩
  rw [mem_blk]
  obtain ⟨-, -, -, -, -, -, -, -, -, -, -, -, e0, e1⟩ := idx_facts ⟨(i 0).val / 2000, by omega⟩
  intro a
  match a with
  | ⟨0, _⟩ =>
    show win0_6.index _ (0 : Fin 2) * 2000 ≤ (i 0).val ∧ (i 0).val < win0_6.index _ (0 : Fin 2) * 2000 + 2000
    rw [e0]; show (i 0).val / 2000 * 2000 ≤ (i 0).val ∧ (i 0).val < (i 0).val / 2000 * 2000 + 2000; omega
  | ⟨1, _⟩ =>
    show win0_6.index _ (1 : Fin 2) * 256 ≤ (i 1).val ∧ (i 1).val < win0_6.index _ (1 : Fin 2) * 256 + 256
    rw [e1]; omega

/-- THE OUTPUT ARRAY after the launch is the layer of the arrays as the launch finds them. -/
theorem final : (dat0 V c).arrAt 6 cfg0.N = G V c :=
  (dat0 V c).arrAt_eq_of_cover 6 (G V c) (fun t _ => flushed_eq V c t) cover

end Cert.KernelIdeal.Reg0

end
-- ==== Proof.KReg1.lean ====
/-
  Launch 1: the output array after the launch, as one function of the arrays the launch finds.

  The launch walks 15 blocks of 2000 rows. At block t it loads rows [2000·t, 2000·t + 2000) of the neighbour
  sums, of the reciprocal counts and of the nodes' own rows, together with the whole weight matrices and bias
  row, and writes back the layer's expression of them as rows [2000·t, 2000·t + 2000) of the output. The layer
  is local to a row, so what block t writes back is block t of the layer applied to the whole arrays; the 15
  blocks tile the 30000 rows (row r lies in block r / 2000), so the output array ends as the layer of the whole
  arrays.
-/
import proofs.«119415_j90744069030634_2_alg».proof.Proof.Gen.KernelIdeal.Frame
import proofs.«119415_j90744069030634_2_alg».proof.Proof.KPay

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.Tile Cert.KernelIdeal.Pay

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The layer of the arrays as the launch finds them. -/
def G : (Sh 30000 256).Idx → EReal :=
  sage 30000 relu (V c main_v29) (V c main_v11) (V c main_arg6) (V c main_v43) (V c main_v18) (V c main_arg8)

/-- The printed index maps over the grid: the row-tiled windows sit at block (t, 0), the whole-array windows at
    block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block t of the neighbour sums is rows [2000·t, 2000·t + 2000) of the array. -/
theorem blk0 (t : Fin cfg1.N) (ht : 2000 * t.val + 2000 ≤ 30000) :
    IsTile (2000 * t.val) ht (iblk1 V c 0 t) (V c main_v29) := by
  intro p l
  obtain ⟨e0, e1, -⟩ := idx_facts t
  show V c main_v29 (((cfg1.win 0).blk t).view.emb (ix2 p l)) = V c main_v29 (ix2 ⟨2000 * t.val + p.val, by omega⟩ l)
  refine congrArg (V c main_v29) (funext fun a => Fin.ext ?_)
  match a with
  | ⟨0, _⟩ => show win1_0.index t (0 : Fin 2) * 2000 + 1 * p.val = 2000 * t.val + p.val; omega
  | ⟨1, _⟩ => show win1_0.index t (1 : Fin 2) * 256 + 1 * l.val = l.val; omega

/-- Block t of the reciprocal counts is rows [2000·t, 2000·t + 2000) of the column. -/
theorem blk1 (t : Fin cfg1.N) (ht : 2000 * t.val + 2000 ≤ 30000) :
    IsTile (2000 * t.val) ht (iblk1 V c 1 t) (V c main_v11) := by
  intro p l
  obtain ⟨-, -, e0, e1, -⟩ := idx_facts t
  show V c main_v11 (((cfg1.win 1).blk t).view.emb (ix2 p l)) = V c main_v11 (ix2 ⟨2000 * t.val + p.val, by omega⟩ l)
  refine congrArg (V c main_v11) (funext fun a => Fin.ext ?_)
  match a with
  | ⟨0, _⟩ => show win1_1.index t (0 : Fin 2) * 2000 + 1 * p.val = 2000 * t.val + p.val; omega
  | ⟨1, _⟩ => show win1_1.index t (1 : Fin 2) * 1 + 1 * l.val = l.val; omega

/-- Block t of the nodes' own rows. -/
theorem blk4 (t : Fin cfg1.N) (ht : 2000 * t.val + 2000 ≤ 30000) :
    IsTile (2000 * t.val) ht (iblk1 V c 4 t) (V c main_v18) := by
  intro p l
  obtain ⟨-, -, -, -, -, -, -, -, e0, e1, -⟩ := idx_facts t
  show V c main_v18 (((cfg1.win 4).blk t).view.emb (ix2 p l)) = V c main_v18 (ix2 ⟨2000 * t.val + p.val, by omega⟩ l)
  refine congrArg (V c main_v18) (funext fun a => Fin.ext ?_)
  match a with
  | ⟨0, _⟩ => show win1_4.index t (0 : Fin 2) * 2000 + 1 * p.val = 2000 * t.val + p.val; omega
  | ⟨1, _⟩ => show win1_4.index t (1 : Fin 2) * 256 + 1 * l.val = l.val; omega

/-- The weight and bias windows hold the whole array at every point. -/
theorem blk2 (t : Fin cfg1.N) : iblk1 V c 2 t = V c main_arg6 := by
  obtain ⟨-, -, -, -, e0, e1, -⟩ := idx_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 256 + 1 * (y 0).val = (y 0).val; omega
  | ⟨1, _⟩ => show win1_2.index t (1 : Fin 2) * 256 + 1 * (y 1).val = (y 1).val; omega

theorem blk3 (t : Fin cfg1.N) : iblk1 V c 3 t = V c main_v43 := by
  obtain ⟨-, -, -, -, -, -, e0, e1, -⟩ := idx_facts t
  funext y
  show V c main_v43 (((cfg1.win 3).blk t).view.emb y) = V c main_v43 y
  refine congrArg (V c main_v43) (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

theorem blk5 (t : Fin cfg1.N) : iblk1 V c 5 t = V c main_arg8 := by
  obtain ⟨-, -, -, -, -, -, -, -, -, -, e0, e1, -⟩ := idx_facts t
  funext y
  show V c main_arg8 (((cfg1.win 5).blk t).view.emb y) = V c main_arg8 y
  refine congrArg (V c main_arg8) (funext fun a => Fin.ext ?_)
  match a with
  | ⟨0, _⟩ => show win1_5.index t (0 : Fin 2) * 256 + 1 * (y 0).val = (y 0).val; omega
  | ⟨1, _⟩ => show win1_5.index t (1 : Fin 2) * 256 + 1 * (y 1).val = (y 1).val; omega

/-- WHAT POINT t WRITES BACK is block t of the layer of the arrays as the launch finds them. -/
theorem flushed_eq (t : Fin cfg1.N) :
    (dat1 V c).flushed 6 t = ((cfg1.win 6).blk t).view.read (Elt Ideal) (G V c) := by
  have ht : 2000 * t.val + 2000 ≤ 30000 := by have := t.isLt; have hN : cfg1.N = 15 := N_1; omega
  show (cfg1.win 6).cut (grid1.coords t) ((dat1 V c).after 6 t) = _
  rw [after1_6]
  unfold out1_6
  rw [View.canon_unit_zero hz]
  simp only [View.ld_unit_zero (S := S2000x256) hz, View.ld_unit_zero (S := S2000x1) hz,
    View.ld_unit_zero (S := S256x256) hz, View.ld_unit_zero (S := S1x256) hz]
  rw [pay1_eq, blk2 V c t, blk3 V c t, blk5 V c t]
  obtain ⟨-, -, -, -, -, -, -, -, -, -, -, -, e0, e1⟩ := idx_facts t
  funext j
  obtain ⟨p, l, rfl⟩ : ∃ (p : Fin 2000) (l : Fin 256), j = ix2 p l := ⟨j 0, j 1, eq_ix2 j⟩
  have hT := sage_isTile relu (V c main_arg6) (V c main_v43) (V c main_arg8) (blk0 V c t ht) (blk1 V c t ht) (blk4 V c t ht) p l
  refine hT.trans ?_
  show G V c (ix2 ⟨2000 * t.val + p.val, by omega⟩ l) = G V c (((cfg1.win 6).blk t).view.emb (ix2 p l))
  refine congrArg (G V c) (funext fun a => Fin.ext ?_)
  match a with
  | ⟨0, _⟩ => show 2000 * t.val + p.val = win1_6.index t (0 : Fin 2) * 2000 + 1 * p.val; omega
  | ⟨1, _⟩ => show l.val = win1_6.index t (1 : Fin 2) * 256 + 1 * l.val; omega

/-- An index of the output array is in point t's block iff each coordinate is in the block's range on its axis. -/
theorem mem_blk (t : Fin cfg1.N) (i : S30000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v44).slice (win1_6.rect t)).set ↔ _
  rw [View.set_slice_whole, Rect.mem_set_unit]
  exact Iff.rfl

/-- Every row lies in some point's block: row r in block r / 2000. -/
theorem cover (i : S30000x256.Idx) : ∃ t : Fin cfg1.N, (cfg1.win 6).flush t = true ∧ i ∈ ((cfg1.win 6).blk t).view.set := by
  have hi0 : (i 0).val < 30000 := (i 0).isLt
  have hi1 : (i 1).val < 256 := (i 1).isLt
  have hN : cfg1.N = 15 := N_1
  refine ⟨⟨(i 0).val / 2000, by omega⟩, flush1_6 _, ?_⟩
  rw [mem_blk]
  obtain ⟨-, -, -, -, -, -, -, -, -, -, -, -, e0, e1⟩ := idx_facts ⟨(i 0).val / 2000, by omega⟩
  intro a
  match a with
  | ⟨0, _⟩ =>
    show win1_6.index _ (0 : Fin 2) * 2000 ≤ (i 0).val ∧ (i 0).val < win1_6.index _ (0 : Fin 2) * 2000 + 2000
    rw [e0]; show (i 0).val / 2000 * 2000 ≤ (i 0).val ∧ (i 0).val < (i 0).val / 2000 * 2000 + 2000; omega
  | ⟨1, _⟩ =>
    show win1_6.index _ (1 : Fin 2) * 256 ≤ (i 1).val ∧ (i 1).val < win1_6.index _ (1 : Fin 2) * 256 + 256
    rw [e1]; omega

/-- THE OUTPUT ARRAY after the launch is the layer of the arrays as the launch finds them. -/
theorem final : (dat1 V c).arrAt 6 cfg1.N = G V c :=
  (dat1 V c).arrAt_eq_of_cover 6 (G V c) (fun t _ => flushed_eq V c t) cover

end Cert.KernelIdeal.Reg1

end
-- ==== Proof.KReg2.lean ====
/-
  Launch 2: the output array after the launch, as one function of the arrays the launch finds.

  The launch walks 25 blocks of 2000 rows. At block t it loads rows [2000·t, 2000·t + 2000) of the neighbour
  sums, of the reciprocal counts and of the nodes' own rows, together with the whole weight matrices and bias
  row, and writes back the layer's expression of them as rows [2000·t, 2000·t + 2000) of the output. The layer
  is local to a row, so what block t writes back is block t of the layer applied to the whole arrays; the 25
  blocks tile the 50000 rows (row r lies in block r / 2000), so the output array ends as the layer of the whole
  arrays.
-/
import proofs.«119415_j90744069030634_2_alg».proof.Proof.Gen.KernelIdeal.Frame
import proofs.«119415_j90744069030634_2_alg».proof.Proof.KPay

set_option maxRecDepth 16384

noncomputable section

namespace Cert.KernelIdeal.Reg2

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.Tile Cert.KernelIdeal.Pay

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The layer of the arrays as the launch finds them. -/
def G : (Sh 50000 256).Idx → EReal :=
  sage 50000 (fun v => v) (V c main_v66) (V c main_v16) (V c main_arg15) (V c main_v67) (V c main_v42) (V c main_arg17)

/-- The printed index maps over the grid: the row-tiled windows sit at block (t, 0), the whole-array windows at
    block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Block t of the neighbour sums is rows [2000·t, 2000·t + 2000) of the array. -/
theorem blk0 (t : Fin cfg2.N) (ht : 2000 * t.val + 2000 ≤ 50000) :
    IsTile (2000 * t.val) ht (iblk2 V c 0 t) (V c main_v66) := by
  intro p l
  obtain ⟨e0, e1, -⟩ := idx_facts t
  show V c main_v66 (((cfg2.win 0).blk t).view.emb (ix2 p l)) = V c main_v66 (ix2 ⟨2000 * t.val + p.val, by omega⟩ l)
  refine congrArg (V c main_v66) (funext fun a => Fin.ext ?_)
  match a with
  | ⟨0, _⟩ => show win2_0.index t (0 : Fin 2) * 2000 + 1 * p.val = 2000 * t.val + p.val; omega
  | ⟨1, _⟩ => show win2_0.index t (1 : Fin 2) * 256 + 1 * l.val = l.val; omega

/-- Block t of the reciprocal counts is rows [2000·t, 2000·t + 2000) of the column. -/
theorem blk1 (t : Fin cfg2.N) (ht : 2000 * t.val + 2000 ≤ 50000) :
    IsTile (2000 * t.val) ht (iblk2 V c 1 t) (V c main_v16) := by
  intro p l
  obtain ⟨-, -, e0, e1, -⟩ := idx_facts t
  show V c main_v16 (((cfg2.win 1).blk t).view.emb (ix2 p l)) = V c main_v16 (ix2 ⟨2000 * t.val + p.val, by omega⟩ l)
  refine congrArg (V c main_v16) (funext fun a => Fin.ext ?_)
  match a with
  | ⟨0, _⟩ => show win2_1.index t (0 : Fin 2) * 2000 + 1 * p.val = 2000 * t.val + p.val; omega
  | ⟨1, _⟩ => show win2_1.index t (1 : Fin 2) * 1 + 1 * l.val = l.val; omega

/-- Block t of the nodes' own rows. -/
theorem blk4 (t : Fin cfg2.N) (ht : 2000 * t.val + 2000 ≤ 50000) :
    IsTile (2000 * t.val) ht (iblk2 V c 4 t) (V c main_v42) := by
  intro p l
  obtain ⟨-, -, -, -, -, -, -, -, e0, e1, -⟩ := idx_facts t
  show V c main_v42 (((cfg2.win 4).blk t).view.emb (ix2 p l)) = V c main_v42 (ix2 ⟨2000 * t.val + p.val, by omega⟩ l)
  refine congrArg (V c main_v42) (funext fun a => Fin.ext ?_)
  match a with
  | ⟨0, _⟩ => show win2_4.index t (0 : Fin 2) * 2000 + 1 * p.val = 2000 * t.val + p.val; omega
  | ⟨1, _⟩ => show win2_4.index t (1 : Fin 2) * 256 + 1 * l.val = l.val; omega

/-- The weight and bias windows hold the whole array at every point. -/
theorem blk2 (t : Fin cfg2.N) : iblk2 V c 2 t = V c main_arg15 := by
  obtain ⟨-, -, -, -, e0, e1, -⟩ := idx_facts t
  funext y
  show V c main_arg15 (((cfg2.win 2).blk t).view.emb y) = V c main_arg15 y
  refine congrArg (V c main_arg15) (funext fun a => Fin.ext ?_)
  match a with
  | ⟨0, _⟩ => show win2_2.index t (0 : Fin 2) * 256 + 1 * (y 0).val = (y 0).val; omega
  | ⟨1, _⟩ => show win2_2.index t (1 : Fin 2) * 256 + 1 * (y 1).val = (y 1).val; omega

theorem blk3 (t : Fin cfg2.N) : iblk2 V c 3 t = V c main_v67 := by
  obtain ⟨-, -, -, -, -, -, e0, e1, -⟩ := idx_facts t
  funext y
  show V c main_v67 (((cfg2.win 3).blk t).view.emb y) = V c main_v67 y
  refine congrArg (V c main_v67) (funext fun a => Fin.ext ?_)
  match a with
  | ⟨0, _⟩ => show win2_3.index t (0 : Fin 2) * 1 + 1 * (y 0).val = (y 0).val; omega
  | ⟨1, _⟩ => show win2_3.index t (1 : Fin 2) * 256 + 1 * (y 1).val = (y 1).val; omega

theorem blk5 (t : Fin cfg2.N) : iblk2 V c 5 t = V c main_arg17 := by
  obtain ⟨-, -, -, -, -, -, -, -, -, -, e0, e1, -⟩ := idx_facts t
  funext y
  show V c main_arg17 (((cfg2.win 5).blk t).view.emb y) = V c main_arg17 y
  refine congrArg (V c main_arg17) (funext fun a => Fin.ext ?_)
  match a with
  | ⟨0, _⟩ => show win2_5.index t (0 : Fin 2) * 256 + 1 * (y 0).val = (y 0).val; omega
  | ⟨1, _⟩ => show win2_5.index t (1 : Fin 2) * 256 + 1 * (y 1).val = (y 1).val; omega

/-- WHAT POINT t WRITES BACK is block t of the layer of the arrays as the launch finds them. -/
theorem flushed_eq (t : Fin cfg2.N) :
    (dat2 V c).flushed 6 t = ((cfg2.win 6).blk t).view.read (Elt Ideal) (G V c) := by
  have ht : 2000 * t.val + 2000 ≤ 50000 := by have := t.isLt; have hN : cfg2.N = 25 := N_2; omega
  show (cfg2.win 6).cut (grid2.coords t) ((dat2 V c).after 6 t) = _
  rw [after2_6]
  unfold out2_6
  rw [View.canon_unit_zero hz]
  simp only [View.ld_unit_zero (S := S2000x256) hz, View.ld_unit_zero (S := S2000x1) hz,
    View.ld_unit_zero (S := S256x256) hz, View.ld_unit_zero (S := S1x256) hz]
  rw [pay2_eq, blk2 V c t, blk3 V c t, blk5 V c t]
  obtain ⟨-, -, -, -, -, -, -, -, -, -, -, -, e0, e1⟩ := idx_facts t
  funext j
  obtain ⟨p, l, rfl⟩ : ∃ (p : Fin 2000) (l : Fin 256), j = ix2 p l := ⟨j 0, j 1, eq_ix2 j⟩
  have hT := sage_isTile (fun v => v) (V c main_arg15) (V c main_v67) (V c main_arg17) (blk0 V c t ht) (blk1 V c t ht) (blk4 V c t ht) p l
  refine hT.trans ?_
  show G V c (ix2 ⟨2000 * t.val + p.val, by omega⟩ l) = G V c (((cfg2.win 6).blk t).view.emb (ix2 p l))
  refine congrArg (G V c) (funext fun a => Fin.ext ?_)
  match a with
  | ⟨0, _⟩ => show 2000 * t.val + p.val = win2_6.index t (0 : Fin 2) * 2000 + 1 * p.val; omega
  | ⟨1, _⟩ => show l.val = win2_6.index t (1 : Fin 2) * 256 + 1 * l.val; omega

/-- An index of the output array is in point t's block iff each coordinate is in the block's range on its axis. -/
theorem mem_blk (t : Fin cfg2.N) (i : S50000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v68).slice (win2_6.rect t)).set ↔ _
  rw [View.set_slice_whole, Rect.mem_set_unit]
  exact Iff.rfl

/-- Every row lies in some point's block: row r in block r / 2000. -/
theorem cover (i : S50000x256.Idx) : ∃ t : Fin cfg2.N, (cfg2.win 6).flush t = true ∧ i ∈ ((cfg2.win 6).blk t).view.set := by
  have hi0 : (i 0).val < 50000 := (i 0).isLt
  have hi1 : (i 1).val < 256 := (i 1).isLt
  have hN : cfg2.N = 25 := N_2
  refine ⟨⟨(i 0).val / 2000, by omega⟩, flush2_6 _, ?_⟩
  rw [mem_blk]
  obtain ⟨-, -, -, -, -, -, -, -, -, -, -, -, e0, e1⟩ := idx_facts ⟨(i 0).val / 2000, by omega⟩
  intro a
  match a with
  | ⟨0, _⟩ =>
    show win2_6.index _ (0 : Fin 2) * 2000 ≤ (i 0).val ∧ (i 0).val < win2_6.index _ (0 : Fin 2) * 2000 + 2000
    rw [e0]; show (i 0).val / 2000 * 2000 ≤ (i 0).val ∧ (i 0).val < (i 0).val / 2000 * 2000 + 2000; omega
  | ⟨1, _⟩ =>
    show win2_6.index _ (1 : Fin 2) * 256 ≤ (i 1).val ∧ (i 1).val < win2_6.index _ (1 : Fin 2) * 256 + 256
    rw [e1]; omega

/-- THE OUTPUT ARRAY after the launch is the layer of the arrays as the launch finds them. -/
theorem final : (dat2 V c).arrAt 6 cfg2.N = G V c :=
  (dat2 V c).arrAt_eq_of_cover 6 (G V c) (fun t _ => flushed_eq V c t) cover

end Cert.KernelIdeal.Reg2

end
-- ==== Proof.KReg3.lean ====
/-
  Launch 3: the output array after the launch, as one function of the arrays the launch finds.

  The launch walks 15 blocks of 2000 rows. At block t it loads rows [2000·t, 2000·t + 2000) of the neighbour
  sums, of the reciprocal counts and of the nodes' own rows, together with the whole weight matrices and bias
  row, and writes back the layer's expression of them as rows [2000·t, 2000·t + 2000) of the output. The layer
  is local to a row, so what block t writes back is block t of the layer applied to the whole arrays; the 15
  blocks tile the 30000 rows (row r lies in block r / 2000), so the output array ends as the layer of the whole
  arrays.
-/
import proofs.«119415_j90744069030634_2_alg».proof.Proof.Gen.KernelIdeal.Frame
import proofs.«119415_j90744069030634_2_alg».proof.Proof.KPay

set_option maxRecDepth 16384

noncomputable section

namespace Cert.KernelIdeal.Reg3

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.Tile Cert.KernelIdeal.Pay

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The layer of the arrays as the launch finds them. -/
def G : (Sh 30000 256).Idx → EReal :=
  sage 30000 (fun v => v) (V c main_v55) (V c main_v11) (V c main_arg12) (V c main_v69) (V c main_v44) (V c main_arg14)

/-- The printed index maps over the grid: the row-tiled windows sit at block (t, 0), the whole-array windows at
    block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Block t of the neighbour sums is rows [2000·t, 2000·t + 2000) of the array. -/
theorem blk0 (t : Fin cfg3.N) (ht : 2000 * t.val + 2000 ≤ 30000) :
    IsTile (2000 * t.val) ht (iblk3 V c 0 t) (V c main_v55) := by
  intro p l
  obtain ⟨e0, e1, -⟩ := idx_facts t
  show V c main_v55 (((cfg3.win 0).blk t).view.emb (ix2 p l)) = V c main_v55 (ix2 ⟨2000 * t.val + p.val, by omega⟩ l)
  refine congrArg (V c main_v55) (funext fun a => Fin.ext ?_)
  match a with
  | ⟨0, _⟩ => show win3_0.index t (0 : Fin 2) * 2000 + 1 * p.val = 2000 * t.val + p.val; omega
  | ⟨1, _⟩ => show win3_0.index t (1 : Fin 2) * 256 + 1 * l.val = l.val; omega

/-- Block t of the reciprocal counts is rows [2000·t, 2000·t + 2000) of the column. -/
theorem blk1 (t : Fin cfg3.N) (ht : 2000 * t.val + 2000 ≤ 30000) :
    IsTile (2000 * t.val) ht (iblk3 V c 1 t) (V c main_v11) := by
  intro p l
  obtain ⟨-, -, e0, e1, -⟩ := idx_facts t
  show V c main_v11 (((cfg3.win 1).blk t).view.emb (ix2 p l)) = V c main_v11 (ix2 ⟨2000 * t.val + p.val, by omega⟩ l)
  refine congrArg (V c main_v11) (funext fun a => Fin.ext ?_)
  match a with
  | ⟨0, _⟩ => show win3_1.index t (0 : Fin 2) * 2000 + 1 * p.val = 2000 * t.val + p.val; omega
  | ⟨1, _⟩ => show win3_1.index t (1 : Fin 2) * 1 + 1 * l.val = l.val; omega

/-- Block t of the nodes' own rows. -/
theorem blk4 (t : Fin cfg3.N) (ht : 2000 * t.val + 2000 ≤ 30000) :
    IsTile (2000 * t.val) ht (iblk3 V c 4 t) (V c main_v44) := by
  intro p l
  obtain ⟨-, -, -, -, -, -, -, -, e0, e1, -⟩ := idx_facts t
  show V c main_v44 (((cfg3.win 4).blk t).view.emb (ix2 p l)) = V c main_v44 (ix2 ⟨2000 * t.val + p.val, by omega⟩ l)
  refine congrArg (V c main_v44) (funext fun a => Fin.ext ?_)
  match a with
  | ⟨0, _⟩ => show win3_4.index t (0 : Fin 2) * 2000 + 1 * p.val = 2000 * t.val + p.val; omega
  | ⟨1, _⟩ => show win3_4.index t (1 : Fin 2) * 256 + 1 * l.val = l.val; omega

/-- The weight and bias windows hold the whole array at every point. -/
theorem blk2 (t : Fin cfg3.N) : iblk3 V c 2 t = V c main_arg12 := by
  obtain ⟨-, -, -, -, e0, e1, -⟩ := idx_facts t
  funext y
  show V c main_arg12 (((cfg3.win 2).blk t).view.emb y) = V c main_arg12 y
  refine congrArg (V c main_arg12) (funext fun a => Fin.ext ?_)
  match a with
  | ⟨0, _⟩ => show win3_2.index t (0 : Fin 2) * 256 + 1 * (y 0).val = (y 0).val; omega
  | ⟨1, _⟩ => show win3_2.index t (1 : Fin 2) * 256 + 1 * (y 1).val = (y 1).val; omega

theorem blk3 (t : Fin cfg3.N) : iblk3 V c 3 t = V c main_v69 := by
  obtain ⟨-, -, -, -, -, -, e0, e1, -⟩ := idx_facts t
  funext y
  show V c main_v69 (((cfg3.win 3).blk t).view.emb y) = V c main_v69 y
  refine congrArg (V c main_v69) (funext fun a => Fin.ext ?_)
  match a with
  | ⟨0, _⟩ => show win3_3.index t (0 : Fin 2) * 1 + 1 * (y 0).val = (y 0).val; omega
  | ⟨1, _⟩ => show win3_3.index t (1 : Fin 2) * 256 + 1 * (y 1).val = (y 1).val; omega

theorem blk5 (t : Fin cfg3.N) : iblk3 V c 5 t = V c main_arg14 := by
  obtain ⟨-, -, -, -, -, -, -, -, -, -, e0, e1, -⟩ := idx_facts t
  funext y
  show V c main_arg14 (((cfg3.win 5).blk t).view.emb y) = V c main_arg14 y
  refine congrArg (V c main_arg14) (funext fun a => Fin.ext ?_)
  match a with
  | ⟨0, _⟩ => show win3_5.index t (0 : Fin 2) * 256 + 1 * (y 0).val = (y 0).val; omega
  | ⟨1, _⟩ => show win3_5.index t (1 : Fin 2) * 256 + 1 * (y 1).val = (y 1).val; omega

/-- WHAT POINT t WRITES BACK is block t of the layer of the arrays as the launch finds them. -/
theorem flushed_eq (t : Fin cfg3.N) :
    (dat3 V c).flushed 6 t = ((cfg3.win 6).blk t).view.read (Elt Ideal) (G V c) := by
  have ht : 2000 * t.val + 2000 ≤ 30000 := by have := t.isLt; have hN : cfg3.N = 15 := N_3; omega
  show (cfg3.win 6).cut (grid3.coords t) ((dat3 V c).after 6 t) = _
  rw [after3_6]
  unfold out3_6
  rw [View.canon_unit_zero hz]
  simp only [View.ld_unit_zero (S := S2000x256) hz, View.ld_unit_zero (S := S2000x1) hz,
    View.ld_unit_zero (S := S256x256) hz, View.ld_unit_zero (S := S1x256) hz]
  rw [pay3_eq, blk2 V c t, blk3 V c t, blk5 V c t]
  obtain ⟨-, -, -, -, -, -, -, -, -, -, -, -, e0, e1⟩ := idx_facts t
  funext j
  obtain ⟨p, l, rfl⟩ : ∃ (p : Fin 2000) (l : Fin 256), j = ix2 p l := ⟨j 0, j 1, eq_ix2 j⟩
  have hT := sage_isTile (fun v => v) (V c main_arg12) (V c main_v69) (V c main_arg14) (blk0 V c t ht) (blk1 V c t ht) (blk4 V c t ht) p l
  refine hT.trans ?_
  show G V c (ix2 ⟨2000 * t.val + p.val, by omega⟩ l) = G V c (((cfg3.win 6).blk t).view.emb (ix2 p l))
  refine congrArg (G V c) (funext fun a => Fin.ext ?_)
  match a with
  | ⟨0, _⟩ => show 2000 * t.val + p.val = win3_6.index t (0 : Fin 2) * 2000 + 1 * p.val; omega
  | ⟨1, _⟩ => show l.val = win3_6.index t (1 : Fin 2) * 256 + 1 * l.val; omega

/-- An index of the output array is in point t's block iff each coordinate is in the block's range on its axis. -/
theorem mem_blk (t : Fin cfg3.N) (i : S30000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v70).slice (win3_6.rect t)).set ↔ _
  rw [View.set_slice_whole, Rect.mem_set_unit]
  exact Iff.rfl

/-- Every row lies in some point's block: row r in block r / 2000. -/
theorem cover (i : S30000x256.Idx) : ∃ t : Fin cfg3.N, (cfg3.win 6).flush t = true ∧ i ∈ ((cfg3.win 6).blk t).view.set := by
  have hi0 : (i 0).val < 30000 := (i 0).isLt
  have hi1 : (i 1).val < 256 := (i 1).isLt
  have hN : cfg3.N = 15 := N_3
  refine ⟨⟨(i 0).val / 2000, by omega⟩, flush3_6 _, ?_⟩
  rw [mem_blk]
  obtain ⟨-, -, -, -, -, -, -, -, -, -, -, -, e0, e1⟩ := idx_facts ⟨(i 0).val / 2000, by omega⟩
  intro a
  match a with
  | ⟨0, _⟩ =>
    show win3_6.index _ (0 : Fin 2) * 2000 ≤ (i 0).val ∧ (i 0).val < win3_6.index _ (0 : Fin 2) * 2000 + 2000
    rw [e0]; show (i 0).val / 2000 * 2000 ≤ (i 0).val ∧ (i 0).val < (i 0).val / 2000 * 2000 + 2000; omega
  | ⟨1, _⟩ =>
    show win3_6.index _ (1 : Fin 2) * 256 ≤ (i 1).val ∧ (i 1).val < win3_6.index _ (1 : Fin 2) * 256 + 256
    rw [e1]; omega

/-- THE OUTPUT ARRAY after the launch is the layer of the arrays as the launch finds them. -/
theorem final : (dat3 V c).arrAt 6 cfg3.N = G V c :=
  (dat3 V c).arrAt_eq_of_cover 6 (G V c) (fun t _ => flushed_eq V c t) cover

end Cert.KernelIdeal.Reg3

end
-- ==== Proof.KReg4.lean ====
/-
  The decoder launch: the output array after the launch, as one function of the arrays the launch finds.

  The launch walks 100 blocks of 2000 edges. At block t it loads rows [2000·t, 2000·t + 2000) of the two end
  points' rows, together with the whole weight matrices, bias row, output column and output bias, and writes back
  the decoder's expression of them as rows [2000·t, 2000·t + 2000) of the one-column output. The decoder is local
  to a row, so what block t writes back is block t of the decoder applied to the whole arrays; the 100 blocks
  tile the 200000 rows (row r lies in block r / 2000), so the output array ends as the decoder of the whole
  arrays.
-/
import proofs.«119415_j90744069030634_2_alg».proof.Proof.Gen.KernelIdeal.Frame
import proofs.«119415_j90744069030634_2_alg».proof.Proof.KPay

set_option maxRecDepth 16384

noncomputable section

namespace Cert.KernelIdeal.Reg4

open Idealize.ShloMosaic Idealize.ShloMosaic.TcCoe Idealize.SL.Sem Idealize.ShloMosaic.ValueIdx
open Idealize.ShloMosaic.Pipeline (Dat)
open Cert.KernelIdeal Cert.KernelIdeal.Gen Cert.Tile Cert.KernelIdeal.Pay

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The decoder of the arrays as the launch finds them. -/
def G : (Cert.Dec.Sh 200000 1).Idx → EReal :=
  Cert.Dec.dec 200000 (Ideal.ofBits .f32 0x00000000#32) (V c main_v77) (V c main_v84) (V c main_v85) (V c main_v86)
    (V c main_v87) (V c main_arg20) (V c main_v88)

/-- The printed index maps over the grid: the row-tiled windows sit at block (t, 0), the whole-array windows at
    block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Block t of the first end point's rows is rows [2000·t, 2000·t + 2000) of the array. -/
theorem blk0 (t : Fin cfg4.N) (ht : 2000 * t.val + 2000 ≤ 200000) :
    IsTile (2000 * t.val) ht (iblk4 V c 0 t) (V c main_v77) := by
  intro p l
  obtain ⟨e0, e1, -⟩ := idx_facts t
  show V c main_v77 (((cfg4.win 0).blk t).view.emb (ix2 p l)) = V c main_v77 (ix2 ⟨2000 * t.val + p.val, by omega⟩ l)
  refine congrArg (V c main_v77) (funext fun a => Fin.ext ?_)
  match a with
  | ⟨0, _⟩ => show win4_0.index t (0 : Fin 2) * 2000 + 1 * p.val = 2000 * t.val + p.val; omega
  | ⟨1, _⟩ => show win4_0.index t (1 : Fin 2) * 256 + 1 * l.val = l.val; omega

/-- Block t of the second end point's rows. -/
theorem blk1 (t : Fin cfg4.N) (ht : 2000 * t.val + 2000 ≤ 200000) :
    IsTile (2000 * t.val) ht (iblk4 V c 1 t) (V c main_v84) := by
  intro p l
  obtain ⟨-, -, e0, e1, -⟩ := idx_facts t
  show V c main_v84 (((cfg4.win 1).blk t).view.emb (ix2 p l)) = V c main_v84 (ix2 ⟨2000 * t.val + p.val, by omega⟩ l)
  refine congrArg (V c main_v84) (funext fun a => Fin.ext ?_)
  match a with
  | ⟨0, _⟩ => show win4_1.index t (0 : Fin 2) * 2000 + 1 * p.val = 2000 * t.val + p.val; omega
  | ⟨1, _⟩ => show win4_1.index t (1 : Fin 2) * 256 + 1 * l.val = l.val; omega

/-- The weight, bias and output-column windows hold the whole array at every point. -/
theorem blk2 (t : Fin cfg4.N) : iblk4 V c 2 t = V c main_v85 := by
  obtain ⟨-, -, -, -, e0, e1, -⟩ := idx_facts t
  funext y
  show V c main_v85 (((cfg4.win 2).blk t).view.emb y) = V c main_v85 y
  refine congrArg (V c main_v85) (funext fun a => Fin.ext ?_)
  match a with
  | ⟨0, _⟩ => show win4_2.index t (0 : Fin 2) * 256 + 1 * (y 0).val = (y 0).val; omega
  | ⟨1, _⟩ => show win4_2.index t (1 : Fin 2) * 256 + 1 * (y 1).val = (y 1).val; omega

theorem blk3 (t : Fin cfg4.N) : iblk4 V c 3 t = V c main_v86 := by
  obtain ⟨-, -, -, -, -, -, e0, e1, -⟩ := idx_facts t
  funext y
  show V c main_v86 (((cfg4.win 3).blk t).view.emb y) = V c main_v86 y
  refine congrArg (V c main_v86) (funext fun a => Fin.ext ?_)
  match a with
  | ⟨0, _⟩ => show win4_3.index t (0 : Fin 2) * 256 + 1 * (y 0).val = (y 0).val; omega
  | ⟨1, _⟩ => show win4_3.index t (1 : Fin 2) * 256 + 1 * (y 1).val = (y 1).val; omega

theorem blk4 (t : Fin cfg4.N) : iblk4 V c 4 t = V c main_v87 := by
  obtain ⟨-, -, -, -, -, -, -, -, e0, e1, -⟩ := idx_facts t
  funext y
  show V c main_v87 (((cfg4.win 4).blk t).view.emb y) = V c main_v87 y
  refine congrArg (V c main_v87) (funext fun a => Fin.ext ?_)
  match a with
  | ⟨0, _⟩ => show win4_4.index t (0 : Fin 2) * 1 + 1 * (y 0).val = (y 0).val; omega
  | ⟨1, _⟩ => show win4_4.index t (1 : Fin 2) * 256 + 1 * (y 1).val = (y 1).val; omega

theorem blk5 (t : Fin cfg4.N) : iblk4 V c 5 t = V c main_arg20 := by
  obtain ⟨-, -, -, -, -, -, -, -, -, -, e0, e1, -⟩ := idx_facts t
  funext y
  show V c main_arg20 (((cfg4.win 5).blk t).view.emb y) = V c main_arg20 y
  refine congrArg (V c main_arg20) (funext fun a => Fin.ext ?_)
  match a with
  | ⟨0, _⟩ => show win4_5.index t (0 : Fin 2) * 256 + 1 * (y 0).val = (y 0).val; omega
  | ⟨1, _⟩ => show win4_5.index t (1 : Fin 2) * 1 + 1 * (y 1).val = (y 1).val; omega

theorem blk6 (t : Fin cfg4.N) : iblk4 V c 6 t = V c main_v88 := by
  obtain ⟨-, -, -, -, -, -, -, -, -, -, -, -, e0, e1, -⟩ := idx_facts t
  funext y
  show V c main_v88 (((cfg4.win 6).blk t).view.emb y) = V c main_v88 y
  refine congrArg (V c main_v88) (funext fun a => Fin.ext ?_)
  match a with
  | ⟨0, _⟩ => show win4_6.index t (0 : Fin 2) * 1 + 1 * (y 0).val = (y 0).val; omega
  | ⟨1, _⟩ => show win4_6.index t (1 : Fin 2) * 1 + 1 * (y 1).val = (y 1).val; omega

/-- WHAT POINT t WRITES BACK is block t of the decoder of the arrays as the launch finds them. -/
theorem flushed_eq (t : Fin cfg4.N) :
    (dat4 V c).flushed 7 t = ((cfg4.win 7).blk t).view.read (Elt Ideal) (G V c) := by
  have ht : 2000 * t.val + 2000 ≤ 200000 := by have := t.isLt; have hN : cfg4.N = 100 := N_4; omega
  show (cfg4.win 7).cut (grid4.coords t) ((dat4 V c).after 7 t) = _
  rw [after4_7]
  unfold out4_7
  rw [View.canon_unit_zero hz]
  simp only [View.ld_unit_zero (S := S2000x256) hz, View.ld_unit_zero (S := S256x256) hz,
    View.ld_unit_zero (S := S1x256) hz, View.ld_unit_zero (S := S256x1) hz, View.ld_unit_zero (S := S1x1) hz]
  rw [pay4_eq, blk2 V c t, blk3 V c t, blk4 V c t, blk5 V c t, blk6 V c t]
  obtain ⟨-, -, -, -, -, -, -, -, -, -, -, -, -, -, e0, e1⟩ := idx_facts t
  funext j
  obtain ⟨p, l, rfl⟩ : ∃ (p : Fin 2000) (l : Fin 1), j = ix2 p l := ⟨j 0, j 1, eq_ix2 j⟩
  have hT := Cert.Dec.dec_isTile (Ideal.ofBits .f32 0x00000000#32) (V c main_v85) (V c main_v86) (V c main_v87)
    (V c main_arg20) (V c main_v88) (blk0 V c t ht) (blk1 V c t ht) p l
  refine hT.trans ?_
  show G V c (ix2 ⟨2000 * t.val + p.val, by omega⟩ l) = G V c (((cfg4.win 7).blk t).view.emb (ix2 p l))
  refine congrArg (G V c) (funext fun a => Fin.ext ?_)
  match a with
  | ⟨0, _⟩ => show 2000 * t.val + p.val = win4_7.index t (0 : Fin 2) * 2000 + 1 * p.val; omega
  | ⟨1, _⟩ => show l.val = win4_7.index t (1 : Fin 2) * 1 + 1 * l.val; omega

/-- An index of the output array is in point t's block iff each coordinate is in the block's range on its axis. -/
theorem mem_blk (t : Fin cfg4.N) (i : S200000x1.Idx) :
    i ∈ ((cfg4.win 7).blk t).view.set ↔ ∀ a : Fin 2, win4_7.index t a * S2000x1.size a ≤ (i a).val ∧ (i a).val < win4_7.index t a * S2000x1.size a + S2000x1.size a := by
  show i ∈ ((View.whole main_v89).slice (win4_7.rect t)).set ↔ _
  rw [View.set_slice_whole, Rect.mem_set_unit]
  exact Iff.rfl

/-- Every row lies in some point's block: row r in block r / 2000. -/
theorem cover (i : S200000x1.Idx) : ∃ t : Fin cfg4.N, (cfg4.win 7).flush t = true ∧ i ∈ ((cfg4.win 7).blk t).view.set := by
  have hi0 : (i 0).val < 200000 := (i 0).isLt
  have hi1 : (i 1).val < 1 := (i 1).isLt
  have hN : cfg4.N = 100 := N_4
  refine ⟨⟨(i 0).val / 2000, by omega⟩, flush4_7 _, ?_⟩
  rw [mem_blk]
  obtain ⟨-, -, -, -, -, -, -, -, -, -, -, -, -, -, e0, e1⟩ := idx_facts ⟨(i 0).val / 2000, by omega⟩
  intro a
  match a with
  | ⟨0, _⟩ =>
    show win4_7.index _ (0 : Fin 2) * 2000 ≤ (i 0).val ∧ (i 0).val < win4_7.index _ (0 : Fin 2) * 2000 + 2000
    rw [e0]; show (i 0).val / 2000 * 2000 ≤ (i 0).val ∧ (i 0).val < (i 0).val / 2000 * 2000 + 2000; omega
  | ⟨1, _⟩ =>
    show win4_7.index _ (1 : Fin 2) * 1 ≤ (i 1).val ∧ (i 1).val < win4_7.index _ (1 : Fin 2) * 1 + 1
    rw [e1]; omega

/-- THE OUTPUT ARRAY after the launch is the decoder of the arrays as the launch finds them. -/
theorem final : (dat4 V c).arrAt 7 cfg4.N = G V c :=
  (dat4 V c).arrAt_eq_of_cover 7 (G V c) (fun t _ => flushed_eq V c t) cover

end Cert.KernelIdeal.Reg4

end
-- ==== Proof.KChain.lean ====
/-
  The kernel program's result, boundary by boundary.

  Reading the chain of buffer contents from the launch forward: after the first stretch of host operations the
  neighbour sums and node weights of both directions are in place; the first two launches leave the first
  layer's outputs at the drug and at the disease nodes; the third stretch gathers and scatter-adds those into the
  second layer's neighbour sums; the next two launches leave the second layer's outputs; the fifth stretch
  gathers their rows at the labelled pairs' end points and halves the decoder's first weight matrix; the last
  launch leaves the pairs' scores as a column, which the last operation flattens. Between the segment that
  writes a buffer and the one that reads it nothing touches it, so each read finds the value written; at the
  end the result buffer holds the scores as one function of the 22 argument arrays.
-/
import proofs.«119415_j90744069030634_2_alg».proof.Proof.Gen.KernelIdeal.Frame
import proofs.«119415_j90744069030634_2_alg».proof.Proof.KKeep
import proofs.«119415_j90744069030634_2_alg».proof.Proof.KHost
import proofs.«119415_j90744069030634_2_alg».proof.Proof.KReg0
import proofs.«119415_j90744069030634_2_alg».proof.Proof.KReg1
import proofs.«119415_j90744069030634_2_alg».proof.Proof.KReg2
import proofs.«119415_j90744069030634_2_alg».proof.Proof.KReg3
import proofs.«119415_j90744069030634_2_alg».proof.Proof.KReg4

set_option maxRecDepth 16384

noncomputable section

namespace Cert.KernelIdeal.Chain

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-- A buffer's launch contents on core c. -/
abbrev A (b : Ref sig .tc) : Buf (Elt Ideal) ((c : Thread nD τ).loc b) := m ((c : Thread nD τ).loc b)

/-! ## The arguments at every boundary -/

theorem W1_arg (b : Ref sig .tc) (hb : b.idx.val < 22) : W1 m ρ c (Proc.devRef .tc b) = A m c b :=
  host0_keep (W0 m ρ c) b hb
theorem W2_arg (b : Ref sig .tc) (hb : b.idx.val < 22) (h0 : ∀ w, Pipeline.arrRef spec0 w ≠ b) :
    W2 m ρ c (Proc.devRef .tc b) = A m c b := (W2_of_ne m ρ c b h0).trans (W1_arg m ρ c b hb)
theorem W3_arg (b : Ref sig .tc) (hb : b.idx.val < 22) (h0 : ∀ w, Pipeline.arrRef spec0 w ≠ b) :
    W3 m ρ c (Proc.devRef .tc b) = A m c b := (host1_keep (W2 m ρ c) b (by omega)).trans (W2_arg m ρ c b hb h0)
theorem W4_arg (b : Ref sig .tc) (hb : b.idx.val < 22) (h0 : ∀ w, Pipeline.arrRef spec0 w ≠ b) (h1 : ∀ w, Pipeline.arrRef spec1 w ≠ b) :
    W4 m ρ c (Proc.devRef .tc b) = A m c b := (W4_of_ne m ρ c b h1).trans (W3_arg m ρ c b hb h0)
theorem W5_arg (b : Ref sig .tc) (hb : b.idx.val < 22) (h0 : ∀ w, Pipeline.arrRef spec0 w ≠ b) (h1 : ∀ w, Pipeline.arrRef spec1 w ≠ b) :
    W5 m ρ c (Proc.devRef .tc b) = A m c b := (host2_keep (W4 m ρ c) b (by omega)).trans (W4_arg m ρ c b hb h0 h1)
theorem W6_arg (b : Ref sig .tc) (hb : b.idx.val < 22) (h0 : ∀ w, Pipeline.arrRef spec0 w ≠ b) (h1 : ∀ w, Pipeline.arrRef spec1 w ≠ b)
    (h2 : ∀ w, Pipeline.arrRef spec2 w ≠ b) : W6 m ρ c (Proc.devRef .tc b) = A m c b :=
  (W6_of_ne m ρ c b h2).trans (W5_arg m ρ c b hb h0 h1)
theorem W7_arg (b : Ref sig .tc) (hb : b.idx.val < 22) (h0 : ∀ w, Pipeline.arrRef spec0 w ≠ b) (h1 : ∀ w, Pipeline.arrRef spec1 w ≠ b)
    (h2 : ∀ w, Pipeline.arrRef spec2 w ≠ b) : W7 m ρ c (Proc.devRef .tc b) = A m c b :=
  (host3_keep (W6 m ρ c) b (by omega)).trans (W6_arg m ρ c b hb h0 h1 h2)
theorem W8_arg (b : Ref sig .tc) (hb : b.idx.val < 22) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) : W8 m ρ c (Proc.devRef .tc b) = A m c b :=
  (W8_of_ne m ρ c b h3).trans (W7_arg m ρ c b hb h0 h1 h2)
theorem W9_arg (b : Ref sig .tc) (hb : b.idx.val < 22) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) : W9 m ρ c (Proc.devRef .tc b) = A m c b :=
  (host4_keep (W8 m ρ c) b (by omega)).trans (W8_arg m ρ c b hb h0 h1 h2 h3)

/-! ## The first layer -/

/-- The first layer's output at the drug nodes. -/
def Z1D : (Cert.Spec.Sh 50000 256).Idx → EReal :=
  zd1Of (A m c main_arg0) (A m c main_arg1) (A m c main_arg2) (A m c main_arg3) (A m c main_arg9) (A m c main_arg10) (A m c main_arg11)
/-- The first layer's output at the disease nodes. -/
def Z1S : (Cert.Spec.Sh 30000 256).Idx → EReal :=
  zs1Of (A m c main_arg0) (A m c main_arg1) (A m c main_arg2) (A m c main_arg3) (A m c main_arg6) (A m c main_arg7) (A m c main_arg8)

theorem W1_v40 : W1 m ρ c (Proc.devRef .tc main_v40) = aggD (truncf .bf16 (A m c main_arg1 : FVec Ideal S30000x256 .f32) bitsLt_bf16_f32) (A m c main_arg2) (A m c main_arg3) :=
  h0_v40 (W0 m ρ c)
theorem W1_v29 : W1 m ρ c (Proc.devRef .tc main_v29) = aggS (truncf .bf16 (A m c main_arg0 : FVec Ideal S50000x256 .f32) bitsLt_bf16_f32) (A m c main_arg2) (A m c main_arg3) :=
  h0_v29 (W0 m ρ c)
theorem W1_v16 : W1 m ρ c (Proc.devRef .tc main_v16) = invD (A m c main_arg2) := h0_v16 (W0 m ρ c)
theorem W1_v11 : W1 m ρ c (Proc.devRef .tc main_v11) = invS (A m c main_arg3) := h0_v11 (W0 m ρ c)
theorem W1_v41 : W1 m ρ c (Proc.devRef .tc main_v41) = rowB (A m c main_arg10) := h0_v41 (W0 m ρ c)
theorem W1_v17 : W1 m ρ c (Proc.devRef .tc main_v17) = truncf (F := Ideal) (s := S50000x256) (φ := .f32) .bf16 (A m c main_arg0) bitsLt_bf16_f32 :=
  h0_v17 (W0 m ρ c)
theorem W1_v18 : W1 m ρ c (Proc.devRef .tc main_v18) = truncf (F := Ideal) (s := S30000x256) (φ := .f32) .bf16 (A m c main_arg1) bitsLt_bf16_f32 :=
  h0_v18 (W0 m ρ c)

/-- After the first launch its output array holds the first layer at the drug nodes. -/
theorem W2_v42 : W2 m ρ c (Proc.devRef .tc main_v42) = Z1D m c := by
  refine (W2_arr m ρ c 6).trans ((Reg0.final (V1 m ρ) c).trans ?_)
  unfold Reg0.G Z1D zd1Of
  rw [show V1 m ρ c main_v40 = _ from W1_v40 m ρ c, show V1 m ρ c main_v16 = _ from W1_v16 m ρ c,
    show V1 m ρ c main_arg9 = _ from W1_arg m ρ c main_arg9 (by decide), show V1 m ρ c main_v41 = _ from W1_v41 m ρ c,
    show V1 m ρ c main_v17 = _ from W1_v17 m ρ c, show V1 m ρ c main_arg11 = _ from W1_arg m ρ c main_arg11 (by decide)]

/-! ## Across the second stretch, the second launch -/

theorem W3_v43 : W3 m ρ c (Proc.devRef .tc main_v43) = rowB (A m c main_arg7) :=
  (h1_v43 (W2 m ρ c)).trans (congrArg rowB (W2_arg m ρ c main_arg7 (by decide) (by decide)))
theorem W3_v29 : W3 m ρ c (Proc.devRef .tc main_v29) = aggS (truncf .bf16 (A m c main_arg0 : FVec Ideal S50000x256 .f32) bitsLt_bf16_f32) (A m c main_arg2) (A m c main_arg3) :=
  (host1_keep (W2 m ρ c) main_v29 (by decide)).trans ((W2_of_ne m ρ c main_v29 (by decide)).trans (W1_v29 m ρ c))
theorem W3_v11 : W3 m ρ c (Proc.devRef .tc main_v11) = invS (A m c main_arg3) :=
  (host1_keep (W2 m ρ c) main_v11 (by decide)).trans ((W2_of_ne m ρ c main_v11 (by decide)).trans (W1_v11 m ρ c))
theorem W3_v18 : W3 m ρ c (Proc.devRef .tc main_v18) = truncf (F := Ideal) (s := S30000x256) (φ := .f32) .bf16 (A m c main_arg1) bitsLt_bf16_f32 :=
  (host1_keep (W2 m ρ c) main_v18 (by decide)).trans ((W2_of_ne m ρ c main_v18 (by decide)).trans (W1_v18 m ρ c))

/-- After the second launch its output array holds the first layer at the disease nodes. -/
theorem W4_v44 : W4 m ρ c (Proc.devRef .tc main_v44) = Z1S m c := by
  refine (W4_arr m ρ c 6).trans ((Reg1.final (V3 m ρ) c).trans ?_)
  unfold Reg1.G Z1S zs1Of
  rw [show V3 m ρ c main_v29 = _ from W3_v29 m ρ c, show V3 m ρ c main_v11 = _ from W3_v11 m ρ c,
    show V3 m ρ c main_arg6 = _ from W3_arg m ρ c main_arg6 (by decide) (by decide), show V3 m ρ c main_v43 = _ from W3_v43 m ρ c,
    show V3 m ρ c main_v18 = _ from W3_v18 m ρ c, show V3 m ρ c main_arg8 = _ from W3_arg m ρ c main_arg8 (by decide) (by decide)]

/-- The first layer at the drug nodes is still there after the second launch. -/
theorem W4_v42 : W4 m ρ c (Proc.devRef .tc main_v42) = Z1D m c :=
  (W4_of_ne m ρ c main_v42 (by decide)).trans ((host1_keep (W2 m ρ c) main_v42 (by decide)).trans (W2_v42 m ρ c))

/-- The drug nodes' weights, an input array of the first launch, are as computed when the third launch reads them. -/
theorem W5_v16 : W5 m ρ c (Proc.devRef .tc main_v16) = invD (A m c main_arg2) :=
  (host2_keep (W4 m ρ c) main_v16 (by decide)).trans ((W4_of_ne m ρ c main_v16 (by decide)).trans
    ((host1_keep (W2 m ρ c) main_v16 (by decide)).trans
      (((W2_arr m ρ c 1).trans (((dat0 (V1 m ρ) c).arrAt_in 1 rfl _).trans (A_eq0 (V1 m ρ) c 1))).trans (W1_v16 m ρ c))))

/-! ## The second layer -/

/-- The second layer's output at the drug nodes. -/
def Z2D : (Cert.Spec.Sh 50000 256).Idx → EReal :=
  zd2Of (Z1D m c) (Z1S m c) (A m c main_arg2) (A m c main_arg3) (A m c main_arg15) (A m c main_arg16) (A m c main_arg17)
/-- The second layer's output at the disease nodes. -/
def Z2S : (Cert.Spec.Sh 30000 256).Idx → EReal :=
  zs2Of (Z1D m c) (Z1S m c) (A m c main_arg2) (A m c main_arg3) (A m c main_arg12) (A m c main_arg13) (A m c main_arg14)

theorem W5_v66 : W5 m ρ c (Proc.devRef .tc main_v66) = aggD (Z1S m c) (A m c main_arg2) (A m c main_arg3) := by
  refine (h2_v66 (W4 m ρ c)).trans ?_
  rw [W4_v44 m ρ c, W4_arg m ρ c main_arg2 (by decide) (by decide) (by decide), W4_arg m ρ c main_arg3 (by decide) (by decide) (by decide)]
theorem W5_v55 : W5 m ρ c (Proc.devRef .tc main_v55) = aggS (Z1D m c) (A m c main_arg2) (A m c main_arg3) := by
  refine (h2_v55 (W4 m ρ c)).trans ?_
  rw [W4_v42 m ρ c, W4_arg m ρ c main_arg2 (by decide) (by decide) (by decide), W4_arg m ρ c main_arg3 (by decide) (by decide) (by decide)]
theorem W5_v67 : W5 m ρ c (Proc.devRef .tc main_v67) = rowB (A m c main_arg16) :=
  (h2_v67 (W4 m ρ c)).trans (congrArg rowB (W4_arg m ρ c main_arg16 (by decide) (by decide) (by decide)))
theorem W5_v42 : W5 m ρ c (Proc.devRef .tc main_v42) = Z1D m c :=
  (host2_keep (W4 m ρ c) main_v42 (by decide)).trans (W4_v42 m ρ c)

/-- After the third launch its output array holds the second layer at the drug nodes. -/
theorem W6_v68 : W6 m ρ c (Proc.devRef .tc main_v68) = Z2D m c := by
  refine (W6_arr m ρ c 6).trans ((Reg2.final (V5 m ρ) c).trans ?_)
  unfold Reg2.G Z2D zd2Of
  rw [show V5 m ρ c main_v66 = _ from W5_v66 m ρ c, show V5 m ρ c main_v16 = _ from W5_v16 m ρ c,
    show V5 m ρ c main_arg15 = _ from W5_arg m ρ c main_arg15 (by decide) (by decide) (by decide), show V5 m ρ c main_v67 = _ from W5_v67 m ρ c,
    show V5 m ρ c main_v42 = _ from W5_v42 m ρ c, show V5 m ρ c main_arg17 = _ from W5_arg m ρ c main_arg17 (by decide) (by decide) (by decide)]

theorem W7_v69 : W7 m ρ c (Proc.devRef .tc main_v69) = rowB (A m c main_arg13) :=
  (h3_v69 (W6 m ρ c)).trans (congrArg rowB (W6_arg m ρ c main_arg13 (by decide) (by decide) (by decide) (by decide)))
theorem W7_v55 : W7 m ρ c (Proc.devRef .tc main_v55) = aggS (Z1D m c) (A m c main_arg2) (A m c main_arg3) :=
  (host3_keep (W6 m ρ c) main_v55 (by decide)).trans ((W6_of_ne m ρ c main_v55 (by decide)).trans (W5_v55 m ρ c))
/-- The disease nodes' weights, an input array of the second launch, are as computed when the fourth reads them. -/
theorem W7_v11 : W7 m ρ c (Proc.devRef .tc main_v11) = invS (A m c main_arg3) :=
  (host3_keep (W6 m ρ c) main_v11 (by decide)).trans ((W6_of_ne m ρ c main_v11 (by decide)).trans
    ((host2_keep (W4 m ρ c) main_v11 (by decide)).trans
      (((W4_arr m ρ c 1).trans (((dat1 (V3 m ρ) c).arrAt_in 1 rfl _).trans (A_eq1 (V3 m ρ) c 1))).trans (W3_v11 m ρ c))))
theorem W7_v44 : W7 m ρ c (Proc.devRef .tc main_v44) = Z1S m c :=
  (host3_keep (W6 m ρ c) main_v44 (by decide)).trans ((W6_of_ne m ρ c main_v44 (by decide)).trans
    ((host2_keep (W4 m ρ c) main_v44 (by decide)).trans (W4_v44 m ρ c)))

/-- After the fourth launch its output array holds the second layer at the disease nodes. -/
theorem W8_v70 : W8 m ρ c (Proc.devRef .tc main_v70) = Z2S m c := by
  refine (W8_arr m ρ c 6).trans ((Reg3.final (V7 m ρ) c).trans ?_)
  unfold Reg3.G Z2S zs2Of
  rw [show V7 m ρ c main_v55 = _ from W7_v55 m ρ c, show V7 m ρ c main_v11 = _ from W7_v11 m ρ c,
    show V7 m ρ c main_arg12 = _ from W7_arg m ρ c main_arg12 (by decide) (by decide) (by decide) (by decide), show V7 m ρ c main_v69 = _ from W7_v69 m ρ c,
    show V7 m ρ c main_v44 = _ from W7_v44 m ρ c, show V7 m ρ c main_arg14 = _ from W7_arg m ρ c main_arg14 (by decide) (by decide) (by decide) (by decide)]

theorem W8_v68 : W8 m ρ c (Proc.devRef .tc main_v68) = Z2D m c :=
  (W8_of_ne m ρ c main_v68 (by decide)).trans ((host3_keep (W6 m ρ c) main_v68 (by decide)).trans (W6_v68 m ρ c))

/-! ## The decoder -/

theorem W9_v77 : W9 m ρ c (Proc.devRef .tc main_v77)
    = Host.gather gather_S50000x256_S200000x1_S200000x256_1_0_n_n_0_1_1256 (Z2D m c : FVec Ideal S50000x256 .bf16) (colL (normL 50000#32 (A m c main_arg4))) := by
  refine (h4_v77 (W8 m ρ c)).trans ?_
  rw [W8_v68 m ρ c, W8_arg m ρ c main_arg4 (by decide) (by decide) (by decide) (by decide) (by decide)]
theorem W9_v84 : W9 m ρ c (Proc.devRef .tc main_v84)
    = Host.gather gather_S30000x256_S200000x1_S200000x256_1_0_n_n_0_1_1256 (Z2S m c : FVec Ideal S30000x256 .bf16) (colL (normL 30000#32 (A m c main_arg5))) := by
  refine (h4_v84 (W8 m ρ c)).trans ?_
  rw [W8_v70 m ρ c, W8_arg m ρ c main_arg5 (by decide) (by decide) (by decide) (by decide) (by decide)]
theorem W9_v85 : W9 m ρ c (Proc.devRef .tc main_v85) = extractStridedSlice S256x256 ![0, 0] (A m c main_arg18) slices_S512x256_S256x256_0_0 :=
  (h4_v85 (W8 m ρ c)).trans (congrArg (fun x => extractStridedSlice S256x256 ![0, 0] x slices_S512x256_S256x256_0_0)
    (W8_arg m ρ c main_arg18 (by decide) (by decide) (by decide) (by decide) (by decide)))
theorem W9_v86 : W9 m ρ c (Proc.devRef .tc main_v86) = extractStridedSlice S256x256 ![256, 0] (A m c main_arg18) slices_S512x256_S256x256_256_0 :=
  (h4_v86 (W8 m ρ c)).trans (congrArg (fun x => extractStridedSlice S256x256 ![256, 0] x slices_S512x256_S256x256_256_0)
    (W8_arg m ρ c main_arg18 (by decide) (by decide) (by decide) (by decide) (by decide)))
theorem W9_v87 : W9 m ρ c (Proc.devRef .tc main_v87) = rowB (A m c main_arg19) :=
  (h4_v87 (W8 m ρ c)).trans (congrArg rowB (W8_arg m ρ c main_arg19 (by decide) (by decide) (by decide) (by decide) (by decide)))
theorem W9_v88 : W9 m ρ c (Proc.devRef .tc main_v88) = shapeCast S1x1 (A m c main_arg21) shapeCasts_S1_S1x1 :=
  (h4_v88 (W8 m ρ c)).trans (congrArg (fun x => shapeCast S1x1 x shapeCasts_S1_S1x1)
    (W8_arg m ρ c main_arg21 (by decide) (by decide) (by decide) (by decide) (by decide)))

/-- After the last launch its output array holds the labelled pairs' scores, as a column. -/
theorem W10_v89 : W10 m ρ c (Proc.devRef .tc main_v89)
    = scoresOf (Z2D m c) (Z2S m c) (A m c main_arg4) (A m c main_arg5) (A m c main_arg18) (A m c main_arg19) (A m c main_arg20) (A m c main_arg21) := by
  refine (W10_arr m ρ c 7).trans ((Reg4.final (V9 m ρ) c).trans ?_)
  unfold Reg4.G scoresOf
  rw [show V9 m ρ c main_v77 = _ from W9_v77 m ρ c, show V9 m ρ c main_v84 = _ from W9_v84 m ρ c,
    show V9 m ρ c main_v85 = _ from W9_v85 m ρ c, show V9 m ρ c main_v86 = _ from W9_v86 m ρ c,
    show V9 m ρ c main_v87 = _ from W9_v87 m ρ c,
    show V9 m ρ c main_arg20 = _ from W9_arg m ρ c main_arg20 (by decide) (by decide) (by decide) (by decide) (by decide),
    show V9 m ρ c main_v88 = _ from W9_v88 m ρ c]

/-- THE RESULT: at the last boundary the result buffer holds the scores as one function of the launch contents of
    the 22 arguments. -/
theorem W11_v90 : W11 m ρ c (Proc.devRef .tc main_v90)
    = outOf (A m c main_arg0) (A m c main_arg1) (A m c main_arg2) (A m c main_arg3) (A m c main_arg4) (A m c main_arg5)
        (A m c main_arg6) (A m c main_arg7) (A m c main_arg8) (A m c main_arg9) (A m c main_arg10) (A m c main_arg11)
        (A m c main_arg12) (A m c main_arg13) (A m c main_arg14) (A m c main_arg15) (A m c main_arg16) (A m c main_arg17)
        (A m c main_arg18) (A m c main_arg19) (A m c main_arg20) (A m c main_arg21) :=
  (h5_v90 (W10 m ρ c)).trans (congrArg (fun x => shapeCast S200000 x shapeCasts_S200000x1_S200000) (W10_v89 m ρ c))

end Cert.KernelIdeal.Chain

end
-- ==== Proof.Reads.lean ====
/-
  What a few layout operations of a host program hold at an index, on the extended reals.

  A reshape reads the operand at the index with the same row-major position; a broadcast along named axes reads
  the operand at the coordinates those axes carry (0 on the operand's axes of extent one); a scalar broadcast
  reads the scalar; a side-by-side placement of two 256-column arrays reads the first in columns [0, 256) and the
  second in columns [256, 512); the slice of rows [o, o + 256) of a 512-row matrix reads row o + k in row k.
  With these, the arrays a dense layer's reference builds are read entry by entry:
    - the reciprocal of max(count, 1), reshaped to a column, holds 1 / max(count r, 1) in row r;
    - max(count, 1) repeated along the rows holds max(count r, 1) in every column of row r;
    - a bias of C entries repeated down the rows holds entry j in column j;
    - max(x, 1) is never zero, because 0 < 1 ≤ max(x, 1).
-/
import Idealize.ShloMosaic.Lib.Pipeline.Value
import Idealize.ShloMosaic.Lib.ValueIdx
import Idealize.ShloMosaic.Lib.IdealHost
import Idealize.ShloMosaic.PureOps.Ideal.Laws

noncomputable section

namespace Cert.Reads

open Idealize.ShloMosaic Idealize.ShloMosaic.ValueIdx

/-- The 2-dimensional shape a × b. -/
abbrev Sh (a b : Nat) : Shape := ⟨2, ![a, b]⟩

/-- The 1-dimensional shape of n entries. -/
abbrev S1 (n : Nat) : Shape := ⟨1, ![n]⟩

/-- Row 0 of a one-row array, column 0 of a one-column array. -/
abbrev z1 : Fin 1 := ⟨0, Nat.one_pos⟩

/-- max(x, 1) is never zero: 0 < 1 ≤ max(x, 1). -/
theorem max_one_ne_zero (x : EReal) : max x 1 ≠ 0 :=
  (lt_of_lt_of_le zero_lt_one (le_max_right x 1)).ne'

/-- A vector of M entries reshaped to an M × 1 column reads entry r in row r. -/
theorem col_apply {M : Nat} (v : (S1 M).Idx → EReal) (h : (S1 M).ShapeCasts (Sh M 1)) (r : Fin M) :
    shapeCast (Sh M 1) v h (ix2 r z1) = v (ix1 r) := by
  refine shapeCast_apply v h (ix2 r z1) (ix1 r) ?_
  rw [Shape.rowMajor_val_one, Shape.rowMajor_val_two]
  show r.val = r.val * 1 + 0
  omega

/-- THE RECIPROCAL COUNT AS A COLUMN: the quotient of ones by max(count, ones), reshaped to a column, holds
    1 / max(count r, 1) in row r. -/
theorem recip_col {M : Nat} (CNT ONES : (S1 M).Idx → EReal) (hO : ∀ i, ONES i = 1)
    (h : (S1 M).ShapeCasts (Sh M 1)) (r : Fin M) :
    shapeCast (Sh M 1) (Host.divf (F := Ideal) (φ := .f32) ONES (maximumf (F := Ideal) (φ := .f32) CNT ONES)) h (ix2 r z1)
      = Ideal.div 1 (max (CNT (ix1 r)) 1) := by
  rw [col_apply]
  show Ideal.div (ONES (ix1 r)) (max (CNT (ix1 r)) (ONES (ix1 r))) = _
  rw [hO]

/-- A vector of M entries broadcast to an M × 1 column and then along C columns reads entry (row of the index). -/
theorem rows_apply {M C : Nat} (v : (S1 M).Idx → EReal)
    (g1 : (S1 M).BroadcastsInDim (Sh M 1) ![0]) (g2 : (Sh M 1).BroadcastsInDim (Sh M C) ![0, 1]) (i : (Sh M C).Idx) :
    broadcastInDim (Sh M C) ![0, 1] g2 (broadcastInDim (Sh M 1) ![0] g1 v) i = v (ix1 (i 0)) := by
  have h0 : (i 0).val < M := idx2_lt0 i
  refine (broadcastInDim_apply _ g2 _ i (ix2 (i 0) z1) fun a => ?_).trans ?_
  · match a with
    | ⟨0, _⟩ =>
      show (i 0).val = if M = 1 then 0 else (i 0).val
      split <;> omega
    | ⟨1, _⟩ => rfl
  · refine broadcastInDim_apply _ g1 v (ix2 (i 0) z1) (ix1 (i 0)) fun a => ?_
    match a with
    | ⟨0, _⟩ =>
      show (i 0).val = if M = 1 then 0 else (i 0).val
      split <;> omega

/-- THE COUNT REPEATED ALONG THE ROWS: max(count, ones) as a column, repeated over 256 columns, holds
    max(count r, 1) in every column of row r. -/
theorem count_rows {M : Nat} (CNT ONES : (S1 M).Idx → EReal) (hO : ∀ i, ONES i = 1)
    (g1 : (S1 M).BroadcastsInDim (Sh M 1) ![0]) (g2 : (Sh M 1).BroadcastsInDim (Sh M 256) ![0, 1])
    (i : (Sh M 256).Idx) :
    broadcastInDim (Sh M 256) ![0, 1] g2 (broadcastInDim (Sh M 1) ![0] g1 (maximumf (F := Ideal) (φ := .f32) CNT ONES)) i
      = max (CNT (ix1 (i 0))) 1 := by
  rw [rows_apply]
  show max (CNT (ix1 (i 0))) (ONES (ix1 (i 0))) = _
  rw [hO]

/-- A BIAS REPEATED DOWN THE ROWS: a bias of C entries viewed 1 × C and repeated down M rows holds entry j in
    column j. -/
theorem bias_rows {M C : Nat} (b : (S1 C).Idx → EReal)
    (g1 : (S1 C).BroadcastsInDim (Sh 1 C) ![1]) (g2 : (Sh 1 C).BroadcastsInDim (Sh M C) ![0, 1]) (i : (Sh M C).Idx) :
    broadcastInDim (Sh M C) ![0, 1] g2 (broadcastInDim (Sh 1 C) ![1] g1 b) i = b (ix1 (i 1)) := by
  have h1 : (i 1).val < C := idx2_lt1 i
  refine (broadcastInDim_apply _ g2 _ i (ix2 z1 (i 1)) fun a => ?_).trans ?_
  · match a with
    | ⟨0, _⟩ => rfl
    | ⟨1, _⟩ =>
      show (i 1).val = if C = 1 then 0 else (i 1).val
      split <;> omega
  · refine broadcastInDim_apply _ g1 b (ix2 z1 (i 1)) (ix1 (i 1)) fun a => ?_
    match a with
    | ⟨0, _⟩ =>
      show (i 1).val = if C = 1 then 0 else (i 1).val
      split <;> omega

/-- A bias of C entries reshaped to one row of C columns reads entry j in column j. -/
theorem bias_row {C : Nat} (b : (S1 C).Idx → EReal) (h : (S1 C).ShapeCasts (Sh 1 C)) (j : Fin C) :
    shapeCast (Sh 1 C) b h (ix2 z1 j) = b (ix1 j) := by
  refine shapeCast_apply b h (ix2 z1 j) (ix1 j) ?_
  rw [Shape.rowMajor_val_one, Shape.rowMajor_val_two]
  show j.val = 0 * C + j.val
  omega

/-- A scalar holding one float word, broadcast to any shape, reads that word's value everywhere. -/
theorem splat_word {T : Shape} (w : BitVec 32) (g : (⟨0, ![]⟩ : Shape).BroadcastsInDim T ![]) (i : T.Idx) :
    broadcastInDim T ![] g (constant (F := Ideal) ⟨0, ![]⟩ .f32 w) i = Ideal.ofBits .f32 w :=
  broadcastInDim_scalar_apply g _ i

/-- The zero word splat over an M × C array. -/
theorem splat_zero {M C : Nat} (g : (⟨0, ![]⟩ : Shape).BroadcastsInDim (Sh M C) ![]) (i : (Sh M C).Idx) :
    broadcastInDim (Sh M C) ![] g (constant (F := Ideal) ⟨0, ![]⟩ .f32 0x00000000#32) i
      = Ideal.ofBits .f32 0x00000000#32 :=
  splat_word _ g i

/-- The zero word splat over an M × C array is the extended real 0. -/
theorem splat_zero_eq {M C : Nat} (g : (⟨0, ![]⟩ : Shape).BroadcastsInDim (Sh M C) ![]) (i : (Sh M C).Idx) :
    broadcastInDim (Sh M C) ![] g (constant (F := Ideal) ⟨0, ![]⟩ .f32 0x00000000#32) i = 0 :=
  (splat_word _ g i).trans Ideal.ofBits_zero_f32

/-- The one word splat over a vector of M entries is the extended real 1. -/
theorem splat_one {M : Nat} (g : (⟨0, ![]⟩ : Shape).BroadcastsInDim (S1 M) ![]) (i : (S1 M).Idx) :
    broadcastInDim (S1 M) ![] g (constant (F := Ideal) ⟨0, ![]⟩ .f32 0x3F800000#32) i = 1 :=
  (splat_word _ g i).trans Ideal.ofBits_one_f32

/-- TWO 256-COLUMN ARRAYS SIDE BY SIDE: columns [0, 256) read the first array. -/
theorem cat_left {M : Nat} (ZR ZC : (Sh M 256).Idx → EReal)
    (h : Shape.Concatenates [Sh M 256, Sh M 256] (Sh M 512) 1) (r : Fin M) (k : Fin 256) :
    concatenate (Sh M 512) 1 [⟨Sh M 256, ZR⟩, ⟨Sh M 256, ZC⟩] h (ix2 r ⟨k.val, by omega⟩) = ZR (ix2 r k) := by
  refine concatenate_pair_apply_left (1 : Fin (Sh M 512).rank) ZR ZC h (ix2 r ⟨k.val, by omega⟩) rfl (ix2 r k) fun b => ?_
  match b with
  | ⟨0, _⟩ => rfl
  | ⟨1, _⟩ => rfl

/-- … and columns [256, 512) read the second, 256 columns to the left. -/
theorem cat_right {M : Nat} (ZR ZC : (Sh M 256).Idx → EReal)
    (h : Shape.Concatenates [Sh M 256, Sh M 256] (Sh M 512) 1) (r : Fin M) (k : Fin 256) :
    concatenate (Sh M 512) 1 [⟨Sh M 256, ZR⟩, ⟨Sh M 256, ZC⟩] h (ix2 r ⟨256 + k.val, by omega⟩) = ZC (ix2 r k) := by
  refine concatenate_pair_apply_right (1 : Fin (Sh M 512).rank) ZR ZC h (ix2 r ⟨256 + k.val, by omega⟩) rfl rfl (ix2 r k)
    (fun b hb => ?_) ?_
  · match b, hb with
    | ⟨0, _⟩, _ => rfl
    | ⟨1, _⟩, hb => exact absurd (Fin.ext rfl) hb
  · show k.val + 256 = 256 + k.val
    omega

/-- THE TWO HALVES OF A 512-ROW MATRIX: rows [0, 256) read row k in row k. -/
theorem upper_half (W : (Sh 512 256).Idx → EReal) (h0 : (Sh 512 256).Slices ![0, 0] (Sh 256 256)) (k j : Fin 256) :
    extractStridedSlice (Sh 256 256) ![0, 0] W h0 (ix2 k j) = W (ix2 ⟨k.val, by omega⟩ j) := by
  refine extractStridedSlice_apply _ W h0 (ix2 k j) (ix2 ⟨k.val, by omega⟩ j) fun a => ?_
  match a with
  | ⟨0, _⟩ => show k.val = 0 + k.val; omega
  | ⟨1, _⟩ => show j.val = 0 + j.val; omega

/-- … and rows [256, 512) read row 256 + k in row k. -/
theorem lower_half (W : (Sh 512 256).Idx → EReal) (h1 : (Sh 512 256).Slices ![256, 0] (Sh 256 256)) (k j : Fin 256) :
    extractStridedSlice (Sh 256 256) ![256, 0] W h1 (ix2 k j) = W (ix2 ⟨256 + k.val, by omega⟩ j) := by
  refine extractStridedSlice_apply _ W h1 (ix2 k j) (ix2 ⟨256 + k.val, by omega⟩ j) fun a => ?_
  match a with
  | ⟨0, _⟩ => rfl
  | ⟨1, _⟩ => show j.val = 0 + j.val; omega

end Cert.Reads

end
-- ==== Proof.Bridge.lean ====
/-
  Each dense layer in the arrangement a row-tiled kernel computes equals the expression a reference writes for
  the same arrays.

  A graph layer: the kernel's arrangement scales the neighbour sums by the reciprocal 1 / max(count, 1) held as a
  column; the reference divides by max(count, 1) repeated along the rows, adds the bias repeated down the rows,
  and (for an inner layer) takes the maximum with a splat of zero. Read entry by entry the reference's arrays are
  the ones the two arrangements' agreement asks for, and max(count, 1) is never zero.

  The decoder: the kernel's arrangement multiplies the two 256-entry rows by the upper and lower halves of a
  512-row matrix and adds; the reference places the rows side by side and multiplies once. A sum over 512 indices
  splits at 256.

  On the extended reals the host's product is the contraction onto a zero accumulator, and its quotient, sum and
  maximum act entry by entry, so each reference expression unfolds to the arrangement it is compared with.
-/
import proofs.«119415_j90744069030634_2_alg».proof.Proof.Spec
import proofs.«119415_j90744069030634_2_alg».proof.Proof.Decoder
import proofs.«119415_j90744069030634_2_alg».proof.Proof.Reads

noncomputable section

namespace Cert.Bridge

open Idealize.ShloMosaic Idealize.ShloMosaic.ValueIdx Cert.Reads

section Layer
variable {M : Nat} (S ROOT : (Sh M 256).Idx → EReal) (CNT ONES : (S1 M).Idx → EReal) (hO : ∀ i, ONES i = 1)
  (Wl Wr : (Sh 256 256).Idx → EReal) (bl : (S1 256).Idx → EReal)
  (d : DotDims (Sh M 256) (Sh 256 256) (Sh M 256)) (hd : d = DotDims.plain M 256 256)
  (h : (S1 M).ShapeCasts (Sh M 1)) (hb : (S1 256).ShapeCasts (Sh 1 256))
  (g1 : (S1 M).BroadcastsInDim (Sh M 1) ![0]) (g2 : (Sh M 1).BroadcastsInDim (Sh M 256) ![0, 1])
  (g3 : (S1 256).BroadcastsInDim (Sh 1 256) ![1]) (g4 : (Sh 1 256).BroadcastsInDim (Sh M 256) ![0, 1])

include hO in
/-- A layer in the arrangement "scale by the reciprocal count" is the layer in the arrangement "divide by the
    repeated count", for the arrays a reference builds: the reciprocal of max(count, 1) as a column, max(count, 1)
    repeated along the rows, the bias as one row and repeated down the rows. -/
theorem sage_eq_div (act : EReal → EReal) :
    Cert.Spec.sage M act S
        (shapeCast (Sh M 1) (Host.divf (F := Ideal) (φ := .f32) ONES (maximumf (F := Ideal) (φ := .f32) CNT ONES)) h)
        Wl (shapeCast (Sh 1 256) bl hb) ROOT Wr
      = Cert.Spec.sageDiv M act S
          (broadcastInDim (Sh M 256) ![0, 1] g2 (broadcastInDim (Sh M 1) ![0] g1 (maximumf (F := Ideal) (φ := .f32) CNT ONES)))
          Wl (broadcastInDim (Sh M 256) ![0, 1] g4 (broadcastInDim (Sh 1 256) ![1] g3 bl)) ROOT Wr :=
  Cert.Spec.sage_eq_sageDiv M act S _ _ Wl _ _ ROOT Wr (fun r => max (CNT (ix1 r)) 1)
    (fun _ => max_one_ne_zero _)
    (fun r => recip_col CNT ONES hO h r)
    (fun i => count_rows CNT ONES hO g1 g2 i)
    (fun i => (bias_rows bl g3 g4 i).trans (bias_row bl hb (i 1)).symm)

include hO hd in
/-- AN INNER LAYER: the arrangement with the maximum against the zero word equals the reference's expression
    "product of the quotient, plus bias, plus product of the own rows, maximum with a splat of zero". -/
theorem sage_relu_eq (g5 : (⟨0, ![]⟩ : Shape).BroadcastsInDim (Sh M 256) ![]) :
    Cert.Spec.sage M (fun v => max v (Ideal.ofBits .f32 0x00000000#32)) S
        (shapeCast (Sh M 1) (Host.divf (F := Ideal) (φ := .f32) ONES (maximumf (F := Ideal) (φ := .f32) CNT ONES)) h)
        Wl (shapeCast (Sh 1 256) bl hb) ROOT Wr
      = maximumf (F := Ideal) (φ := .f32)
          (addf (F := Ideal) (φ := .f32)
            (addf (F := Ideal) (φ := .f32)
              (Host.dotGeneral (F := Ideal) (φ₁ := .f32) (φ₂ := .f32) d none
                (Host.divf (F := Ideal) (φ := .f32) S
                  (broadcastInDim (Sh M 256) ![0, 1] g2 (broadcastInDim (Sh M 1) ![0] g1 (maximumf (F := Ideal) (φ := .f32) CNT ONES))))
                Wl)
              (broadcastInDim (Sh M 256) ![0, 1] g4 (broadcastInDim (Sh 1 256) ![1] g3 bl)))
            (Host.dotGeneral (F := Ideal) (φ₁ := .f32) (φ₂ := .f32) d none ROOT Wr))
          (broadcastInDim (Sh M 256) ![] g5 (constant (F := Ideal) ⟨0, ![]⟩ .f32 0x00000000#32)) := by
  subst hd
  refine (sage_eq_div S ROOT CNT ONES hO Wl Wr bl h hb g1 g2 g3 g4 _).trans ?_
  funext i
  rw [maximumf_apply, splat_zero g5 i]
  rfl

include hO hd in
/-- THE LAST LAYER: the arrangement with no maximum equals the reference's expression "product of the quotient,
    plus bias, plus product of the own rows". -/
theorem sage_id_eq :
    Cert.Spec.sage M (fun v => v) S
        (shapeCast (Sh M 1) (Host.divf (F := Ideal) (φ := .f32) ONES (maximumf (F := Ideal) (φ := .f32) CNT ONES)) h)
        Wl (shapeCast (Sh 1 256) bl hb) ROOT Wr
      = addf (F := Ideal) (φ := .f32)
          (addf (F := Ideal) (φ := .f32)
            (Host.dotGeneral (F := Ideal) (φ₁ := .f32) (φ₂ := .f32) d none
              (Host.divf (F := Ideal) (φ := .f32) S
                (broadcastInDim (Sh M 256) ![0, 1] g2 (broadcastInDim (Sh M 1) ![0] g1 (maximumf (F := Ideal) (φ := .f32) CNT ONES))))
              Wl)
            (broadcastInDim (Sh M 256) ![0, 1] g4 (broadcastInDim (Sh 1 256) ![1] g3 bl)))
          (Host.dotGeneral (F := Ideal) (φ₁ := .f32) (φ₂ := .f32) d none ROOT Wr) := by
  subst hd
  refine (sage_eq_div S ROOT CNT ONES hO Wl Wr bl h hb g1 g2 g3 g4 _).trans ?_
  funext i
  rfl

end Layer

/-- THE DECODER: the arrangement "two products with the halves of the matrix, summed" equals the reference's
    expression "rows side by side, one product, plus bias, maximum with a splat of zero, product with the
    column, plus bias". -/
theorem dec_eq {M : Nat} (ZR ZC : (Sh M 256).Idx → EReal) (W : (Sh 512 256).Idx → EReal)
    (b19 : (S1 256).Idx → EReal) (W2 : (Sh 256 1).Idx → EReal) (b21 : (S1 1).Idx → EReal)
    (d1 : DotDims (Sh M 512) (Sh 512 256) (Sh M 256)) (hd1 : d1 = DotDims.plain M 512 256)
    (d2 : DotDims (Sh M 256) (Sh 256 1) (Sh M 1)) (hd2 : d2 = DotDims.plain M 256 1)
    (hcat : Shape.Concatenates [Sh M 256, Sh M 256] (Sh M 512) 1)
    (h0 : (Sh 512 256).Slices ![0, 0] (Sh 256 256)) (h1 : (Sh 512 256).Slices ![256, 0] (Sh 256 256))
    (hb19 : (S1 256).ShapeCasts (Sh 1 256)) (hb21 : (S1 1).ShapeCasts (Sh 1 1))
    (g3 : (S1 256).BroadcastsInDim (Sh 1 256) ![1]) (g4 : (Sh 1 256).BroadcastsInDim (Sh M 256) ![0, 1])
    (g5 : (⟨0, ![]⟩ : Shape).BroadcastsInDim (Sh M 256) ![])
    (g6 : (S1 1).BroadcastsInDim (Sh 1 1) ![1]) (g7 : (Sh 1 1).BroadcastsInDim (Sh M 1) ![0, 1]) :
    Cert.Dec.dec M (Ideal.ofBits .f32 0x00000000#32) ZR ZC
        (extractStridedSlice (Sh 256 256) ![0, 0] W h0) (extractStridedSlice (Sh 256 256) ![256, 0] W h1)
        (shapeCast (Sh 1 256) b19 hb19) W2 (shapeCast (Sh 1 1) b21 hb21)
      = addf (F := Ideal) (φ := .f32)
          (Host.dotGeneral (F := Ideal) (φ₁ := .f32) (φ₂ := .f32) d2 none
            (maximumf (F := Ideal) (φ := .f32)
              (addf (F := Ideal) (φ := .f32)
                (Host.dotGeneral (F := Ideal) (φ₁ := .f32) (φ₂ := .f32) d1 none
                  (concatenate (Sh M 512) 1 [⟨Sh M 256, ZR⟩, ⟨Sh M 256, ZC⟩] hcat) W)
                (broadcastInDim (Sh M 256) ![0, 1] g4 (broadcastInDim (Sh 1 256) ![1] g3 b19)))
              (broadcastInDim (Sh M 256) ![] g5 (constant (F := Ideal) ⟨0, ![]⟩ .f32 0x00000000#32)))
            W2)
          (broadcastInDim (Sh M 1) ![0, 1] g7 (broadcastInDim (Sh 1 1) ![1] g6 b21)) := by
  subst hd1 hd2
  refine (Cert.Dec.dec_eq_decCat M _ ZR ZC _ _ _ W2 _
    (concatenate (Sh M 512) 1 [⟨Sh M 256, ZR⟩, ⟨Sh M 256, ZC⟩] hcat) W
    (broadcastInDim (Sh M 256) ![0, 1] g4 (broadcastInDim (Sh 1 256) ![1] g3 b19))
    (broadcastInDim (Sh M 256) ![] g5 (constant (F := Ideal) ⟨0, ![]⟩ .f32 0x00000000#32))
    (broadcastInDim (Sh M 1) ![0, 1] g7 (broadcastInDim (Sh 1 1) ![1] g6 b21))
    (cat_left ZR ZC hcat) (cat_right ZR ZC hcat) (upper_half W h0) (lower_half W h1)
    (fun i => (bias_rows b19 g3 g4 i).trans (bias_row b19 hb19 (i 1)).symm)
    (fun i => splat_zero g5 i)
    (fun i => ?_)).trans ?_
  · have hlt : (i 1).val < 1 := idx2_lt1 i
    have e : i 1 = z1 := Fin.ext (show (i 1).val = 0 by omega)
    exact (bias_rows b21 g6 g7 i).trans ((congrArg (fun t => b21 (ix1 t)) e).trans (bias_row b21 hb21 z1).symm)
  · funext i
    rfl

end Cert.Bridge

end
-- ==== Proof.RefEq.lean ====
/-
  The kernel program's result, as a function of the 22 argument arrays, equals the reference program's result.

  Both programs build the same values from the same arrays: the edge counts at the nodes (a 1 per edge,
  scatter-added at its end point), the neighbour sums (rows gathered at the edges' start points, scatter-added at
  their end points), two graph layers in each direction, and the decoder's scores of the labelled pairs. They
  differ in how each dense piece is arranged. In a graph layer the kernel side scales the neighbour sums by the
  reciprocal 1 / max(count, 1) held as a column, where the reference divides by max(count, 1) repeated along the
  rows; in the decoder the kernel side multiplies the two end points' rows by the two halves of a 512-row matrix
  and adds, where the reference places the rows side by side and multiplies once. Each dense piece is turned into
  the reference's arrangement, innermost first; what then remains are the two programs' own copies of the same
  dimension records, and changes of float format, which are the identity on the extended reals.
-/
import proofs.«119415_j90744069030634_2_alg».proof.Proof.KDefs
import proofs.«119415_j90744069030634_2_alg».proof.Proof.Bridge
import proofs.«119415_j90744069030634_2_alg».proof.Proof.Gen.ReferenceIdeal.Run

set_option maxRecDepth 8192

noncomputable section

namespace Cert.RefEq

open Idealize.ShloMosaic Idealize.ShloMosaic.TcCoe Idealize.SL.Sem Idealize.ShloMosaic.StableHlo
open Cert.ReferenceIdeal Cert.ReferenceIdeal.Gen

/-! ## The reference's pieces, over arbitrary arrays, with the reference's own dimension records -/

/-- 1.0 on every edge, every drug node, every disease node. -/
abbrev rOnesE : FVec Ideal S1000000 .f32 := broadcastInDim S1000000 ![] bcast_S_S1000000 (constant S_ .f32 0x3F800000#32)
abbrev rOnesD : FVec Ideal S50000 .f32 := broadcastInDim S50000 ![] bcast_S_S50000 (constant S_ .f32 0x3F800000#32)
abbrev rOnesS : FVec Ideal S30000 .f32 := broadcastInDim S30000 ![] bcast_S_S30000 (constant S_ .f32 0x3F800000#32)

/-- An index vector as a one-column index array. -/
abbrev rColE (i : IVec S1000000 32) : IVec S1000000x1 32 := broadcastInDim S1000000x1 ![0] bcast_S1000000_S1000000x1_0 i
abbrev rColL (i : IVec S200000 32) : IVec S200000x1 32 := broadcastInDim S200000x1 ![0] bcast_S200000_S200000x1_0 i

/-- An index with a negative value counted from the end of an axis of n entries. -/
abbrev rNormE (n : BitVec 32) (i : IVec S1000000 32) : IVec S1000000 32 :=
  select (cmpi .slt i (broadcastInDim S1000000 ![] bcast_S_S1000000 (constantI S_ 32 0#32)))
    (addi i (broadcastInDim S1000000 ![] bcast_S_S1000000 (constantI S_ 32 n))) i
abbrev rNormL (n : BitVec 32) (i : IVec S200000 32) : IVec S200000 32 :=
  select (cmpi .slt i (broadcastInDim S200000 ![] bcast_S_S200000 (constantI S_ 32 0#32)))
    (addi i (broadcastInDim S200000 ![] bcast_S_S200000 (constantI S_ 32 n))) i

/-- How many edges end at each drug node, at each disease node. -/
def rCntD (src : IVec S1000000 32) : FVec Ideal S50000 .f32 :=
  Host.scatterAdd scatter_S50000_S1000000x1_S1000000_n_0_0_1
    (broadcastInDim S50000 ![] bcast_S_S50000 (constant S_ .f32 0x00000000#32)) (rColE src) rOnesE
def rCntS (dst : IVec S1000000 32) : FVec Ideal S30000 .f32 :=
  Host.scatterAdd scatter_S30000_S1000000x1_S1000000_n_0_0_1
    (broadcastInDim S30000 ![] bcast_S_S30000 (constant S_ .f32 0x00000000#32)) (rColE dst) rOnesE

/-- Neighbour sums at the drug nodes of a disease-node feature array, and the other way round. -/
def rAggD (x : FVec Ideal S30000x256 .f32) (src dst : IVec S1000000 32) : FVec Ideal S50000x256 .f32 :=
  Host.scatterAdd scatter_S50000x256_S1000000x1_S1000000x256_1_0_0_1
    (broadcastInDim S50000x256 ![] bcast_S_S50000x256 (constant S_ .f32 0x00000000#32)) (rColE src)
    (Host.gather gather_S30000x256_S1000000x1_S1000000x256_1_0_n_n_0_1_1256 x (rColE (rNormE 30000#32 dst)))
def rAggS (x : FVec Ideal S50000x256 .f32) (src dst : IVec S1000000 32) : FVec Ideal S30000x256 .f32 :=
  Host.scatterAdd scatter_S30000x256_S1000000x1_S1000000x256_1_0_0_1
    (broadcastInDim S30000x256 ![] bcast_S_S30000x256 (constant S_ .f32 0x00000000#32)) (rColE dst)
    (Host.gather gather_S50000x256_S1000000x1_S1000000x256_1_0_n_n_0_1_1256 x (rColE (rNormE 50000#32 src)))

/-- The kernel program's counts and neighbour sums are the reference's: the same operations with the other
    program's copy of each dimension record; a change of float format is the identity. -/
theorem cntD_eq (src : IVec S1000000 32) : Cert.KernelIdeal.Chain.cntD src = rCntD src := rfl
theorem cntS_eq (dst : IVec S1000000 32) : Cert.KernelIdeal.Chain.cntS dst = rCntS dst := rfl
theorem aggD_eq (x : FVec Ideal S30000x256 .f32) (src dst : IVec S1000000 32) :
    Cert.KernelIdeal.Chain.aggD x src dst = rAggD x src dst := rfl
theorem aggS_eq (x : FVec Ideal S50000x256 .f32) (src dst : IVec S1000000 32) :
    Cert.KernelIdeal.Chain.aggS x src dst = rAggS x src dst := rfl

/-! ## The reference's layers and scores, over arbitrary arrays -/

/-- A layer before its rectifier, in the reference's arrangement: the product of the neighbour sums divided by
    max(count, 1), plus the bias, plus the product of the nodes' own rows. At the drug nodes (counts by the edges'
    drug end points), and at the disease nodes. -/
def rPreD (agg root : FVec Ideal S50000x256 .f32) (e : IVec S1000000 32) (Wl : FVec Ideal S256x256 .f32)
    (bl : FVec Ideal S256 .f32) (Wr : FVec Ideal S256x256 .f32) : FVec Ideal S50000x256 .f32 :=
  addf (addf (Host.dotGeneral dot_S50000x256_S256x256_S50000x256_1_0_0_1_n_n none
        (Host.divf agg (broadcastInDim S50000x256 ![0, 1] bcast_S50000x1_S50000x256_0_1
          (broadcastInDim S50000x1 ![0] bcast_S50000_S50000x1_0 (maximumf (rCntD e) rOnesD)))) Wl)
      (broadcastInDim S50000x256 ![0, 1] bcast_S1x256_S50000x256_0_1 (broadcastInDim S1x256 ![1] bcast_S256_S1x256_1 bl)))
    (Host.dotGeneral dot_S50000x256_S256x256_S50000x256_1_0_0_1_n_n none root Wr)

def rPreS (agg root : FVec Ideal S30000x256 .f32) (e : IVec S1000000 32) (Wl : FVec Ideal S256x256 .f32)
    (bl : FVec Ideal S256 .f32) (Wr : FVec Ideal S256x256 .f32) : FVec Ideal S30000x256 .f32 :=
  addf (addf (Host.dotGeneral dot_S30000x256_S256x256_S30000x256_1_0_0_1_n_n none
        (Host.divf agg (broadcastInDim S30000x256 ![0, 1] bcast_S30000x1_S30000x256_0_1
          (broadcastInDim S30000x1 ![0] bcast_S30000_S30000x1_0 (maximumf (rCntS e) rOnesS)))) Wl)
      (broadcastInDim S30000x256 ![0, 1] bcast_S1x256_S30000x256_0_1 (broadcastInDim S1x256 ![1] bcast_S256_S1x256_1 bl)))
    (Host.dotGeneral dot_S30000x256_S256x256_S30000x256_1_0_0_1_n_n none root Wr)

/-- First layer: the maximum with a splat of zero. -/
def rZd1 (x0 : FVec Ideal S50000x256 .f32) (x1 : FVec Ideal S30000x256 .f32) (src dst : IVec S1000000 32)
    (Wl : FVec Ideal S256x256 .f32) (bl : FVec Ideal S256 .f32) (Wr : FVec Ideal S256x256 .f32) : FVec Ideal S50000x256 .f32 :=
  maximumf (rPreD (rAggD x1 src dst) x0 src Wl bl Wr)
    (broadcastInDim S50000x256 ![] bcast_S_S50000x256 (constant S_ .f32 0x00000000#32))
def rZs1 (x0 : FVec Ideal S50000x256 .f32) (x1 : FVec Ideal S30000x256 .f32) (src dst : IVec S1000000 32)
    (Wl : FVec Ideal S256x256 .f32) (bl : FVec Ideal S256 .f32) (Wr : FVec Ideal S256x256 .f32) : FVec Ideal S30000x256 .f32 :=
  maximumf (rPreS (rAggS x0 src dst) x1 dst Wl bl Wr)
    (broadcastInDim S30000x256 ![] bcast_S_S30000x256 (constant S_ .f32 0x00000000#32))

/-- Second layer, from the first layer's outputs; no rectifier. -/
def rZd2 (zd1 : FVec Ideal S50000x256 .f32) (zs1 : FVec Ideal S30000x256 .f32) (src dst : IVec S1000000 32)
    (Wl : FVec Ideal S256x256 .f32) (bl : FVec Ideal S256 .f32) (Wr : FVec Ideal S256x256 .f32) : FVec Ideal S50000x256 .f32 :=
  rPreD (rAggD zs1 src dst) zd1 src Wl bl Wr
def rZs2 (zd1 : FVec Ideal S50000x256 .f32) (zs1 : FVec Ideal S30000x256 .f32) (src dst : IVec S1000000 32)
    (Wl : FVec Ideal S256x256 .f32) (bl : FVec Ideal S256 .f32) (Wr : FVec Ideal S256x256 .f32) : FVec Ideal S30000x256 .f32 :=
  rPreS (rAggS zd1 src dst) zs1 dst Wl bl Wr

/-- The labelled pairs' scores in the reference's arrangement: the two end points' rows side by side, one product
    with the 512-row matrix, bias, maximum with a splat of zero, product with the column, bias. -/
def rScores (zd2 : FVec Ideal S50000x256 .f32) (zs2 : FVec Ideal S30000x256 .f32) (row col : IVec S200000 32)
    (W1 : FVec Ideal S512x256 .f32) (b1 : FVec Ideal S256 .f32) (W2 : FVec Ideal S256x1 .f32) (b2 : FVec Ideal S1 .f32) :
    FVec Ideal S200000x1 .f32 :=
  addf (Host.dotGeneral dot_S200000x256_S256x1_S200000x1_1_0_0_1_n_n none
      (maximumf
        (addf (Host.dotGeneral dot_S200000x512_S512x256_S200000x256_1_0_0_1_n_n none
            (concatenate S200000x512 1
              [⟨S200000x256, Host.gather gather_S50000x256_S200000x1_S200000x256_1_0_n_n_0_1_1256 zd2 (rColL (rNormL 50000#32 row))⟩,
               ⟨S200000x256, Host.gather gather_S30000x256_S200000x1_S200000x256_1_0_n_n_0_1_1256 zs2 (rColL (rNormL 30000#32 col))⟩]
              concatenates_S200000x256_S200000x256_S200000x512_d1) W1)
          (broadcastInDim S200000x256 ![0, 1] bcast_S1x256_S200000x256_0_1 (broadcastInDim S1x256 ![1] bcast_S256_S1x256_1 b1)))
        (broadcastInDim S200000x256 ![] bcast_S_S200000x256 (constant S_ .f32 0x00000000#32))) W2)
    (broadcastInDim S200000x1 ![0, 1] bcast_S1x1_S200000x1_0_1 (broadcastInDim S1x1 ![1] bcast_S1_S1x1_1 b2))

/-- The reference's result as one function of the 22 argument arrays. -/
def rOut (a0 : FVec Ideal S50000x256 .f32) (a1 : FVec Ideal S30000x256 .f32) (a2 a3 : IVec S1000000 32) (a4 a5 : IVec S200000 32)
    (a6 : FVec Ideal S256x256 .f32) (a7 : FVec Ideal S256 .f32) (a8 a9 : FVec Ideal S256x256 .f32) (a10 : FVec Ideal S256 .f32)
    (a11 a12 : FVec Ideal S256x256 .f32) (a13 : FVec Ideal S256 .f32) (a14 a15 : FVec Ideal S256x256 .f32) (a16 : FVec Ideal S256 .f32)
    (a17 : FVec Ideal S256x256 .f32) (a18 : FVec Ideal S512x256 .f32) (a19 : FVec Ideal S256 .f32) (a20 : FVec Ideal S256x1 .f32)
    (a21 : FVec Ideal S1 .f32) : FVec Ideal S200000 .f32 :=
  shapeCast S200000
    (rScores
      (rZd2 (rZd1 a0 a1 a2 a3 a9 a10 a11) (rZs1 a0 a1 a2 a3 a6 a7 a8) a2 a3 a15 a16 a17)
      (rZs2 (rZd1 a0 a1 a2 a3 a9 a10 a11) (rZs1 a0 a1 a2 a3 a6 a7 a8) a2 a3 a12 a13 a14)
      a4 a5 a18 a19 a20 a21)
    shapeCasts_S200000x1_S200000

/-! ## Each dense piece of the kernel side, turned into the reference's arrangement -/

/-- The splat of the one word over the nodes is 1 everywhere. -/
theorem onesD_one (i : S50000.Idx) : Cert.KernelIdeal.Chain.onesD i = 1 := Cert.Reads.splat_one _ i
theorem onesS_one (i : S30000.Idx) : Cert.KernelIdeal.Chain.onesS i = 1 := Cert.Reads.splat_one _ i

/-- First layer at the drug nodes. -/
theorem zd1_eq (x0 : FVec Ideal S50000x256 .f32) (x1 : FVec Ideal S30000x256 .f32) (src dst : IVec S1000000 32)
    (Wl : FVec Ideal S256x256 .f32) (bl : FVec Ideal S256 .f32) (Wr : FVec Ideal S256x256 .f32) :
    Cert.KernelIdeal.Chain.zd1Of x0 x1 src dst Wl bl Wr = rZd1 x0 x1 src dst Wl bl Wr :=
  (Cert.Bridge.sage_relu_eq (M := 50000) _ _ (Cert.KernelIdeal.Chain.cntD src) Cert.KernelIdeal.Chain.onesD onesD_one Wl Wr bl
    dot_S50000x256_S256x256_S50000x256_1_0_0_1_n_n rfl
    Cert.KernelIdeal.Gen.shapeCasts_S50000_S50000x1 Cert.KernelIdeal.Gen.shapeCasts_S256_S1x256
    bcast_S50000_S50000x1_0 bcast_S50000x1_S50000x256_0_1 bcast_S256_S1x256_1 bcast_S1x256_S50000x256_0_1
    bcast_S_S50000x256).trans rfl

/-- First layer at the disease nodes. -/
theorem zs1_eq (x0 : FVec Ideal S50000x256 .f32) (x1 : FVec Ideal S30000x256 .f32) (src dst : IVec S1000000 32)
    (Wl : FVec Ideal S256x256 .f32) (bl : FVec Ideal S256 .f32) (Wr : FVec Ideal S256x256 .f32) :
    Cert.KernelIdeal.Chain.zs1Of x0 x1 src dst Wl bl Wr = rZs1 x0 x1 src dst Wl bl Wr :=
  (Cert.Bridge.sage_relu_eq (M := 30000) _ _ (Cert.KernelIdeal.Chain.cntS dst) Cert.KernelIdeal.Chain.onesS onesS_one Wl Wr bl
    dot_S30000x256_S256x256_S30000x256_1_0_0_1_n_n rfl
    Cert.KernelIdeal.Gen.shapeCasts_S30000_S30000x1 Cert.KernelIdeal.Gen.shapeCasts_S256_S1x256
    bcast_S30000_S30000x1_0 bcast_S30000x1_S30000x256_0_1 bcast_S256_S1x256_1 bcast_S1x256_S30000x256_0_1
    bcast_S_S30000x256).trans rfl

/-- Second layer at the drug nodes, from any first-layer outputs. -/
theorem zd2_eq (zd1 : FVec Ideal S50000x256 .f32) (zs1 : FVec Ideal S30000x256 .f32) (src dst : IVec S1000000 32)
    (Wl : FVec Ideal S256x256 .f32) (bl : FVec Ideal S256 .f32) (Wr : FVec Ideal S256x256 .f32) :
    Cert.KernelIdeal.Chain.zd2Of zd1 zs1 src dst Wl bl Wr = rZd2 zd1 zs1 src dst Wl bl Wr :=
  (Cert.Bridge.sage_id_eq (M := 50000) _ _ (Cert.KernelIdeal.Chain.cntD src) Cert.KernelIdeal.Chain.onesD onesD_one Wl Wr bl
    dot_S50000x256_S256x256_S50000x256_1_0_0_1_n_n rfl
    Cert.KernelIdeal.Gen.shapeCasts_S50000_S50000x1 Cert.KernelIdeal.Gen.shapeCasts_S256_S1x256
    bcast_S50000_S50000x1_0 bcast_S50000x1_S50000x256_0_1 bcast_S256_S1x256_1 bcast_S1x256_S50000x256_0_1).trans rfl

/-- Second layer at the disease nodes. -/
theorem zs2_eq (zd1 : FVec Ideal S50000x256 .f32) (zs1 : FVec Ideal S30000x256 .f32) (src dst : IVec S1000000 32)
    (Wl : FVec Ideal S256x256 .f32) (bl : FVec Ideal S256 .f32) (Wr : FVec Ideal S256x256 .f32) :
    Cert.KernelIdeal.Chain.zs2Of zd1 zs1 src dst Wl bl Wr = rZs2 zd1 zs1 src dst Wl bl Wr :=
  (Cert.Bridge.sage_id_eq (M := 30000) _ _ (Cert.KernelIdeal.Chain.cntS dst) Cert.KernelIdeal.Chain.onesS onesS_one Wl Wr bl
    dot_S30000x256_S256x256_S30000x256_1_0_0_1_n_n rfl
    Cert.KernelIdeal.Gen.shapeCasts_S30000_S30000x1 Cert.KernelIdeal.Gen.shapeCasts_S256_S1x256
    bcast_S30000_S30000x1_0 bcast_S30000x1_S30000x256_0_1 bcast_S256_S1x256_1 bcast_S1x256_S30000x256_0_1).trans rfl

/-- The scores, from any second-layer outputs. -/
theorem scores_eq (zd2 : FVec Ideal S50000x256 .f32) (zs2 : FVec Ideal S30000x256 .f32) (row col : IVec S200000 32)
    (W1 : FVec Ideal S512x256 .f32) (b1 : FVec Ideal S256 .f32) (W2 : FVec Ideal S256x1 .f32) (b2 : FVec Ideal S1 .f32) :
    Cert.KernelIdeal.Chain.scoresOf zd2 zs2 row col W1 b1 W2 b2 = rScores zd2 zs2 row col W1 b1 W2 b2 :=
  (Cert.Bridge.dec_eq (M := 200000) _ _ W1 b1 W2 b2
    dot_S200000x512_S512x256_S200000x256_1_0_0_1_n_n rfl dot_S200000x256_S256x1_S200000x1_1_0_0_1_n_n rfl
    concatenates_S200000x256_S200000x256_S200000x512_d1
    Cert.KernelIdeal.Gen.slices_S512x256_S256x256_0_0 Cert.KernelIdeal.Gen.slices_S512x256_S256x256_256_0
    Cert.KernelIdeal.Gen.shapeCasts_S256_S1x256 Cert.KernelIdeal.Gen.shapeCasts_S1_S1x1
    bcast_S256_S1x256_1 bcast_S1x256_S200000x256_0_1 bcast_S_S200000x256 bcast_S1_S1x1_1 bcast_S1x1_S200000x1_0_1).trans rfl

/-! ## The two results -/

/-- THE KERNEL PROGRAM'S RESULT IS THE REFERENCE'S, over arbitrary argument arrays: the five dense pieces turned
    into the reference's arrangement, innermost first. -/
theorem out_core (a0 : FVec Ideal S50000x256 .f32) (a1 : FVec Ideal S30000x256 .f32) (a2 a3 : IVec S1000000 32) (a4 a5 : IVec S200000 32)
    (a6 : FVec Ideal S256x256 .f32) (a7 : FVec Ideal S256 .f32) (a8 a9 : FVec Ideal S256x256 .f32) (a10 : FVec Ideal S256 .f32)
    (a11 a12 : FVec Ideal S256x256 .f32) (a13 : FVec Ideal S256 .f32) (a14 a15 : FVec Ideal S256x256 .f32) (a16 : FVec Ideal S256 .f32)
    (a17 : FVec Ideal S256x256 .f32) (a18 : FVec Ideal S512x256 .f32) (a19 : FVec Ideal S256 .f32) (a20 : FVec Ideal S256x1 .f32)
    (a21 : FVec Ideal S1 .f32) :
    Cert.KernelIdeal.Chain.outOf a0 a1 a2 a3 a4 a5 a6 a7 a8 a9 a10 a11 a12 a13 a14 a15 a16 a17 a18 a19 a20 a21 = rOut a0 a1 a2 a3 a4 a5 a6 a7 a8 a9 a10 a11 a12 a13 a14 a15 a16 a17 a18 a19 a20 a21 := by
  unfold Cert.KernelIdeal.Chain.outOf rOut
  rw [zd1_eq, zs1_eq, zd2_eq, zs2_eq, scores_eq]

/-- The reference's composed term of its arguments is `rOut` of the argument arrays. -/
theorem rOut_eq (m' : (ℓ : Loc nD τ sig) → Buf (Elt Ideal) ℓ) (c : Dev nD) :
    rOut (m' ((c.tc : Thread nD τ).loc main_arg0))
        (m' ((c.tc : Thread nD τ).loc main_arg1))
        (m' ((c.tc : Thread nD τ).loc main_arg2))
        (m' ((c.tc : Thread nD τ).loc main_arg3))
        (m' ((c.tc : Thread nD τ).loc main_arg4))
        (m' ((c.tc : Thread nD τ).loc main_arg5))
        (m' ((c.tc : Thread nD τ).loc main_arg6))
        (m' ((c.tc : Thread nD τ).loc main_arg7))
        (m' ((c.tc : Thread nD τ).loc main_arg8))
        (m' ((c.tc : Thread nD τ).loc main_arg9))
        (m' ((c.tc : Thread nD τ).loc main_arg10))
        (m' ((c.tc : Thread nD τ).loc main_arg11))
        (m' ((c.tc : Thread nD τ).loc main_arg12))
        (m' ((c.tc : Thread nD τ).loc main_arg13))
        (m' ((c.tc : Thread nD τ).loc main_arg14))
        (m' ((c.tc : Thread nD τ).loc main_arg15))
        (m' ((c.tc : Thread nD τ).loc main_arg16))
        (m' ((c.tc : Thread nD τ).loc main_arg17))
        (m' ((c.tc : Thread nD τ).loc main_arg18))
        (m' ((c.tc : Thread nD τ).loc main_arg19))
        (m' ((c.tc : Thread nD τ).loc main_arg20))
        (m' ((c.tc : Thread nD τ).loc main_arg21))
      = Cert.ReferenceIdeal.Value.res_main_v126 (F := Ideal) m' c := by
  unfold Cert.ReferenceIdeal.Value.res_main_v126
  rfl

/-- THE THEOREM: at the reference's launch contents, the kernel program's result function of the 22 argument
    arrays is the reference's result. -/
theorem out_eq (m' : (ℓ : Loc nD τ sig) → Buf (Elt Ideal) ℓ) (c : Dev nD) :
    Cert.KernelIdeal.Chain.outOf (m' ((c.tc : Thread nD τ).loc main_arg0))
        (m' ((c.tc : Thread nD τ).loc main_arg1))
        (m' ((c.tc : Thread nD τ).loc main_arg2))
        (m' ((c.tc : Thread nD τ).loc main_arg3))
        (m' ((c.tc : Thread nD τ).loc main_arg4))
        (m' ((c.tc : Thread nD τ).loc main_arg5))
        (m' ((c.tc : Thread nD τ).loc main_arg6))
        (m' ((c.tc : Thread nD τ).loc main_arg7))
        (m' ((c.tc : Thread nD τ).loc main_arg8))
        (m' ((c.tc : Thread nD τ).loc main_arg9))
        (m' ((c.tc : Thread nD τ).loc main_arg10))
        (m' ((c.tc : Thread nD τ).loc main_arg11))
        (m' ((c.tc : Thread nD τ).loc main_arg12))
        (m' ((c.tc : Thread nD τ).loc main_arg13))
        (m' ((c.tc : Thread nD τ).loc main_arg14))
        (m' ((c.tc : Thread nD τ).loc main_arg15))
        (m' ((c.tc : Thread nD τ).loc main_arg16))
        (m' ((c.tc : Thread nD τ).loc main_arg17))
        (m' ((c.tc : Thread nD τ).loc main_arg18))
        (m' ((c.tc : Thread nD τ).loc main_arg19))
        (m' ((c.tc : Thread nD τ).loc main_arg20))
        (m' ((c.tc : Thread nD τ).loc main_arg21))
      = Cert.ReferenceIdeal.Value.res_main_v126 (F := Ideal) m' c :=
  (out_core _ _ _ _ _ _ _ _ _ _ _ _ _ _ _ _ _ _ _ _ _ _).trans (rOut_eq m' c)

end Cert.RefEq

end
-- ==== Proof.lean ====
/-
  A two-layer graph network on a drug–disease graph, with an edge decoder: the tiled kernel program and the
  plain reference compute the same scores on the extended reals.

  Both programs gather feature rows along the edges, scatter-add them at the edges' other end points, and feed
  two stacked layers and a decoder. They differ in four ways, none of which changes a value on the extended
  reals. (1) The kernel rounds operands to a shorter float format on the way into its products; a change of
  format is the identity there. (2) The kernel takes the mean of the neighbour rows by multiplying with
  1 / max(count, 1) where the reference divides by max(count, 1): for c ≠ 0, x / c = x · c⁻¹ and 1 / c = c⁻¹,
  the infinities included, and max(count, 1) ≥ 1 is never 0. (3) The kernel computes each layer 2000 rows at a
  time; a layer's row r depends only on row r of its inputs, so the row blocks are the blocks of the layer on
  the whole arrays, and they tile the array. (4) The decoder multiplies the two end points' rows by the two
  halves of its first weight matrix and adds, where the reference multiplies the concatenated row by the whole
  matrix: a finite sum over 512 indices splits at 256, addition on the extended reals being a commutative
  monoid. No step uses that an input is finite, so the precondition is never opened.

  The kernel program is five launches among six stretches of host operations; its result is read off the chain
  of buffer contents at the segment boundaries. The reference is a straight line of host operations, whose
  result is the operations' composed term. The rewrite the idealization pass applied is empty, so the kernel's
  idealization is its own text read on the extended reals.
-/
import proofs.«119415_j90744069030634_2_alg».proof.Defs
import proofs.«119415_j90744069030634_2_alg».proof.Proof.Gen.Kernel
import proofs.«119415_j90744069030634_2_alg».proof.Proof.Gen.Kernel.Frame
import proofs.«119415_j90744069030634_2_alg».proof.Proof.Gen.KernelIdeal
import proofs.«119415_j90744069030634_2_alg».proof.Proof.Gen.KernelIdeal.Frame
import proofs.«119415_j90744069030634_2_alg».proof.Proof.Gen.ReferenceIdeal
import proofs.«119415_j90744069030634_2_alg».proof.Proof.Gen.ReferenceIdeal.Run
import proofs.«119415_j90744069030634_2_alg».proof.Proof.Gen.Pre_finite_inputs
import proofs.«119415_j90744069030634_2_alg».proof.Proof.KRun
import proofs.«119415_j90744069030634_2_alg».proof.Proof.KChain
import proofs.«119415_j90744069030634_2_alg».proof.Proof.RefEq
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote nothing. -/
theorem preserves : Cert.preserves_Kernel_KernelIdeal := trivial

/-- From memories agreeing on the 22 arguments both programs end with the scores as the same function of them. -/
theorem algebraic : Cert.algebraic_KernelIdeal_ReferenceIdeal := by
  intro m ρ m' ρ' _ hagree
  refine ⟨fun c => Cert.KernelIdeal.Chain.outOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21)), ?_, ?_⟩
  · exact (θ_run Cert.KernelIdeal.defs _ _).mono
      (fun r h c => ⟨(h c).1.trans (Cert.KernelIdeal.Chain.W11_v90 m ρ c), (h c).2⟩) (Cert.KernelIdeal.Run.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21⟩ := hagree c
    rw [← Cert.RefEq.out_eq m' c, e0, e1, e2, e3, e4, e5, e6, e7, e8, e9, e10, e11, e12, e13, e14, e15, e16, e17, e18, e19, e20, e21]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
